-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S128x10 .f32) (main_arg14 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x10 .f32 := Host.absf main_arg13
  let main_cst_20 : FVec F S_ .f32 := constant S_ .f32 0x7F800000#32
  let main_v55 : FVec F S128x10 .f32 := broadcastInDim S128x10 ![] bcast_S_S128x10 main_cst_20
  let main_v56 : IVec S128x10 1 := cmpf .olt main_v54 main_v55
  let main_c_21 : IVec S_ 1 := constantI S_ 1 1#1
  let main_v57 : IVec S_ 1 := (fun x v => Host.reduce IntOp.andi x v reducesTo_S128x10_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg9 : FVec F S128 .f32) (main_arg10 : FVec F S128 .f32) (main_arg11 : FVec F S128 .f32) (main_arg12 : FVec F S128 .f32) (main_arg13 : FVec F S128x10 .f32) (main_arg14 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x10 .f32) (main_arg14 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x10 .f32) (main_arg14 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩
abbrev S512x10 : Shape := ⟨2, ![512, 10]⟩
abbrev S1x10 : Shape := ⟨2, ![1, 10]⟩

abbrev nBuf : Space → Nat
  | .hbm => 177
  | .vmem => 54
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128x10, .f32⟩
  | 14 => ⟨S10, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x128, .f32⟩
  | 80 => ⟨S1700000x1, .f32⟩
  | 81 => ⟨S1700000x128, .f32⟩
  | 82 => ⟨S1700000x128, .f32⟩
  | 83 => ⟨S_, .f32⟩
  | 84 => ⟨S100000x128, .f32⟩
  | 85 => ⟨S1700000x1, .i32⟩
  | 86 => ⟨S100000x128, .f32⟩
  | 87 => ⟨S1x128, .f32⟩
  | 88 => ⟨S100000x128, .f32⟩
  | 89 => ⟨S1x128, .f32⟩
  | 90 => ⟨S1x128, .f32⟩
  | 91 => ⟨S128, .f32⟩
  | 92 => ⟨S_, .f32⟩
  | 93 => ⟨S128, .f32⟩
  | 94 => ⟨S128, .f32⟩
  | 95 => ⟨S128, .f32⟩
  | 96 => ⟨S_, .f32⟩
  | 97 => ⟨S128, .f32⟩
  | 98 => ⟨S128, .f32⟩
  | 99 => ⟨S128, .f32⟩
  | 100 => ⟨S128, .f32⟩
  | 101 => ⟨S1x128, .f32⟩
  | 102 => ⟨S1x128, .f32⟩
  | 103 => ⟨S1x128, .f32⟩
  | 104 => ⟨S1x128, .f32⟩
  | 105 => ⟨S100000x128, .f32⟩
  | 106 => ⟨S100000x128, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x1, .f32⟩
  | 117 => ⟨S1700000x128, .f32⟩
  | 118 => ⟨S1700000x128, .f32⟩
  | 119 => ⟨S_, .f32⟩
  | 120 => ⟨S100000x128, .f32⟩
  | 121 => ⟨S1700000x1, .i32⟩
  | 122 => ⟨S100000x128, .f32⟩
  | 123 => ⟨S1x128, .f32⟩
  | 124 => ⟨S100000x128, .f32⟩
  | 125 => ⟨S1x128, .f32⟩
  | 126 => ⟨S1x128, .f32⟩
  | 127 => ⟨S128, .f32⟩
  | _ => ⟨S100000x128, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S_, .f32⟩
  | 5 => ⟨S128, .f32⟩
  | 6 => ⟨S128, .f32⟩
  | 7 => ⟨S128, .f32⟩
  | 8 => ⟨S128, .f32⟩
  | 9 => ⟨S1x128, .f32⟩
  | 10 => ⟨S1x128, .f32⟩
  | 11 => ⟨S1x128, .f32⟩
  | 12 => ⟨S1x128, .f32⟩
  | 13 => ⟨S100000x128, .f32⟩
  | 14 => ⟨S_, .f32⟩
  | 15 => ⟨S100000, .f32⟩
  | 16 => ⟨S_, .f32⟩
  | 17 => ⟨S512, .f32⟩
  | 18 => ⟨S100000x1, .i32⟩
  | 19 => ⟨S512, .f32⟩
  | 20 => ⟨S_, .f32⟩
  | 21 => ⟨S512x128, .f32⟩
  | 22 => ⟨S100000x1, .i32⟩
  | 23 => ⟨S512x128, .f32⟩
  | 24 => ⟨S_, .f32⟩
  | 25 => ⟨S512, .f32⟩
  | 26 => ⟨S512, .f32⟩
  | 27 => ⟨S512x1, .f32⟩
  | 28 => ⟨S512x128, .f32⟩
  | 29 => ⟨S512x128, .f32⟩
  | 30 => ⟨S512x10, .f32⟩
  | 31 => ⟨S1x10, .f32⟩
  | 32 => ⟨S512x10, .f32⟩
  | 33 => ⟨S512x10, .f32⟩
  | 34 => ⟨S_, .f32⟩
  | 35 => ⟨S512, .f32⟩
  | 36 => ⟨S_, .f32⟩
  | 37 => ⟨S512, .f32⟩
  | 38 => ⟨S512, .f32⟩
  | 39 => ⟨S512x1, .f32⟩
  | 40 => ⟨S512x10, .f32⟩
  | 41 => ⟨S512x10, .f32⟩
  | 42 => ⟨S512x10, .f32⟩
  | 43 => ⟨S_, .f32⟩
  | 44 => ⟨S512, .f32⟩
  | 45 => ⟨S512x1, .f32⟩
  | 46 => ⟨S512x1, .f32⟩
  | 47 => ⟨S512x10, .f32⟩
  | 48 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_8 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61_0 : Ref sig .tc := ⟨.hbm, 89, rfl⟩
abbrev main_v61_1 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_12 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_13 : Ref sig .tc := ⟨.hbm, 107, rfl⟩
abbrev main_v76 : Ref sig .tc := ⟨.hbm, 108, rfl⟩
abbrev main_v77 : Ref sig .tc := ⟨.hbm, 109, rfl⟩
abbrev main_c_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_15 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91_0 : Ref sig .tc := ⟨.hbm, 125, rfl⟩
abbrev main_v91_1 : Ref sig .tc := ⟨.hbm, 126, rfl⟩
abbrev main_v92 : Ref sig .tc := ⟨.hbm, 127, rfl⟩
abbrev main_cst_16 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_17 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_18 : Ref sig .tc := ⟨.hbm, 142, rfl⟩
abbrev main_v105 : Ref sig .tc := ⟨.hbm, 143, rfl⟩
abbrev main_cst_19 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_20 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_21 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_call0_cst : Ref sig .tc := ⟨.hbm, 162, rfl⟩
abbrev main_call0_v0 : Ref sig .tc := ⟨.hbm, 163, rfl⟩
abbrev main_call0_cst_0 : Ref sig .tc := ⟨.hbm, 164, rfl⟩
abbrev main_call0_v1 : Ref sig .tc := ⟨.hbm, 165, rfl⟩
abbrev main_call0_v2 : Ref sig .tc := ⟨.hbm, 166, rfl⟩
abbrev main_call0_v3 : Ref sig .tc := ⟨.hbm, 167, rfl⟩
abbrev main_call0_v4 : Ref sig .tc := ⟨.hbm, 168, rfl⟩
abbrev main_call0_v5 : Ref sig .tc := ⟨.hbm, 169, rfl⟩
abbrev main_call0_v6 : Ref sig .tc := ⟨.hbm, 170, rfl⟩
abbrev main_call0_cst_1 : Ref sig .tc := ⟨.hbm, 171, rfl⟩
abbrev main_call0_v7 : Ref sig .tc := ⟨.hbm, 172, rfl⟩
abbrev main_call0_v8 : Ref sig .tc := ⟨.hbm, 173, rfl⟩
abbrev main_call0_v9 : Ref sig .tc := ⟨.hbm, 174, rfl⟩
abbrev main_call0_v10 : Ref sig .tc := ⟨.hbm, 175, rfl⟩
abbrev main_v121 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg3_0 : Ref sig .tc := ⟨.vmem, 28, rfl⟩
abbrev cc5_stg4_0 : Ref sig .tc := ⟨.vmem, 29, rfl⟩
abbrev cc5_stg5_0 : Ref sig .tc := ⟨.vmem, 30, rfl⟩
abbrev cc5_stg5_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc8_stg0_0 : Ref sig .tc := ⟨.vmem, 42, rfl⟩
abbrev cc8_stg0_1 : Ref sig .tc := ⟨.vmem, 43, rfl⟩
abbrev cc8_stg1_0 : Ref sig .tc := ⟨.vmem, 44, rfl⟩
abbrev cc8_stg2_0 : Ref sig .tc := ⟨.vmem, 45, rfl⟩
abbrev cc9_stg0_0 : Ref sig .tc := ⟨.vmem, 46, rfl⟩
abbrev cc9_stg0_1 : Ref sig .tc := ⟨.vmem, 47, rfl⟩
abbrev cc9_stg1_0 : Ref sig .tc := ⟨.vmem, 48, rfl⟩
abbrev cc9_stg2_0 : Ref sig .tc := ⟨.vmem, 49, rfl⟩
abbrev cc9_stg3_0 : Ref sig .tc := ⟨.vmem, 50, rfl⟩
abbrev cc9_stg4_0 : Ref sig .tc := ⟨.vmem, 51, rfl⟩
abbrev cc9_stg5_0 : Ref sig .tc := ⟨.vmem, 52, rfl⟩
abbrev cc9_stg5_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem3_0 : DmaSem sig := 28
abbrev cc5_sem4_0 : DmaSem sig := 29
abbrev cc5_sem5_0 : DmaSem sig := 30
abbrev cc5_sem5_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41
abbrev cc8_sem0_0 : DmaSem sig := 42
abbrev cc8_sem0_1 : DmaSem sig := 43
abbrev cc8_sem1_0 : DmaSem sig := 44
abbrev cc8_sem2_0 : DmaSem sig := 45
abbrev cc9_sem0_0 : DmaSem sig := 46
abbrev cc9_sem0_1 : DmaSem sig := 47
abbrev cc9_sem1_0 : DmaSem sig := 48
abbrev cc9_sem2_0 : DmaSem sig := 49
abbrev cc9_sem3_0 : DmaSem sig := 50
abbrev cc9_sem4_0 : DmaSem sig := 51
abbrev cc9_sem5_0 : DmaSem sig := 52
abbrev cc9_sem5_1 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S100000x128.size a
  hwx9_5 : ∀ i : grid9.Coords, EltTy.bits .f32 = 32 ∨ (Rect.block (s := S100000x128) S5000x128.size (cc9_transform_5 i) (hinb9_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v60) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v74) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v74) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v88) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v89) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v90) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v90) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v91_0) S1x128.size cc8_transform_1 reads8_1 true true 1 stage8_1 sem8_1
    hrank8 hreads8_1 hinb8_1 nbuf8_1 (Memref.isWhole_whole _) hwx8_1 hstage8_1

abbrev win8_2 : Pipeline.Window sig grid8 :=
  Pipeline.Window.ofSpec (Memref.whole main_v91_1) S1x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v90) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v100) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v101) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v102) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v103) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v104) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩
abbrev S512x10 : Shape := ⟨2, ![512, 10]⟩
abbrev S1x10 : Shape := ⟨2, ![1, 10]⟩

abbrev nBuf : Space → Nat
  | .hbm => 221
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128x10, .f32⟩
  | 14 => ⟨S10, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .f32⟩
  | 98 => ⟨S128, .f32⟩
  | 99 => ⟨S_, .f32⟩
  | 100 => ⟨S128, .f32⟩
  | 101 => ⟨S128, .f32⟩
  | 102 => ⟨S1x128, .f32⟩
  | 103 => ⟨S100000x128, .f32⟩
  | 104 => ⟨S100000x128, .f32⟩
  | 105 => ⟨S100000x128, .f32⟩
  | 106 => ⟨S_, .f32⟩
  | 107 => ⟨S128, .f32⟩
  | 108 => ⟨S_, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S_, .f32⟩
  | 115 => ⟨S128, .f32⟩
  | 116 => ⟨S128, .f32⟩
  | 117 => ⟨S128, .f32⟩
  | 118 => ⟨S1x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x128, .f32⟩
  | 12 => ⟨S1700000x1, .f32⟩
  | 13 => ⟨S1700000x128, .f32⟩
  | 14 => ⟨S1700000x128, .f32⟩
  | 15 => ⟨S_, .f32⟩
  | 16 => ⟨S100000x128, .f32⟩
  | 17 => ⟨S1700000x1, .i32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S_, .f32⟩
  | 26 => ⟨S128, .f32⟩
  | 27 => ⟨S_, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S100000x128, .f32⟩
  | 34 => ⟨S_, .f32⟩
  | 35 => ⟨S128, .f32⟩
  | 36 => ⟨S_, .f32⟩
  | 37 => ⟨S128, .f32⟩
  | 38 => ⟨S128, .f32⟩
  | 39 => ⟨S1x128, .f32⟩
  | 40 => ⟨S100000x128, .f32⟩
  | 41 => ⟨S100000x128, .f32⟩
  | 42 => ⟨S_, .f32⟩
  | 43 => ⟨S128, .f32⟩
  | 44 => ⟨S128, .f32⟩
  | 45 => ⟨S128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .f32⟩
  | 59 => ⟨S100000, .f32⟩
  | 60 => ⟨S_, .f32⟩
  | 61 => ⟨S512, .f32⟩
  | 62 => ⟨S100000x1, .i32⟩
  | 63 => ⟨S512, .f32⟩
  | 64 => ⟨S_, .f32⟩
  | 65 => ⟨S512x128, .f32⟩
  | 66 => ⟨S100000x1, .i32⟩
  | 67 => ⟨S512x128, .f32⟩
  | 68 => ⟨S_, .f32⟩
  | 69 => ⟨S512, .f32⟩
  | 70 => ⟨S512, .f32⟩
  | 71 => ⟨S512x1, .f32⟩
  | 72 => ⟨S512x128, .f32⟩
  | 73 => ⟨S512x128, .f32⟩
  | 74 => ⟨S512x10, .f32⟩
  | 75 => ⟨S1x10, .f32⟩
  | 76 => ⟨S512x10, .f32⟩
  | 77 => ⟨S512x10, .f32⟩
  | 78 => ⟨S_, .f32⟩
  | 79 => ⟨S512, .f32⟩
  | 80 => ⟨S_, .f32⟩
  | 81 => ⟨S512, .f32⟩
  | 82 => ⟨S512, .f32⟩
  | 83 => ⟨S512x1, .f32⟩
  | 84 => ⟨S512x10, .f32⟩
  | 85 => ⟨S512x10, .f32⟩
  | 86 => ⟨S512x10, .f32⟩
  | 87 => ⟨S_, .f32⟩
  | 88 => ⟨S512, .f32⟩
  | 89 => ⟨S512x1, .f32⟩
  | 90 => ⟨S512x1, .f32⟩
  | 91 => ⟨S512x10, .f32⟩
  | 92 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call0_cst : Ref sig .tc := ⟨.hbm, 71, rfl⟩
abbrev main_call0_v0 : Ref sig .tc := ⟨.hbm, 72, rfl⟩
abbrev main_v46 : Ref sig .tc := ⟨.hbm, 73, rfl⟩
abbrev main_v47 : Ref sig .tc := ⟨.hbm, 74, rfl⟩
abbrev main_c_8 : Ref sig .tc := ⟨.hbm, 75, rfl⟩
abbrev main_v48 : Ref sig .tc := ⟨.hbm, 76, rfl⟩
abbrev main_v49 : Ref sig .tc := ⟨.hbm, 77, rfl⟩
abbrev main_c_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call1_cst : Ref sig .tc := ⟨.hbm, 94, rfl⟩
abbrev main_call1_v0 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_13 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_call2_cst : Ref sig .tc := ⟨.hbm, 127, rfl⟩
abbrev main_call2_v0 : Ref sig .tc := ⟨.hbm, 128, rfl⟩
abbrev main_v90 : Ref sig .tc := ⟨.hbm, 129, rfl⟩
abbrev main_v91 : Ref sig .tc := ⟨.hbm, 130, rfl⟩
abbrev main_c_16 : Ref sig .tc := ⟨.hbm, 131, rfl⟩
abbrev main_v92 : Ref sig .tc := ⟨.hbm, 132, rfl⟩
abbrev main_v93 : Ref sig .tc := ⟨.hbm, 133, rfl⟩
abbrev main_c_17 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_18 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_call3_cst : Ref sig .tc := ⟨.hbm, 150, rfl⟩
abbrev main_call3_v0 : Ref sig .tc := ⟨.hbm, 151, rfl⟩
abbrev main_v108 : Ref sig .tc := ⟨.hbm, 152, rfl⟩
abbrev main_cst_19 : Ref sig .tc := ⟨.hbm, 153, rfl⟩
abbrev main_v109 : Ref sig .tc := ⟨.hbm, 154, rfl⟩
abbrev main_cst_20 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_21 : Ref sig .tc := ⟨.hbm, 162, rfl⟩
abbrev main_v116 : Ref sig .tc := ⟨.hbm, 163, rfl⟩
abbrev main_cst_22 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_23 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_call4_cst : Ref sig .tc := ⟨.hbm, 183, rfl⟩
abbrev main_call4_v0 : Ref sig .tc := ⟨.hbm, 184, rfl⟩
abbrev main_v134 : Ref sig .tc := ⟨.hbm, 185, rfl⟩
abbrev main_cst_24 : Ref sig .tc := ⟨.hbm, 186, rfl⟩
abbrev main_v135 : Ref sig .tc := ⟨.hbm, 187, rfl⟩
abbrev main_cst_25 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_26 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_27 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_call5_cst : Ref sig .tc := ⟨.hbm, 206, rfl⟩
abbrev main_call5_v0 : Ref sig .tc := ⟨.hbm, 207, rfl⟩
abbrev main_call5_cst_0 : Ref sig .tc := ⟨.hbm, 208, rfl⟩
abbrev main_call5_v1 : Ref sig .tc := ⟨.hbm, 209, rfl⟩
abbrev main_call5_v2 : Ref sig .tc := ⟨.hbm, 210, rfl⟩
abbrev main_call5_v3 : Ref sig .tc := ⟨.hbm, 211, rfl⟩
abbrev main_call5_v4 : Ref sig .tc := ⟨.hbm, 212, rfl⟩
abbrev main_call5_v5 : Ref sig .tc := ⟨.hbm, 213, rfl⟩
abbrev main_call5_v6 : Ref sig .tc := ⟨.hbm, 214, rfl⟩
abbrev main_call5_cst_1 : Ref sig .tc := ⟨.hbm, 215, rfl⟩
abbrev main_call5_v7 : Ref sig .tc := ⟨.hbm, 216, rfl⟩
abbrev main_call5_v8 : Ref sig .tc := ⟨.hbm, 217, rfl⟩
abbrev main_call5_v9 : Ref sig .tc := ⟨.hbm, 218, rfl⟩
abbrev main_call5_v10 : Ref sig .tc := ⟨.hbm, 219, rfl⟩
abbrev main_v151 : Ref sig .tc := ⟨.hbm, 220, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  bcast_S512x1_S512x10_0_1 : S512x1.BroadcastsInDim S512x10 (![0, 1] : Fin 2 → Fin S512x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KRun.lean ====
/-
  The idealized kernel's run with its result kept: every weakly fair execution of the program terminates without a
  fault, its argument arrays unchanged, and the result buffer holds what the last boundary of the fold through the
  program's segments holds there — the contents after the last stretch of host operations, which the value lemmas
  read back, region by region and stretch by stretch, to a function of the arguments.
-/
import proofs.«172140_j79293686219286_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, its last thread state read against the final memory: the result buffer at the last
    boundary's contents, each argument as launched. -/
theorem run_result : θ_run defs (onTc (τ := τ) (main (F := F))) ⟨m, fun _ => 0, ρ⟩ (fun r => ∀ c : Dev nD,
      r.2.mem ((c.tc : Thread nD τ).loc main_v121) = W18 m ρ c (Proc.devRef .tc main_v121)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v121 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c)⟩)

end Cert.KernelIdeal.RunVal

end
-- ==== Proof.SpecIdx.lean ====
/-
  The graph network's dense stages as functions of whole arrays, index by index, on the extended reals.

  A node-feature matrix has 100000 rows (nodes) and 128 columns (features); a weight matrix is 128 by 128;
  a per-feature row is 1 by 128.
  * `mmS x w`      — the matrix product: entry (r, c) is the sum over k of x (r, k) · w (k, c).
  * `biasRelu x b` — add the per-feature bias to every row, then clamp below at zero.
  * `colSum x`, `colSumSq x` — per feature, the sum over all nodes of the entries, and of their squares.
  * `bnApply x mu var g be` — the batch normalisation applied entrywise with given per-feature mean and
    variance: (x − mu) · (var + ε)^(−1/2) · g + be, clamped below at zero; ε is the single-precision word
    nearest 1e-5, read exactly.
-/
import Idealize.ShloMosaic.Lib.ValueIdx
import Idealize.ShloMosaic.PureOps.Ideal

noncomputable section

open scoped BigOperators

namespace Cert.Gcn

open Idealize.ShloMosaic Idealize.ShloMosaic.ValueIdx

/-- Node features: 100000 nodes by 128 features. -/
abbrev SN : Shape := ⟨2, ![100000, 128]⟩
/-- A weight matrix: 128 by 128. -/
abbrev SW : Shape := ⟨2, ![128, 128]⟩
/-- One row of per-feature values: 1 by 128. -/
abbrev SR : Shape := ⟨2, ![1, 128]⟩

/-- The variance offset ε of the normalisation: the single-precision word nearest 1e-5, read exactly. -/
def eps : EReal := Ideal.ofBits .f32 0x3727C5AC#32

/-- Matrix product: entry (r, c) is the sum over k of x (r, k) · w (k, c). -/
def mmS (x : SN.Idx → EReal) (w : SW.Idx → EReal) : SN.Idx → EReal :=
  fun i => ∑ k : Fin 128, x (ix2 (i 0) k) * w (ix2 k (i 1))

theorem mmS_ix2 (x : SN.Idx → EReal) (w : SW.Idx → EReal) (r : Fin 100000) (c : Fin 128) :
    mmS x w (ix2 r c) = ∑ k : Fin 128, x (ix2 r k) * w (ix2 k c) := rfl

/-- Bias and clamp: entry (r, c) is max (x (r, c) + b (0, c)) 0. -/
def biasRelu (x : SN.Idx → EReal) (b : SR.Idx → EReal) : SN.Idx → EReal :=
  fun i => max (x i + b (ix2 (0 : Fin 1) (i 1))) 0

theorem biasRelu_ix2 (x : SN.Idx → EReal) (b : SR.Idx → EReal) (r : Fin 100000) (c : Fin 128) :
    biasRelu x b (ix2 r c) = max (x (ix2 r c) + b (ix2 (0 : Fin 1) c)) 0 := rfl

/-- Per feature, the sum of the column over all nodes. -/
def colSum (x : SN.Idx → EReal) : SR.Idx → EReal :=
  fun i => ∑ r : Fin 100000, x (ix2 r (i 1))

theorem colSum_ix2 (x : SN.Idx → EReal) (z : Fin 1) (c : Fin 128) :
    colSum x (ix2 z c) = ∑ r : Fin 100000, x (ix2 r c) := rfl

/-- Per feature, the sum over all nodes of the squared entries of the column. -/
def colSumSq (x : SN.Idx → EReal) : SR.Idx → EReal :=
  fun i => ∑ r : Fin 100000, x (ix2 r (i 1)) * x (ix2 r (i 1))

theorem colSumSq_ix2 (x : SN.Idx → EReal) (z : Fin 1) (c : Fin 128) :
    colSumSq x (ix2 z c) = ∑ r : Fin 100000, x (ix2 r c) * x (ix2 r c) := rfl

/-- Normalise, scale, shift and clamp: entry (r, c) is
    max ((x (r, c) − mu (0, c)) · (var (0, c) + ε)^(−1/2) · g (0, c) + be (0, c)) 0. -/
def bnApply (x : SN.Idx → EReal) (mu var g be : SR.Idx → EReal) : SN.Idx → EReal :=
  fun i => max ((x i - mu (ix2 (0 : Fin 1) (i 1))) * Ideal.rsqrt (var (ix2 (0 : Fin 1) (i 1)) + eps)
      * g (ix2 (0 : Fin 1) (i 1)) + be (ix2 (0 : Fin 1) (i 1))) 0

theorem bnApply_ix2 (x : SN.Idx → EReal) (mu var g be : SR.Idx → EReal) (r : Fin 100000) (c : Fin 128) :
    bnApply x mu var g be (ix2 r c)
      = max ((x (ix2 r c) - mu (ix2 (0 : Fin 1) c)) * Ideal.rsqrt (var (ix2 (0 : Fin 1) c) + eps)
          * g (ix2 (0 : Fin 1) c) + be (ix2 (0 : Fin 1) c)) 0 := rfl

end Cert.Gcn

end
-- ==== Proof.Spec.lean ====
/-
  The whole network as one function of the argument arrays.

  Nodes carry 128 features; an edge list (with one self-loop appended per node) gives, per edge, a source row,
  a destination row and a symmetric degree normalisation (the product of the inverse square roots of the two
  endpoint degrees, each degree clamped below at 1). One layer is: multiply the features by a 128×128 weight,
  gather the source rows, scale each by its edge's normalisation, add the scaled rows up per destination node
  (`agg`), add a per-feature bias and clamp below at zero. Two of the three layers are followed by a batch
  normalisation over the nodes, with the mean the column sum over 100000 and the variance the mean of squares
  less the squared mean, then scale, shift and clamp (`bnK`). The tail pools the node rows per graph (sum over
  the graph's nodes divided by the node count clamped below at 1), applies the 128×10 classifier with its bias
  and takes the log-softmax over the 10 classes.

  The dense stages (`mmS`, `biasRelu`, `colSum`, `colSumSq`, `bnApply`) are stated entry by entry; the
  edge bookkeeping, the gather and scatter-add, and the tail are carried as the host operations themselves, since
  both programs apply the same ones.
-/
import proofs.«172140_j79293686219286_1_alg».proof.Proof.ReadP
import proofs.«172140_j79293686219286_1_alg».proof.Proof.SpecIdx

noncomputable section

namespace Cert.Gcn

open Cert.ReferenceIdeal Cert.ReferenceIdeal.Gen Cert.ReferenceIdeal.ReadP Idealize.ShloMosaic Idealize.ShloMosaic.TcCoe
  Idealize.ShloMosaic.ValueIdx

/-- Node features, 100000 × 128. -/
abbrev Feat := FVec Ideal S100000x128 .f32
/-- The edge list, 2 × 1600000 node numbers (row 0 the sources, row 1 the destinations). -/
abbrev Edges := (⟨S2x1600000, .i32⟩ : BufTy).Contents (Elt Ideal)
/-- The graph number of each node. -/
abbrev Batch := (⟨S100000, .i32⟩ : BufTy).Contents (Elt Ideal)
/-- A weight matrix, 128 × 128. -/
abbrev Wt := FVec Ideal S128x128 .f32
/-- A per-feature vector of 128 entries. -/
abbrev V128 := FVec Ideal S128 .f32

/-- The number of nodes as the divisor of the mean: the single-precision word of 100000, which is exact. -/
def c100k : EReal := Ideal.ofBits .f32 0x47C35000#32

/-- A vector of 128 entries read as a 1 × 128 row. -/
def rowOf (v : V128) : SR.Idx → EReal := fun i => v (ix1 (i 1))

/-- The per-feature mean from the column sums. -/
def meanRow (s : SR.Idx → EReal) : SR.Idx → EReal := fun i => Ideal.div (s i) c100k

/-- The per-feature variance from the column sums and the column sums of squares: the mean of the squares less
    the square of the mean. -/
def varRow (s ss : SR.Idx → EReal) : SR.Idx → EReal :=
  fun i => Ideal.div (ss i) c100k - Ideal.div (s i) c100k * Ideal.div (s i) c100k

/-- Gather the source rows of `h`, scale each by its edge's normalisation, and add them up per destination node,
    starting from zeros. -/
def agg (x1 : Edges) (h : Feat) : Feat :=
  Host.scatterAdd (F := Ideal) scatter_S100000x128_S1700000x1_S1700000x128_1_0_0_1 (val_main_v40 (F := Ideal))
    (val_main_v41 (F := Ideal) x1)
    (mulf (Host.gather gather_S100000x128_S1700000x1_S1700000x128_1_0_n_n_0_1_1128 h (val_main_v35 (F := Ideal) x1))
      (val_main_v38 (F := Ideal) x1))

/-- One layer: weight, aggregate over the edges, bias, clamp. -/
def layer (x1 : Edges) (h : Feat) (w : Wt) (b : V128) : Feat := biasRelu (agg x1 (mmS h w)) (rowOf b)

/-- Batch normalisation over the nodes with the statistics taken from the column sums, then scale, shift, clamp. -/
def bnK (h : Feat) (g be : V128) : Feat :=
  bnApply h (meanRow (colSum h)) (varRow (colSum h) (colSumSq h)) (rowOf g) (rowOf be)

/-- The node rows summed per graph and divided by the graph's node count (clamped below at 1). -/
def pooled (x2 : Batch) (h : Feat) : FVec Ideal S512x128 .f32 :=
  Host.divf (F := Ideal) (Host.scatterAdd (F := Ideal) scatter_S512x128_S100000x1_S100000x128_1_0_0_1 (val_main_v139 (F := Ideal))
    (val_main_v140 (F := Ideal) x2) h) (val_main_v145 (F := Ideal) x2)

/-- The classifier: pooled rows times the 128 × 10 matrix, plus the bias. -/
def logits (x2 : Batch) (x13 : FVec Ideal S128x10 .f32) (x14 : FVec Ideal S10 .f32)
    (h : Feat) : FVec Ideal S512x10 .f32 :=
  addf (Host.dotGeneral (F := Ideal) dot_S512x128_S128x10_S512x10_1_0_0_1_n_n none (pooled x2 h) x13) (val_main_v149 (F := Ideal) x14)

/-- Log-softmax along the 10 classes: subtract the row maximum, then the log of the row sum of exponentials. -/
def logSoftmax (z : FVec Ideal S512x10 .f32) : FVec Ideal S512x10 .f32 :=
  subf
    (subf z (broadcastInDim S512x10 ![0, 1] bcast_S512x1_S512x10_0_1 (broadcastInDim S512x1 ![0] bcast_S512_S512x1_0
      (maximumf (val_main_call5_v1 (F := Ideal))
        (Host.reduce FloatOps.maximumf z (val_main_call5_cst (F := Ideal)) reducesTo_S512x10_S512_d1 h_S_)))))
    (broadcastInDim S512x10 ![0, 1] bcast_S512x1_S512x10_0_1 (Host.log (F := Ideal) (broadcastInDim S512x1 ![0] bcast_S512_S512x1_0
      (Host.reduceAdd (F := Ideal) (Host.exp (F := Ideal)
        (subf z (broadcastInDim S512x10 ![0, 1] bcast_S512x1_S512x10_0_1 (broadcastInDim S512x1 ![0] bcast_S512_S512x1_0
          (maximumf (val_main_call5_v1 (F := Ideal))
            (Host.reduce FloatOps.maximumf z (val_main_call5_cst (F := Ideal)) reducesTo_S512x10_S512_d1 h_S_))))))
        (val_main_call5_cst_1 (F := Ideal)) reducesTo_S512x10_S512_d1 h_S_))))

/-- The tail: pool per graph, classify, log-softmax. -/
def tail (x2 : Batch) (x13 : FVec Ideal S128x10 .f32) (x14 : FVec Ideal S10 .f32)
    (h : Feat) : FVec Ideal S512x10 .f32 :=
  logSoftmax (logits x2 x13 x14 h)

/-- The whole network: three layers, a normalisation after the second and after the third, then the tail. -/
def net (x0 : Feat) (x1 : Edges) (x2 : Batch) (x3 : Wt) (x4 : V128) (x5 : Wt) (x6 : V128) (x7 : Wt) (x8 x9 x10 x11 x12 : V128)
    (x13 : FVec Ideal S128x10 .f32) (x14 : FVec Ideal S10 .f32) :
    FVec Ideal S512x10 .f32 :=
  tail x2 x13 x14 (bnK (layer x1 (bnK (layer x1 (layer x1 x0 x3 x4) x5 x6) x9 x10) x7 x8) x11 x12)

end Cert.Gcn

end
-- ==== Proof.SpecK.lean ====
/-
  The aggregation of one layer as a function of the edges' source rows, destination rows and normalisation — which the
  kernel program computes once, before its first region, and keeps — and of the features: negative row numbers count
  from the end, the source rows are gathered, scaled by the normalisation, and added up per destination row, starting
  from zeros. The specification's aggregation is this function at the edge list's own three arrays.
-/
import proofs.«172140_j79293686219286_1_alg».proof.Proof.Spec

noncomputable section

namespace Cert.Gcn

open Cert.ReferenceIdeal Cert.ReferenceIdeal.Gen Cert.ReferenceIdeal.ReadP Idealize.ShloMosaic Idealize.ShloMosaic.TcCoe
  Idealize.ShloMosaic.ValueIdx

def aggK (src dst : (⟨S1700000, .i32⟩ : BufTy).Contents (Elt Ideal)) (nrm : FVec Ideal S1700000 .f32) (h : Feat) : Feat :=
  Host.scatterAdd (F := Ideal) scatter_S100000x128_S1700000x1_S1700000x128_1_0_0_1 (val_main_v40 (F := Ideal))
    (broadcastInDim S1700000x1 ![0] bcast_S1700000_S1700000x1_0 dst : (⟨S1700000x1, .i32⟩ : BufTy).Contents (Elt Ideal))
    (mulf (Host.gather gather_S100000x128_S1700000x1_S1700000x128_1_0_n_n_0_1_1128 h
        (broadcastInDim S1700000x1 ![0] bcast_S1700000_S1700000x1_0
          (select (cmpi .slt src (val_main_v30 (F := Ideal))) (addi src (val_main_v32 (F := Ideal))) src
            : (⟨S1700000, .i32⟩ : BufTy).Contents (Elt Ideal)) : (⟨S1700000x1, .i32⟩ : BufTy).Contents (Elt Ideal)))
      (broadcastInDim S1700000x128 ![0, 1] bcast_S1700000x1_S1700000x128_0_1
        (broadcastInDim S1700000x1 ![0] bcast_S1700000_S1700000x1_0 nrm : FVec Ideal S1700000x1 .f32)))

theorem agg_eq_aggK (x1 : Edges) (h : Feat) :
    agg x1 h = aggK (val_main_v3 (F := Ideal) x1) (val_main_v6 (F := Ideal) x1) (val_main_v28 (F := Ideal) x1) h := rfl

end Cert.Gcn

end
-- ==== Proof.KKeep.lean ====
/-
  Walking a buffer back through the program's segments. The program is a chain of stretches of host operations and
  kernel regions; the contents of every buffer at each boundary are a fold from the launch memory. A buffer that a
  stretch does not write holds after it what it held before, and a buffer that is not one of a region's arrays holds
  after the region what it held before: so a buffer is read back, boundary by boundary, to the last segment that wrote
  it — for an argument array, to the launch memory. The argument arrays at the launch memory are named here once,
  at the types the network's specification takes them at.
-/
import proofs.«172140_j79293686219286_1_alg».proof.Proof.Gen.KernelIdeal.Frame
import proofs.«172140_j79293686219286_1_alg».proof.Proof.SpecK
import Idealize.ShloMosaic.Lib.ValueLayout

set_option maxRecDepth 16384

noncomputable section

namespace Cert.KernelIdeal.Walk

open Cert.KernelIdeal Cert.KernelIdeal.Gen Idealize.ShloMosaic Idealize.ShloMosaic.TcCoe Idealize.SL.Sem
  Idealize.ShloMosaic.StableHlo

/-- A buffer that no operation of the stretch writes keeps its contents across the stretch. -/
macro "keep_host " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- Back across a region of which the buffer is no array. -/
macro "rb " lem:ident : tactic => `(tactic| refine Eq.trans ($lem _ _ _ _ (by decide)) ?_)
/-- Back across a stretch of host operations that does not write the buffer. -/
macro "hb " ops:ident : tactic => `(tactic| refine Eq.trans (by keep_host $ops) ?_)

variable (m : (ℓ : Loc nD τ sig) → Buf (Elt Ideal) ℓ) (c : Dev nD)

/-- The node features as launched. -/
abbrev A0 : Cert.Gcn.Feat := m ((c : Thread nD τ).loc main_arg0)
/-- The edge list as launched. -/
abbrev A1 : Cert.Gcn.Edges := m ((c : Thread nD τ).loc main_arg1)
/-- The graph number of each node as launched. -/
abbrev A2 : Cert.Gcn.Batch := m ((c : Thread nD τ).loc main_arg2)
/-- The first layer's weight and bias. -/
abbrev A3 : Cert.Gcn.Wt := m ((c : Thread nD τ).loc main_arg3)
abbrev A4 : Cert.Gcn.V128 := m ((c : Thread nD τ).loc main_arg4)
/-- The second layer's weight and bias. -/
abbrev A5 : Cert.Gcn.Wt := m ((c : Thread nD τ).loc main_arg5)
abbrev A6 : Cert.Gcn.V128 := m ((c : Thread nD τ).loc main_arg6)
/-- The third layer's weight and bias. -/
abbrev A7 : Cert.Gcn.Wt := m ((c : Thread nD τ).loc main_arg7)
abbrev A8 : Cert.Gcn.V128 := m ((c : Thread nD τ).loc main_arg8)
/-- The two normalisations' scales and shifts. -/
abbrev A9 : Cert.Gcn.V128 := m ((c : Thread nD τ).loc main_arg9)
abbrev A10 : Cert.Gcn.V128 := m ((c : Thread nD τ).loc main_arg10)
abbrev A11 : Cert.Gcn.V128 := m ((c : Thread nD τ).loc main_arg11)
abbrev A12 : Cert.Gcn.V128 := m ((c : Thread nD τ).loc main_arg12)
/-- The classifier's matrix and bias. -/
abbrev A13 : FVec Ideal Cert.ReferenceIdeal.S128x10 .f32 := m ((c : Thread nD τ).loc main_arg13)
abbrev A14 : FVec Ideal Cert.ReferenceIdeal.S10 .f32 := m ((c : Thread nD τ).loc main_arg14)

/-- A vector of 128 entries reshaped to a 1 × 128 row is the row reading of the vector. -/
theorem shapeCast_row (v : Cert.Gcn.V128) (h : (⟨1, ![128]⟩ : Shape).ShapeCasts ⟨2, ![1, 128]⟩) :
    (shapeCast (⟨2, ![1, 128]⟩ : Shape) v h : Cert.Gcn.SR.Idx → EReal) = Cert.Gcn.rowOf v := by
  funext i
  obtain ⟨u, j, rfl⟩ : ∃ (u : Fin 1) (j : Fin 128), i = ValueIdx.ix2 u j := ⟨i 0, i 1, ValueIdx.eq_ix2 i⟩
  exact ValueIdx.shapeCast_a_1a_apply v h u j

end Cert.KernelIdeal.Walk

end
-- ==== Proof.KW0.lean ====
/-
  What the first stretch of host operations leaves: from the edge list alone, the source row and the destination
  row of every edge (the given edges followed by one self-loop per node) and the edges' normalisation (the product of
  the inverse square roots of the two endpoint degrees, each clamped below at 1). These three arrays are read by
  every later gather and scatter-add.
-/
import proofs.«172140_j79293686219286_1_alg».proof.Proof.KKeep

set_option maxRecDepth 16384

noncomputable section

namespace Cert.KernelIdeal.Walk

open Cert.KernelIdeal Cert.KernelIdeal.Gen Idealize.ShloMosaic Idealize.ShloMosaic.TcCoe Idealize.SL.Sem
  Idealize.ShloMosaic.StableHlo Cert.Gcn Cert.ReferenceIdeal.ReadP

variable (m : (ℓ : Loc nD τ sig) → Buf (Elt Ideal) ℓ) (ρ : Dev nD → PrngReg) (c : Dev nD)

theorem W1_v3 : W1 m ρ c (Proc.devRef .tc main_v3) = val_main_v3 (F := Ideal) (A1 m c) := by
  show StableHlo.after hostOps0 (W0 m ρ c) (Proc.devRef .tc main_v3) = _
  after_results
  rfl

theorem W1_v6 : W1 m ρ c (Proc.devRef .tc main_v6) = val_main_v6 (F := Ideal) (A1 m c) := by
  show StableHlo.after hostOps0 (W0 m ρ c) (Proc.devRef .tc main_v6) = _
  after_results
  rfl

set_option maxHeartbeats 4000000 in
theorem W1_v28 : W1 m ρ c (Proc.devRef .tc main_v28) = val_main_v28 (F := Ideal) (A1 m c) := by
  show StableHlo.after hostOps0 (W0 m ρ c) (Proc.devRef .tc main_v28) = _
  after_results_simp
  rfl

end Cert.KernelIdeal.Walk

end
-- ==== Proof.LibMatmul.lean ====
/-
  A row-by-column matrix product into a zero accumulator, read at an index of the result: entry (r, c) of an
  M×K by K×N product is the sum over the contracted coordinate k of left (r, k) times right (k, c).
  Stated for any dimension numbers that contract the left operand's second axis with the right operand's
  first and have no batch axes, at the exact (extended-real) instance, where the product carries no rounding.
-/
import Idealize.ShloMosaic.Lib.ValueIdx
import Idealize.ShloMosaic.Lib.Pipeline.Value
import Idealize.ShloMosaic.PureOps.Ideal.Laws

noncomputable section

namespace Idealize.ShloMosaic.MatmulRead

open Idealize.ShloMosaic Idealize.ShloMosaic.ValueIdx
open scoped BigOperators

/-- Entry (r, c) of the product of an M×K block by a K×N block accumulated into zeros is
    `∑ k, left (r, k) * right (k, c)`. -/
theorem matmul_zero_apply {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision)
    (lhs : FVec Ideal ⟨2, ![M, K]⟩ φ₁) (rhs : FVec Ideal ⟨2, ![K, N]⟩ φ₂) (j : (⟨2, ![M, N]⟩ : Shape).Idx) :
    FloatOps.matmul (⟨lc, rc, ln, rn, lb, rb, wf⟩ : DotDims ⟨2, ![M, K]⟩ ⟨2, ![K, N]⟩ ⟨2, ![M, N]⟩) prec lhs rhs
        (constant ⟨2, ![M, N]⟩ .f32 0x00000000#32) j
      = ∑ k : Fin K, lhs (ix2 (j 0) k) * rhs (ix2 k (j 1)) := by
  subst h1 h2 h3 h4 h5 h6
  set d : DotDims ⟨2, ![M, K]⟩ ⟨2, ![K, N]⟩ ⟨2, ![M, N]⟩ := ⟨[1], [0], [0], [1], [], [], wf⟩ with hd
  rw [Ideal.matmul_constant_zero_apply, ← Equiv.sum_comp (contrEquiv1 d K rfl rfl).symm]
  refine Finset.sum_congr rfl fun k _ => ?_
  have hk := contrEquiv1_symm_val d K rfl rfl k
  have el : d.lhsIdx j ((contrEquiv1 d K rfl rfl).symm k) = ix2 (j 0) k := funext fun a => Fin.ext (by
    match a with
    | ⟨0, _⟩ =>
      show (d.lhsIdx j _ 0).val = (j 0).val
      unfold DotDims.lhsIdx
      rw [dif_neg (show ¬(0 : Fin 2) ∈ d.lhsBatch by simp [hd]), dif_pos (show (0 : Fin 2) ∈ d.lhsNonContracting by simp [hd])]
      rfl
    | ⟨1, _⟩ => exact (d.lhsIdx_val_of_single (cl := 1) rfl j _).trans hk)
  have er : d.rhsIdx j ((contrEquiv1 d K rfl rfl).symm k) = ix2 k (j 1) := funext fun a => Fin.ext (by
    match a with
    | ⟨0, _⟩ => exact (d.rhsIdx_val_of_single (cr := 0) rfl j _).trans hk
    | ⟨1, _⟩ =>
      show (d.rhsIdx j _ 1).val = (j 1).val
      unfold DotDims.rhsIdx
      rw [dif_neg (show ¬(1 : Fin 2) ∈ d.rhsBatch by simp [hd]), dif_pos (show (1 : Fin 2) ∈ d.rhsNonContracting by simp [hd])]
      rfl)
  rw [el, er]
  rfl

/-- A column `[a, 1]` broadcast to `[a, b]` reads, at `(p, c)`, the column's entry `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.MatmulRead

end
-- ==== Proof.RegMMPay.lean ====
/-
  The matrix-product body's result block read at an index: entry (p, q) of the block the body stores is the
  sum over k of x (p, k) · w (k, q), where x is the 5000 by 128 block of node features it loaded and w the
  128 by 128 weight matrix.  On the extended reals the narrowing of both operands is the identity, the
  accumulator is zero, and a shape cast between equal shapes changes nothing.
-/
import proofs.«172140_j79293686219286_1_alg».proof.Proof.Gen.KernelIdeal.Skeleton
import proofs.«172140_j79293686219286_1_alg».proof.Proof.LibMatmul
import Idealize.ShloMosaic.Lib.ValueIdx
import Idealize.ShloMosaic.Lib.Pipeline.Value
import Idealize.ShloMosaic.PureOps.Ideal.Laws

noncomputable section

open scoped BigOperators

namespace Cert.KernelIdeal.RegVal

open Idealize.ShloMosaic Idealize.ShloMosaic.ValueIdx Cert.KernelIdeal

/-- The product of the narrowed block and the narrowed weights into zeros, at (p, q). -/
theorem mmBody_apply (hb : FTy.bits .bf16 < FTy.bits .f32)
    (x0 : Vec Ideal S5000x128 .f32) (x1 : Vec Ideal S128x128 .f32) (p : Fin 5000) (q : Fin 128) :
    (matmul dot_S5000x128_S128x128_S5000x128_1_0_0_1_n_n none (truncf .bf16 x0 hb) (truncf .bf16 x1 hb)
        (constant S5000x128 .f32 0x00000000#32) : FVec Ideal S5000x128 .f32) (ix2 p q)
      = ∑ k : Fin 128, (x0 (ix2 p k) : EReal) * (x1 (ix2 k q) : EReal) :=
  (MatmulRead.matmul_zero_apply (M := 5000) (K := 128) (N := 128) [1] [0] [0] [1] [] [] rfl rfl rfl rfl rfl rfl
    dot_S5000x128_S128x128_S5000x128_1_0_0_1_n_n.wf none (truncf .bf16 x0 hb) (truncf .bf16 x1 hb) (ix2 p q)).trans rfl

theorem mmPay0_apply (x0 : Vec Ideal S5000x128 .f32) (x1 : Vec Ideal S128x128 .f32) (p : Fin 5000) (q : Fin 128) :
    Gen.k0_pay1 x0 x1 (ix2 p q) = ∑ k : Fin 128, (x0 (ix2 p k) : EReal) * (x1 (ix2 k q) : EReal) :=
  mmBody_apply _ x0 x1 p q

theorem mmPay2_apply (x0 : Vec Ideal S5000x128 .f32) (x1 : Vec Ideal S128x128 .f32) (p : Fin 5000) (q : Fin 128) :
    Gen.k2_pay1 x0 x1 (ix2 p q) = ∑ k : Fin 128, (x0 (ix2 p k) : EReal) * (x1 (ix2 k q) : EReal) := by
  unfold Gen.k2_pay1
  rw [shapeCast_self]
  exact mmBody_apply _ x0 x1 p q

theorem mmPay6_apply (x0 : Vec Ideal S5000x128 .f32) (x1 : Vec Ideal S128x128 .f32) (p : Fin 5000) (q : Fin 128) :
    Gen.k6_pay1 x0 x1 (ix2 p q) = ∑ k : Fin 128, (x0 (ix2 p k) : EReal) * (x1 (ix2 k q) : EReal) := by
  unfold Gen.k6_pay1
  rw [shapeCast_self]
  exact mmBody_apply _ x0 x1 p q

end Cert.KernelIdeal.RegVal

end
-- ==== Proof.RegMM0.lean ====
/-
  Region 0 (matrix product) as one whole-array function.  The grid has 20 points; point t loads rows
  5000·t … 5000·t + 4999 of the node-feature matrix and the whole 128 by 128 weight matrix, and writes back
  the same rows of the product.  Entry (r, c) of the product depends on row r of the features and column c of
  the weights only, so what point t writes back is block t of the whole-array product, the 20 blocks tile
  the 100000 rows, and the array after the last point is the product everywhere.
-/
import proofs.«172140_j79293686219286_1_alg».proof.Proof.Gen.KernelIdeal.Frame
import proofs.«172140_j79293686219286_1_alg».proof.Proof.SpecIdx
import proofs.«172140_j79293686219286_1_alg».proof.Proof.RegMMPay
import Idealize.ShloMosaic.Lib.Pipeline.Value

noncomputable section

open scoped BigOperators

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's load and store rectangles start at the origin. -/
theorem origin0 : (![0, 0] : Fin 2 → Nat) = fun _ => 0 := funext fun a => by fin_cases a <;> rfl

/-- The block index maps over the 20 points: the feature block and the result block sit at block row t,
    block column 0; the weight matrix is always block (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole-array product. -/
theorem flushed0_eq (c : Dev nD) (t : Fin cfg0.N) :
    (dat0 (F := Ideal) V c).flushed 2 t
      = ((cfg0.win 2).blk t).view.read (Elt Ideal) (Cert.Gcn.mmS (V c main_arg0) (V c main_arg3)) := by
  show (cfg0.win 2).cut (grid0.coords t) ((dat0 V c).after 2 t) = _
  rw [after0_2]
  unfold out0_2
  rw [View.canon_unit_zero origin0]
  simp only [View.ld_unit_zero (S := S5000x128) origin0, View.ld_unit_zero (S := S128x128) origin0]
  obtain ⟨e0, e1, e2, e3, e4, e5⟩ := blockIdx0 t
  refine funext fun (j : S5000x128.Idx) => ?_
  obtain ⟨p, q, rfl⟩ : ∃ (p : Fin 5000) (q : Fin 128), j = ix2 p q := ⟨j 0, j 1, eq_ix2 j⟩
  have ht : t.val < 20 := lt_of_lt_of_eq t.isLt N_0
  have hrow : t.val * 5000 + p.val < 100000 := by have := p.isLt; omega
  -- the blocks' positions in their arrays: row p of the feature block is row 5000·t + p of the features,
  -- the weight block is the weight matrix, entry (p, q) of the result block is entry (5000·t + p, q)
  have h0 : ∀ k : Fin 128, ((cfg0.win 0).blk t).view.emb (ix2 p k)
      = (ix2 (⟨t.val * 5000 + p.val, hrow⟩ : Fin 100000) k : S100000x128.Idx) := fun k => by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, ((cfg0.win 1).blk t).view.emb (ix2 k q) = (ix2 k q : S128x128.Idx) := fun k => by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : ((cfg0.win 2).blk t).view.emb (ix2 p q) = (ix2 (⟨t.val * 5000 + p.val, hrow⟩ : Fin 100000) q : S100000x128.Idx) := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (iblk0 V c 0 t) (iblk0 V c 1 t) (ix2 p q)
      = Cert.Gcn.mmS (V c main_arg0) (V c main_arg3) (((cfg0.win 2).blk t).view.emb (ix2 p q))
  refine (mmPay0_apply (iblk0 V c 0 t) (iblk0 V c 1 t) p q).trans ?_
  refine Eq.trans ?_ (congrArg (Cert.Gcn.mmS (V c main_arg0) (V c main_arg3)) h2).symm
  refine (Finset.sum_congr rfl fun k _ => ?_).trans (Cert.Gcn.mmS_ix2 (V c main_arg0) (V c main_arg3) _ q).symm
  exact congrArg₂ (fun u v : EReal => u * v) (congrArg (V c main_arg0) (h0 k)) (congrArg (V c main_arg3) (h1 k))

/-- An index of the result array is in point t's block iff each coordinate is in the block's range. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- Every index of the result array lies in the block of the point numbered by its row divided by 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega) N_0.symm⟩, rfl⟩
  obtain ⟨e0, e1, e2, e3, e4, e5⟩ := blockIdx0 t
  refine ⟨t, flush0_2 t, ?_⟩
  rw [mem_block0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The result array after the whole grid is the product of the two input arrays as the region found them. -/
theorem final0 (c : Dev nD) :
    (Gen.dat0 (F := Ideal) V c).arrAt 2 cfg0.N = Cert.Gcn.mmS (V c main_arg0) (V c main_arg3) :=
  (Gen.dat0 (F := Ideal) V c).arrAt_eq_of_cover 2 (Cert.Gcn.mmS (V c main_arg0) (V c main_arg3))
    (fun t _ => flushed0_eq V c t) cover0

end Cert.KernelIdeal.RegVal

end
-- ==== Proof.RegBiasPay.lean ====
/-
  The bias-and-clamp body's result block read at an index: entry (p, q) of the block the body stores is
  max (x (p, q) + b (0, q)) 0, where x is the 5000 by 128 block of node features it loaded and b the
  1 by 128 row of per-feature biases.  The two shape casts are between equal shapes, the broadcast of the
  row reads its only row, the broadcast scalar is the zero word.
-/
import proofs.«172140_j79293686219286_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.RegVal

open Idealize.ShloMosaic Idealize.ShloMosaic.ValueIdx Cert.KernelIdeal

/-- A 1 by 128 row broadcast to 5000 by 128 reads, at (p, q), the row's entry (0, q). -/
theorem rowBroadcast_apply (v : S1x128.Idx → EReal) (h : S1x128.Broadcasts S5000x128) (p : Fin 5000) (q : Fin 128) :
    broadcastTo S5000x128 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The clamp-below-at-zero of a block plus a broadcast row, at (p, q). -/
theorem biasBody_apply (hs : S5000x128.ShapeCasts S5000x128) (hr : S1x128.ShapeCasts S1x128)
    (hb : S1x128.Broadcasts S5000x128)
    (x0 : Vec Ideal S5000x128 .f32) (x1 : Vec Ideal S1x128 .f32) (p : Fin 5000) (q : Fin 128) :
    (maximumf (addf (shapeCast S5000x128 x0 hs) (broadcastTo S5000x128 (shapeCast S1x128 x1 hr) hb))
        (broadcast S5000x128 (Scalar.ofBits (F := Ideal) .f32 0x00000000#32)) : FVec Ideal S5000x128 .f32) (ix2 p q)
      = max ((x0 (ix2 p q) : EReal) + (x1 (ix2 (0 : Fin 1) q) : EReal)) 0 := by
  rw [shapeCast_self, shapeCast_self, maximumf_apply, addf_apply, broadcast_apply]
  rw [rowBroadcast_apply x1 hb p q]
  exact congrArg _ Ideal.ofBits_zero_f32

theorem biasPay1_apply (x0 : Vec Ideal S5000x128 .f32) (x1 : Vec Ideal S1x128 .f32) (p : Fin 5000) (q : Fin 128) :
    Gen.k1_pay1 x0 x1 (ix2 p q) = max ((x0 (ix2 p q) : EReal) + (x1 (ix2 (0 : Fin 1) q) : EReal)) 0 :=
  biasBody_apply _ _ _ x0 x1 p q

theorem biasPay3_apply (x0 : Vec Ideal S5000x128 .f32) (x1 : Vec Ideal S1x128 .f32) (p : Fin 5000) (q : Fin 128) :
    Gen.k3_pay1 x0 x1 (ix2 p q) = max ((x0 (ix2 p q) : EReal) + (x1 (ix2 (0 : Fin 1) q) : EReal)) 0 :=
  biasBody_apply _ _ _ x0 x1 p q

theorem biasPay7_apply (x0 : Vec Ideal S5000x128 .f32) (x1 : Vec Ideal S1x128 .f32) (p : Fin 5000) (q : Fin 128) :
    Gen.k7_pay1 x0 x1 (ix2 p q) = max ((x0 (ix2 p q) : EReal) + (x1 (ix2 (0 : Fin 1) q) : EReal)) 0 :=
  biasBody_apply _ _ _ x0 x1 p q

end Cert.KernelIdeal.RegVal

end
-- ==== Proof.RegBias1.lean ====
/-
  Region 1 (bias and clamp) as one whole-array function.  The grid has 20 points; point t loads rows
  5000·t … 5000·t + 4999 of the node-feature matrix and the whole 1 by 128 bias row, and writes back the same
  rows of the result.  So what point t writes back is block t of  max (x + b) 0  taken over the whole arrays,
  the 20 blocks tile the 100000 rows, and the array after the last point is that function everywhere.
-/
import proofs.«172140_j79293686219286_1_alg».proof.Proof.Gen.KernelIdeal.Frame
import proofs.«172140_j79293686219286_1_alg».proof.Proof.SpecIdx
import proofs.«172140_j79293686219286_1_alg».proof.Proof.RegBiasPay
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's load and store rectangles start at the origin. -/
theorem origin1 : (![0, 0] : Fin 2 → Nat) = fun _ => 0 := funext fun a => by fin_cases a <;> rfl

/-- The block index maps over the 20 points: the feature block and the result block sit at block row t,
    block column 0; the bias row is always block (0, 0). -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array bias-and-clamp. -/
theorem flushed1_eq (c : Dev nD) (t : Fin cfg1.N) :
    (dat1 (F := Ideal) V c).flushed 2 t
      = ((cfg1.win 2).blk t).view.read (Elt Ideal) (Cert.Gcn.biasRelu (V c main_v42) (V c main_v43)) := by
  show (cfg1.win 2).cut (grid1.coords t) ((dat1 V c).after 2 t) = _
  rw [after1_2]
  unfold out1_2
  rw [View.canon_unit_zero origin1]
  simp only [View.ld_unit_zero (S := S5000x128) origin1, View.ld_unit_zero (S := S1x128) origin1]
  obtain ⟨e0, e1, e2, e3, e4, e5⟩ := blockIdx1 t
  refine funext fun (j : S5000x128.Idx) => ?_
  obtain ⟨p, q, rfl⟩ : ∃ (p : Fin 5000) (q : Fin 128), j = ix2 p q := ⟨j 0, j 1, eq_ix2 j⟩
  have ht : t.val < 20 := lt_of_lt_of_eq t.isLt N_1
  have hrow : t.val * 5000 + p.val < 100000 := by have := p.isLt; omega
  -- the three blocks' positions in their arrays
  have h0 : ((cfg1.win 0).blk t).view.emb (ix2 p q) = (ix2 (⟨t.val * 5000 + p.val, hrow⟩ : Fin 100000) q : S100000x128.Idx) := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : ((cfg1.win 1).blk t).view.emb (ix2 (0 : Fin 1) q) = (ix2 (0 : Fin 1) q : S1x128.Idx) := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have h2 : ((cfg1.win 2).blk t).view.emb (ix2 p q) = (ix2 (⟨t.val * 5000 + p.val, hrow⟩ : Fin 100000) q : S100000x128.Idx) := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  show k1_pay1 (iblk1 V c 0 t) (iblk1 V c 1 t) (ix2 p q)
      = Cert.Gcn.biasRelu (V c main_v42) (V c main_v43) (((cfg1.win 2).blk t).view.emb (ix2 p q))
  refine (biasPay1_apply (iblk1 V c 0 t) (iblk1 V c 1 t) p q).trans ?_
  refine Eq.trans ?_ (congrArg (Cert.Gcn.biasRelu (V c main_v42) (V c main_v43)) h2).symm
  exact congrArg₂ (fun u v : EReal => max (u + v) 0) (congrArg (V c main_v42) h0) (congrArg (V c main_v43) h1)

/-- An index of the result array is in point t's block iff each coordinate is in the block's range. -/
theorem mem_block1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v44).slice (win1_2.rect t)).set ↔ _
  rw [View.set_slice_whole, Rect.mem_set_unit]
  exact Iff.rfl

/-- Every index of the result array lies in the block of the point numbered by its row divided by 5000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega) N_1.symm⟩, rfl⟩
  obtain ⟨e0, e1, e2, e3, e4, e5⟩ := blockIdx1 t
  refine ⟨t, flush1_2 t, ?_⟩
  rw [mem_block1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The result array after the whole grid is the bias-and-clamp of the two input arrays as the region found them. -/
theorem final1 (c : Dev nD) :
    (Gen.dat1 (F := Ideal) V c).arrAt 2 cfg1.N = Cert.Gcn.biasRelu (V c main_v42) (V c main_v43) :=
  (Gen.dat1 (F := Ideal) V c).arrAt_eq_of_cover 2 (Cert.Gcn.biasRelu (V c main_v42) (V c main_v43))
    (fun t _ => flushed1_eq V c t) cover1

end Cert.KernelIdeal.RegVal

end
-- ==== Proof.KW1.lean ====
/-
  The first layer read off the kernel program's fold. The first region multiplies the node features by the first
  weight; the second stretch of host operations gathers the source rows of the product, scales them and adds them up
  per destination, and reshapes the bias to a row; the second region adds the bias and clamps. So the second region's
  output array is the specification's first layer of the arguments as launched.
-/
import proofs.«172140_j79293686219286_1_alg».proof.Proof.KKeep
import proofs.«172140_j79293686219286_1_alg».proof.Proof.KW0
import proofs.«172140_j79293686219286_1_alg».proof.Proof.RegMM0
import proofs.«172140_j79293686219286_1_alg».proof.Proof.RegBias1

set_option maxRecDepth 16384

noncomputable section

namespace Cert.KernelIdeal.Walk

open Cert.KernelIdeal Cert.KernelIdeal.Gen Idealize.ShloMosaic Idealize.ShloMosaic.TcCoe Idealize.SL.Sem
  Idealize.ShloMosaic.StableHlo Cert.Gcn Cert.ReferenceIdeal.ReadP

variable (m : (ℓ : Loc nD τ sig) → Buf (Elt Ideal) ℓ) (ρ : Dev nD → PrngReg) (c : Dev nD)

theorem W1_arg0 : W1 m ρ c (Proc.devRef .tc main_arg0) = A0 m c := by
  hb hostOps0; rfl

theorem W1_arg3 : W1 m ρ c (Proc.devRef .tc main_arg3) = A3 m c := by
  hb hostOps0; rfl

theorem W2_v29  :
    W2 m ρ c (Proc.devRef .tc main_v29) = mmS (A0 m c) (A3 m c) := by
  refine (W2_arr m ρ c 2).trans ((RegVal.final0 (V1 m ρ) c).trans ?_)
  show mmS (W1 m ρ c (Proc.devRef .tc main_arg0)) (W1 m ρ c (Proc.devRef .tc main_arg3)) = _
  rw [W1_arg0, W1_arg3]

theorem W2_v3 : W2 m ρ c (Proc.devRef .tc main_v3) = val_main_v3 (F := Ideal) (A1 m c) := by
  rb W2_of_ne; exact W1_v3 m ρ c
theorem W2_v6 : W2 m ρ c (Proc.devRef .tc main_v6) = val_main_v6 (F := Ideal) (A1 m c) := by
  rb W2_of_ne; exact W1_v6 m ρ c
theorem W2_v28 : W2 m ρ c (Proc.devRef .tc main_v28) = val_main_v28 (F := Ideal) (A1 m c) := by
  rb W2_of_ne; exact W1_v28 m ρ c
theorem W2_arg4 : W2 m ρ c (Proc.devRef .tc main_arg4) = A4 m c := by
  rb W2_of_ne; hb hostOps0; rfl

set_option maxHeartbeats 4000000 in
/-- The stretch's gather, scale and scatter-add, over the buffers as the stretch finds them. -/
theorem W3_v42_raw : W3 m ρ c (Proc.devRef .tc main_v42)
    = aggK (W2 m ρ c (Proc.devRef .tc main_v3)) (W2 m ρ c (Proc.devRef .tc main_v6)) (W2 m ρ c (Proc.devRef .tc main_v28)) (W2 m ρ c (Proc.devRef .tc main_v29)) := by
  show StableHlo.after hostOps1 (W2 m ρ c) (Proc.devRef .tc main_v42) = _
  after_results_simp
  rfl

theorem W3_v42  :
    W3 m ρ c (Proc.devRef .tc main_v42) = agg (A1 m c) (mmS (A0 m c) (A3 m c)) := by
  rw [W3_v42_raw, W2_v3, W2_v6, W2_v28, W2_v29 m ρ c, agg_eq_aggK]

/-- The stretch's reshape of the bias, over the buffer as the stretch finds it. -/
theorem W3_v43_raw : W3 m ρ c (Proc.devRef .tc main_v43) = rowOf (W2 m ρ c (Proc.devRef .tc main_arg4)) := by
  show StableHlo.after hostOps1 (W2 m ρ c) (Proc.devRef .tc main_v43) = _
  after_results
  exact shapeCast_row _ _

theorem W3_v43 : W3 m ρ c (Proc.devRef .tc main_v43) = rowOf (A4 m c) := by
  rw [W3_v43_raw, W2_arg4]

theorem W4_v44  :
    W4 m ρ c (Proc.devRef .tc main_v44) = layer (A1 m c) (A0 m c) (A3 m c) (A4 m c) := by
  refine (W4_arr m ρ c 2).trans ((RegVal.final1 (V3 m ρ) c).trans ?_)
  show biasRelu (W3 m ρ c (Proc.devRef .tc main_v42)) (W3 m ρ c (Proc.devRef .tc main_v43)) = _
  rw [W3_v42 m ρ c, W3_v43]
  rfl

end Cert.KernelIdeal.Walk

end
-- ==== Proof.RegMM2.lean ====
/-
  Region 2 (matrix product) as one whole-array function.  The grid has 20 points; point t loads rows
  5000·t … 5000·t + 4999 of the node-feature matrix and the whole 128 by 128 weight matrix, and writes back
  the same rows of the product.  Entry (r, c) of the product depends on row r of the features and column c of
  the weights only, so what point t writes back is block t of the whole-array product, the 20 blocks tile
  the 100000 rows, and the array after the last point is the product everywhere.
-/
import proofs.«172140_j79293686219286_1_alg».proof.Proof.Gen.KernelIdeal.Frame
import proofs.«172140_j79293686219286_1_alg».proof.Proof.SpecIdx
import proofs.«172140_j79293686219286_1_alg».proof.Proof.RegMMPay
import Idealize.ShloMosaic.Lib.Pipeline.Value

noncomputable section

open scoped BigOperators

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's load and store rectangles start at the origin. -/
theorem origin2 : (![0, 0] : Fin 2 → Nat) = fun _ => 0 := funext fun a => by fin_cases a <;> rfl

/-- The block index maps over the 20 points: the feature block and the result block sit at block row t,
    block column 0; the weight matrix is always block (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole-array product. -/
theorem flushed2_eq (c : Dev nD) (t : Fin cfg2.N) :
    (dat2 (F := Ideal) V c).flushed 2 t
      = ((cfg2.win 2).blk t).view.read (Elt Ideal) (Cert.Gcn.mmS (V c main_v44) (V c main_arg5)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x128) origin2]
  obtain ⟨e0, e1, e2, e3, e4, e5⟩ := blockIdx2 t
  refine funext fun (j : S5000x128.Idx) => ?_
  obtain ⟨p, q, rfl⟩ : ∃ (p : Fin 5000) (q : Fin 128), j = ix2 p q := ⟨j 0, j 1, eq_ix2 j⟩
  have ht : t.val < 20 := lt_of_lt_of_eq t.isLt N_2
  have hrow : t.val * 5000 + p.val < 100000 := by have := p.isLt; omega
  -- the blocks' positions in their arrays: row p of the feature block is row 5000·t + p of the features,
  -- the weight block is the weight matrix, entry (p, q) of the result block is entry (5000·t + p, q)
  have h0 : ∀ k : Fin 128, ((cfg2.win 0).blk t).view.emb (ix2 p k)
      = (ix2 (⟨t.val * 5000 + p.val, hrow⟩ : Fin 100000) k : S100000x128.Idx) := fun k => by
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ k : Fin 128, ((cfg2.win 1).blk t).view.emb (ix2 k q) = (ix2 k q : S128x128.Idx) := fun k => by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have h2 : ((cfg2.win 2).blk t).view.emb (ix2 p q) = (ix2 (⟨t.val * 5000 + p.val, hrow⟩ : Fin 100000) q : S100000x128.Idx) := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  show k2_pay1 (iblk2 V c 0 t) (iblk2 V c 1 t) (ix2 p q)
      = Cert.Gcn.mmS (V c main_v44) (V c main_arg5) (((cfg2.win 2).blk t).view.emb (ix2 p q))
  refine (mmPay2_apply (iblk2 V c 0 t) (iblk2 V c 1 t) p q).trans ?_
  refine Eq.trans ?_ (congrArg (Cert.Gcn.mmS (V c main_v44) (V c main_arg5)) h2).symm
  refine (Finset.sum_congr rfl fun k _ => ?_).trans (Cert.Gcn.mmS_ix2 (V c main_v44) (V c main_arg5) _ q).symm
  exact congrArg₂ (fun u v : EReal => u * v) (congrArg (V c main_v44) (h0 k)) (congrArg (V c main_arg5) (h1 k))

/-- An index of the result array is in point t's block iff each coordinate is in the block's range. -/
theorem mem_block2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v45).slice (win2_2.rect t)).set ↔ _
  rw [View.set_slice_whole, Rect.mem_set_unit]
  exact Iff.rfl

/-- Every index of the result array lies in the block of the point numbered by its row divided by 5000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega) N_2.symm⟩, rfl⟩
  obtain ⟨e0, e1, e2, e3, e4, e5⟩ := blockIdx2 t
  refine ⟨t, flush2_2 t, ?_⟩
  rw [mem_block2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- The result array after the whole grid is the product of the two input arrays as the region found them. -/
theorem final2 (c : Dev nD) :
    (Gen.dat2 (F := Ideal) V c).arrAt 2 cfg2.N = Cert.Gcn.mmS (V c main_v44) (V c main_arg5) :=
  (Gen.dat2 (F := Ideal) V c).arrAt_eq_of_cover 2 (Cert.Gcn.mmS (V c main_v44) (V c main_arg5))
    (fun t _ => flushed2_eq V c t) cover2

end Cert.KernelIdeal.RegVal

end
-- ==== Proof.RegBias3.lean ====
/-
  Region 3 (bias and clamp) as one whole-array function.  The grid has 20 points; point t loads rows
  5000·t … 5000·t + 4999 of the node-feature matrix and the whole 1 by 128 bias row, and writes back the same
  rows of the result.  So what point t writes back is block t of  max (x + b) 0  taken over the whole arrays,
  the 20 blocks tile the 100000 rows, and the array after the last point is that function everywhere.
-/
import proofs.«172140_j79293686219286_1_alg».proof.Proof.Gen.KernelIdeal.Frame
import proofs.«172140_j79293686219286_1_alg».proof.Proof.SpecIdx
import proofs.«172140_j79293686219286_1_alg».proof.Proof.RegBiasPay
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's load and store rectangles start at the origin. -/
theorem origin3 : (![0, 0] : Fin 2 → Nat) = fun _ => 0 := funext fun a => by fin_cases a <;> rfl

/-- The block index maps over the 20 points: the feature block and the result block sit at block row t,
    block column 0; the bias row is always block (0, 0). -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array bias-and-clamp. -/
theorem flushed3_eq (c : Dev nD) (t : Fin cfg3.N) :
    (dat3 (F := Ideal) V c).flushed 2 t
      = ((cfg3.win 2).blk t).view.read (Elt Ideal) (Cert.Gcn.biasRelu (V c main_v58) (V c main_v59)) := by
  show (cfg3.win 2).cut (grid3.coords t) ((dat3 V c).after 2 t) = _
  rw [after3_2]
  unfold out3_2
  rw [View.canon_unit_zero origin3]
  simp only [View.ld_unit_zero (S := S5000x128) origin3, View.ld_unit_zero (S := S1x128) origin3]
  obtain ⟨e0, e1, e2, e3, e4, e5⟩ := blockIdx3 t
  refine funext fun (j : S5000x128.Idx) => ?_
  obtain ⟨p, q, rfl⟩ : ∃ (p : Fin 5000) (q : Fin 128), j = ix2 p q := ⟨j 0, j 1, eq_ix2 j⟩
  have ht : t.val < 20 := lt_of_lt_of_eq t.isLt N_3
  have hrow : t.val * 5000 + p.val < 100000 := by have := p.isLt; omega
  -- the three blocks' positions in their arrays
  have h0 : ((cfg3.win 0).blk t).view.emb (ix2 p q) = (ix2 (⟨t.val * 5000 + p.val, hrow⟩ : Fin 100000) q : S100000x128.Idx) := by
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have h1 : ((cfg3.win 1).blk t).view.emb (ix2 (0 : Fin 1) q) = (ix2 (0 : Fin 1) q : S1x128.Idx) := by
    funext a; apply Fin.ext
    match a with
    | ⟨0, _⟩ => show win3_1.index t (0 : Fin 2) * 1 + 1 * 0 = 0; omega
    | ⟨1, _⟩ => show win3_1.index t (1 : Fin 2) * 128 + 1 * q.val = q.val; omega
  have h2 : ((cfg3.win 2).blk t).view.emb (ix2 p q) = (ix2 (⟨t.val * 5000 + p.val, hrow⟩ : Fin 100000) q : S100000x128.Idx) := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  show k3_pay1 (iblk3 V c 0 t) (iblk3 V c 1 t) (ix2 p q)
      = Cert.Gcn.biasRelu (V c main_v58) (V c main_v59) (((cfg3.win 2).blk t).view.emb (ix2 p q))
  refine (biasPay3_apply (iblk3 V c 0 t) (iblk3 V c 1 t) p q).trans ?_
  refine Eq.trans ?_ (congrArg (Cert.Gcn.biasRelu (V c main_v58) (V c main_v59)) h2).symm
  exact congrArg₂ (fun u v : EReal => max (u + v) 0) (congrArg (V c main_v58) h0) (congrArg (V c main_v59) h1)

/-- An index of the result array is in point t's block iff each coordinate is in the block's range. -/
theorem mem_block3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v60).slice (win3_2.rect t)).set ↔ _
  rw [View.set_slice_whole, Rect.mem_set_unit]
  exact Iff.rfl

/-- Every index of the result array lies in the block of the point numbered by its row divided by 5000. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, lt_of_lt_of_eq (by omega) N_3.symm⟩, rfl⟩
  obtain ⟨e0, e1, e2, e3, e4, e5⟩ := blockIdx3 t
  refine ⟨t, flush3_2 t, ?_⟩
  rw [mem_block3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- The result array after the whole grid is the bias-and-clamp of the two input arrays as the region found them. -/
theorem final3 (c : Dev nD) :
    (Gen.dat3 (F := Ideal) V c).arrAt 2 cfg3.N = Cert.Gcn.biasRelu (V c main_v58) (V c main_v59) :=
  (Gen.dat3 (F := Ideal) V c).arrAt_eq_of_cover 2 (Cert.Gcn.biasRelu (V c main_v58) (V c main_v59))
    (fun t _ => flushed3_eq V c t) cover3

end Cert.KernelIdeal.RegVal

end
-- ==== Proof.KW2.lean ====
/-
  The second layer read off the fold, given what the second region left (`H`): the third region multiplies `H` by
  the second weight, the next stretch of host operations gathers, scales and adds up per destination and reshapes the
  second bias to a row, and the fourth region adds the bias and clamps.
-/
import proofs.«172140_j79293686219286_1_alg».proof.Proof.KKeep
import proofs.«172140_j79293686219286_1_alg».proof.Proof.KW0
import proofs.«172140_j79293686219286_1_alg».proof.Proof.RegMM2
import proofs.«172140_j79293686219286_1_alg».proof.Proof.RegBias3

set_option maxRecDepth 16384

noncomputable section

namespace Cert.KernelIdeal.Walk

open Cert.KernelIdeal Cert.KernelIdeal.Gen Idealize.ShloMosaic Idealize.ShloMosaic.TcCoe Idealize.SL.Sem
  Idealize.ShloMosaic.StableHlo Cert.Gcn Cert.ReferenceIdeal.ReadP

variable (m : (ℓ : Loc nD τ sig) → Buf (Elt Ideal) ℓ) (ρ : Dev nD → PrngReg) (c : Dev nD)

theorem W4_arg5 : W4 m ρ c (Proc.devRef .tc main_arg5) = A5 m c := by
  rb W4_of_ne; hb hostOps1; rb W2_of_ne; hb hostOps0; rfl

theorem W5_v45 (H : Feat) (h44 : W4 m ρ c (Proc.devRef .tc main_v44) = H) :
    W5 m ρ c (Proc.devRef .tc main_v45) = mmS H (A5 m c) := by
  refine (W5_arr m ρ c 2).trans ((RegVal.final2 (V4 m ρ) c).trans ?_)
  show mmS (W4 m ρ c (Proc.devRef .tc main_v44)) (W4 m ρ c (Proc.devRef .tc main_arg5)) = _
  rw [h44, W4_arg5]

theorem W5_v3 : W5 m ρ c (Proc.devRef .tc main_v3) = val_main_v3 (F := Ideal) (A1 m c) := by
  rb W5_of_ne; rb W4_of_ne; hb hostOps1; rb W2_of_ne; exact W1_v3 m ρ c
theorem W5_v6 : W5 m ρ c (Proc.devRef .tc main_v6) = val_main_v6 (F := Ideal) (A1 m c) := by
  rb W5_of_ne; rb W4_of_ne; hb hostOps1; rb W2_of_ne; exact W1_v6 m ρ c
theorem W5_v28 : W5 m ρ c (Proc.devRef .tc main_v28) = val_main_v28 (F := Ideal) (A1 m c) := by
  rb W5_of_ne; rb W4_of_ne; hb hostOps1; rb W2_of_ne; exact W1_v28 m ρ c
theorem W5_arg6 : W5 m ρ c (Proc.devRef .tc main_arg6) = A6 m c := by
  rb W5_of_ne; rb W4_of_ne; hb hostOps1; rb W2_of_ne; hb hostOps0; rfl

set_option maxHeartbeats 4000000 in
/-- The stretch's gather, scale and scatter-add, over the buffers as the stretch finds them. -/
theorem W6_v58_raw : W6 m ρ c (Proc.devRef .tc main_v58)
    = aggK (W5 m ρ c (Proc.devRef .tc main_v3)) (W5 m ρ c (Proc.devRef .tc main_v6)) (W5 m ρ c (Proc.devRef .tc main_v28)) (W5 m ρ c (Proc.devRef .tc main_v45)) := by
  show StableHlo.after hostOps3 (W5 m ρ c) (Proc.devRef .tc main_v58) = _
  after_results_simp
  rfl

theorem W6_v58 (H : Feat) (h44 : W4 m ρ c (Proc.devRef .tc main_v44) = H) :
    W6 m ρ c (Proc.devRef .tc main_v58) = agg (A1 m c) (mmS H (A5 m c)) := by
  rw [W6_v58_raw, W5_v3, W5_v6, W5_v28, W5_v45 m ρ c H h44, agg_eq_aggK]

/-- The stretch's reshape of the bias, over the buffer as the stretch finds it. -/
theorem W6_v59_raw : W6 m ρ c (Proc.devRef .tc main_v59) = rowOf (W5 m ρ c (Proc.devRef .tc main_arg6)) := by
  show StableHlo.after hostOps3 (W5 m ρ c) (Proc.devRef .tc main_v59) = _
  after_results
  exact shapeCast_row _ _

theorem W6_v59 : W6 m ρ c (Proc.devRef .tc main_v59) = rowOf (A6 m c) := by
  rw [W6_v59_raw, W5_arg6]

theorem W7_v60 (H : Feat) (h44 : W4 m ρ c (Proc.devRef .tc main_v44) = H) :
    W7 m ρ c (Proc.devRef .tc main_v60) = layer (A1 m c) H (A5 m c) (A6 m c) := by
  refine (W7_arr m ρ c 2).trans ((RegVal.final3 (V6 m ρ) c).trans ?_)
  show biasRelu (W6 m ρ c (Proc.devRef .tc main_v58)) (W6 m ρ c (Proc.devRef .tc main_v59)) = _
  rw [W6_v58 m ρ c H h44, W6_v59]
  rfl

end Cert.KernelIdeal.Walk

end
-- ==== Proof.KRows.lean ====
/-
  The per-feature rows the normalisation regions read. Between the statistics region and the apply region the host
  reshapes each 1 × 128 row of column sums to 128 entries, divides by the node count, forms the variance as the mean
  of squares less the squared mean, and reshapes back to rows: entry (0, j) of the results is the specification's
  `meanRow` and `varRow` at (0, j).
-/
import proofs.«172140_j79293686219286_1_alg».proof.Proof.Spec
import Idealize.ShloMosaic.Lib.ValueLayout

noncomputable section

namespace Cert.KernelIdeal.Walk

open Idealize.ShloMosaic Idealize.ShloMosaic.ValueIdx Cert.Gcn

/-- The mean row: reshape the sums to a vector, divide by the node count, reshape back. -/
theorem mean_row_read (s : FVec Ideal SR .f32) (h1 : SR.ShapeCasts ⟨1, ![128]⟩) (h2 : (⟨1, ![128]⟩ : Shape).ShapeCasts SR)
    (hb : (⟨0, ![]⟩ : Shape).BroadcastsInDim ⟨1, ![128]⟩ ![]) :
    (shapeCast SR (Host.divf (F := Ideal) (shapeCast (⟨1, ![128]⟩ : Shape) s h1)
        (broadcastInDim (⟨1, ![128]⟩ : Shape) ![] hb (constant (F := Ideal) (⟨0, ![]⟩ : Shape) .f32 0x47C35000#32))) h2
      : SR.Idx → EReal) = meanRow s := by
  funext i
  obtain ⟨u, j, rfl⟩ : ∃ (u : Fin 1) (j : Fin 128), i = ix2 u j := ⟨i 0, i 1, eq_ix2 i⟩
  have hu : u = 0 := Subsingleton.elim _ _
  subst hu
  rw [shapeCast_a_1a_apply]
  show Ideal.div (shapeCast (⟨1, ![128]⟩ : Shape) s h1 (ix1 j)) _ = _
  rw [shapeCast_1a_a_apply]
  rfl

/-- The variance row: the mean of the squares less the square of the mean, entry by entry. -/
theorem var_row_read (s ss : FVec Ideal SR .f32) (h1 : SR.ShapeCasts ⟨1, ![128]⟩) (h2 : (⟨1, ![128]⟩ : Shape).ShapeCasts SR)
    (hb : (⟨0, ![]⟩ : Shape).BroadcastsInDim ⟨1, ![128]⟩ ![]) :
    (shapeCast SR
        (subf (Host.divf (F := Ideal) (shapeCast (⟨1, ![128]⟩ : Shape) ss h1)
            (broadcastInDim (⟨1, ![128]⟩ : Shape) ![] hb (constant (F := Ideal) (⟨0, ![]⟩ : Shape) .f32 0x47C35000#32)))
          (mulf (Host.divf (F := Ideal) (shapeCast (⟨1, ![128]⟩ : Shape) s h1)
              (broadcastInDim (⟨1, ![128]⟩ : Shape) ![] hb (constant (F := Ideal) (⟨0, ![]⟩ : Shape) .f32 0x47C35000#32)))
            (Host.divf (F := Ideal) (shapeCast (⟨1, ![128]⟩ : Shape) s h1)
              (broadcastInDim (⟨1, ![128]⟩ : Shape) ![] hb (constant (F := Ideal) (⟨0, ![]⟩ : Shape) .f32 0x47C35000#32))))) h2
      : SR.Idx → EReal) = varRow s ss := by
  funext i
  obtain ⟨u, j, rfl⟩ : ∃ (u : Fin 1) (j : Fin 128), i = ix2 u j := ⟨i 0, i 1, eq_ix2 i⟩
  have hu : u = 0 := Subsingleton.elim _ _
  subst hu
  rw [shapeCast_a_1a_apply]
  show Ideal.div (shapeCast (⟨1, ![128]⟩ : Shape) ss h1 (ix1 j)) _
      - Ideal.div (shapeCast (⟨1, ![128]⟩ : Shape) s h1 (ix1 j)) _ * Ideal.div (shapeCast (⟨1, ![128]⟩ : Shape) s h1 (ix1 j)) _ = _
  rw [shapeCast_1a_a_apply, shapeCast_1a_a_apply]
  rfl

end Cert.KernelIdeal.Walk

end
-- ==== Proof.RegStatsPay.lean ====
/-
  The batch-norm statistics kernels' arithmetic read at an index, on the extended reals, and the
  arithmetic of splitting a sum over all rows into consecutive blocks of 5000 rows.

  * The reset payloads are the zero row.
  * The first accumulating payload at (0, q) is the previous value at (0, q) plus the sum over the
    block's 5000 rows p of the block at (p, q); the second one the same with the squared entries.
  * `tot X r q` extends the column q of a 100000-row array X by zero beyond its last row, so that
    partial sums over rows are sums over `Finset.range`: the sum over the first 5000·(n+1) rows is the
    sum over the first 5000·n rows plus the sum over block n, and the sum over `range 100000` is the
    sum over every row.
  * The specification's column sums at an index of the 1-by-128 row are sums over all rows at its second
    coordinate.
-/
import proofs.«172140_j79293686219286_1_alg».proof.Proof.Gen.KernelIdeal.Skeleton
import proofs.«172140_j79293686219286_1_alg».proof.Proof.SpecIdx
import Idealize.ShloMosaic.Lib.ValueIdx
import Idealize.ShloMosaic.Lib.Pipeline.Value
import Idealize.ShloMosaic.PureOps.Ideal.Laws

noncomputable section

open scoped BigOperators

namespace Cert.KernelIdeal.RegVal.Stats

open Idealize.ShloMosaic Idealize.ShloMosaic.ValueIdx Cert.KernelIdeal Cert.KernelIdeal.Gen

/-! ## Sums over rows in blocks -/

/-- Column q of X at row r, zero beyond the last row. -/
def tot (X : S100000x128.Idx → EReal) (r : ℕ) (q : Fin 128) : EReal :=
  if h : r < 100000 then X (ix2 (⟨r, h⟩ : Fin 100000) q) else 0

theorem tot_of_lt (X : S100000x128.Idx → EReal) (r : ℕ) (h : r < 100000) (q : Fin 128) :
    tot X r q = X (ix2 (⟨r, h⟩ : Fin 100000) q) := dif_pos h

/-- The sum over `range 100000` is the sum over every row. -/
theorem sum_tot_all (X : S100000x128.Idx → EReal) (q : Fin 128) :
    ∑ r ∈ Finset.range 100000, tot X r q = ∑ r : Fin 100000, X (ix2 r q) := by
  rw [Finset.sum_range]
  exact Finset.sum_congr rfl fun r _ => tot_of_lt X r.val r.isLt q

/-- The first 5000·(n+1) rows are the first 5000·n rows and then block n. -/
theorem sum_range_block (g : ℕ → EReal) (n : ℕ) :
    ∑ r ∈ Finset.range (5000 * (n + 1)), g r
      = ∑ r ∈ Finset.range (5000 * n), g r + ∑ p ∈ Finset.range 5000, g (5000 * n + p) := by
  rw [show 5000 * (n + 1) = 5000 * n + 5000 from by omega, Finset.sum_range_add]

/-- Block n's sum, when the block x reads X at rows 5000·n + p. -/
theorem sum_block (X : S100000x128.Idx → EReal) (x : S5000x128.Idx → EReal) (n : ℕ) (hn : n < 20)
    (hx : ∀ (p : Fin 5000) (q : Fin 128), x (ix2 p q) = X (ix2 (⟨5000 * n + p.val, by have := p.isLt; omega⟩ : Fin 100000) q))
    (q : Fin 128) :
    ∑ p : Fin 5000, x (ix2 p q) = ∑ p ∈ Finset.range 5000, tot X (5000 * n + p) q := by
  rw [Finset.sum_range]
  refine Finset.sum_congr rfl fun p _ => ?_
  rw [hx p q, tot_of_lt X (5000 * n + p.val) (by have := p.isLt; omega) q]

/-- One accumulation step: the sum over the rows before block n, plus block n's sum, is the sum over the rows
    up to the end of block n. -/
theorem acc_step (X : S100000x128.Idx → EReal) (x : S5000x128.Idx → EReal) (n : ℕ) (hn : n < 20)
    (hx : ∀ (p : Fin 5000) (q : Fin 128), x (ix2 p q) = X (ix2 (⟨5000 * n + p.val, by have := p.isLt; omega⟩ : Fin 100000) q))
    (q : Fin 128) (prev : EReal) (hprev : prev = ∑ r ∈ Finset.range (5000 * n), tot X r q) :
    prev + ∑ p : Fin 5000, x (ix2 p q) = ∑ r ∈ Finset.range (5000 * (n + 1)), tot X r q := by
  rw [sum_range_block (fun r => tot X r q) n, hprev, sum_block X x n hn hx q]

/-- Before block 0 there is nothing to sum. -/
theorem zero_eq_sum_range (g : ℕ → EReal) : (0 : EReal) = ∑ r ∈ Finset.range (5000 * 0), g r := by
  rw [Nat.mul_zero, Finset.range_zero, Finset.sum_empty]

/-- The twenty blocks are all the rows. -/
theorem rows_all : 5000 * (19 + 1) = 100000 := by norm_num

/-- A feature's total over all rows, named at an index of the 1-by-128 row by its second coordinate. -/
theorem colSum_at (X : S100000x128.Idx → EReal) (i : Cert.Gcn.SR.Idx) (q : Fin 128) (h : (i 1).val = q.val) :
    Cert.Gcn.colSum X i = ∑ r : Fin 100000, X (ix2 r q) :=
  Finset.sum_congr rfl fun r _ => congrArg (fun z : Fin 128 => X (ix2 r z)) (Fin.ext h)

/-- … and its total of squares. -/
theorem colSumSq_at (X : S100000x128.Idx → EReal) (i : Cert.Gcn.SR.Idx) (q : Fin 128) (h : (i 1).val = q.val) :
    Cert.Gcn.colSumSq X i = ∑ r : Fin 100000, X (ix2 r q) * X (ix2 r q) :=
  Finset.sum_congr rfl fun r _ => congrArg (fun z : Fin 128 => X (ix2 r z) * X (ix2 r z)) (Fin.ext h)

/-- The zero offsets of a whole-buffer access, however spelt. -/
theorem hz2 : (![0, 0] : Fin 2 → Nat) = fun _ => 0 := funext fun a => by fin_cases a <;> rfl

/-! ## The payloads at an index -/

theorem hlift (q : Fin 128) (p : Fin 5000) :
    reduces_S5000x128_S128.lift (ix1 q) p = (ix2 p q : S5000x128.Idx) := by
  funext a
  apply Fin.ext
  match a with
  | ⟨0, _⟩ => rfl
  | ⟨1, _⟩ => rfl

/-- A row of 128 stored as a 1-by-128 block reads (0, q) at q. -/
theorem cast_row (w : S128.Idx → EReal) (z : Fin 1) (q : Fin 128) :
    shapeCast S1x128 w shapeCasts_S128_S1x128 (ix2 z q) = w (ix1 q) := by
  refine (shapeCast_addUnit_apply ![128] w shapeCasts_S128_S1x128 (ix2 z q)).trans (congrArg w ?_)
  funext a
  match a with
  | ⟨0, _⟩ => rfl

/-- The column sums of a 5000-by-128 block, as the kernel's reduction over axis 0 from the zero word. -/
theorem colred_apply (x : FVec Ideal S5000x128 .f32) (hφ : FKind.Formats .f32)
    (hacc : (0x00000000#32 : BitVec 32) = FKind.add.neutral .f32 hφ) (q : Fin 128) :
    multiReduction .add [0] S128 x 0x00000000#32 reduces_S5000x128_S128 hφ hacc (ix1 q) = ∑ p : Fin 5000, x (ix2 p q) := by
  refine (Ideal.multiReduction_add_single x 0x00000000#32 reduces_S5000x128_S128 hφ hacc (ix1 q)).trans ?_
  show ∑ p : Fin 5000, x (reduces_S5000x128_S128.lift (ix1 q) p) = _
  exact Finset.sum_congr rfl fun p _ => congrArg x (hlift q p)

theorem k4_pay1_apply (j : S1x128.Idx) : k4_pay1 (F := Ideal) j = 0 := Ideal.ofBits_zero_f32
theorem k4_pay2_apply (j : S1x128.Idx) : k4_pay2 (F := Ideal) j = 0 := Ideal.ofBits_zero_f32

theorem k4_pay4_apply (v3 : Vec Ideal S5000x128 .f32) (v5 : Vec Ideal S1x128 .f32) (z : Fin 1) (q : Fin 128) :
    k4_pay4 (F := Ideal) v3 v5 (ix2 z q) = v5 (ix2 z q) + ∑ p : Fin 5000, v3 (ix2 p q) := by
  unfold k4_pay4 k4_pay3
  show shapeCast S1x128 v5 shapeCasts_S1x128_S1x128 (ix2 z q) + shapeCast S1x128 _ shapeCasts_S128_S1x128 (ix2 z q) = _
  refine congrArg₂ (· + ·) (congrFun (shapeCast_self v5 _) _) ?_
  refine (cast_row _ z q).trans ?_
  refine (colred_apply _ _ _ q).trans ?_
  exact Finset.sum_congr rfl fun p _ => congrFun (shapeCast_self v3 _) _

theorem k4_pay5_apply (v3 : Vec Ideal S5000x128 .f32) (v11 : Vec Ideal S1x128 .f32) (z : Fin 1) (q : Fin 128) :
    k4_pay5 (F := Ideal) v3 v11 (ix2 z q) = v11 (ix2 z q) + ∑ p : Fin 5000, v3 (ix2 p q) * v3 (ix2 p q) := by
  unfold k4_pay5 k4_pay3
  show shapeCast S1x128 v11 shapeCasts_S1x128_S1x128 (ix2 z q) + shapeCast S1x128 _ shapeCasts_S128_S1x128 (ix2 z q) = _
  refine congrArg₂ (· + ·) (congrFun (shapeCast_self v11 _) _) ?_
  refine (cast_row _ z q).trans ?_
  refine (colred_apply _ _ _ q).trans ?_
  refine Finset.sum_congr rfl fun p _ => ?_
  show shapeCast S5000x128 v3 shapeCasts_S5000x128_S5000x128 (ix2 p q) * shapeCast S5000x128 v3 shapeCasts_S5000x128_S5000x128 (ix2 p q) = _
  rw [shapeCast_self]

/-! The second statistics kernel has the same payloads. -/

theorem k8_pay1_apply (j : S1x128.Idx) : k8_pay1 (F := Ideal) j = 0 := Ideal.ofBits_zero_f32
theorem k8_pay2_apply (j : S1x128.Idx) : k8_pay2 (F := Ideal) j = 0 := Ideal.ofBits_zero_f32

theorem k8_pay4_apply (v3 : Vec Ideal S5000x128 .f32) (v5 : Vec Ideal S1x128 .f32) (z : Fin 1) (q : Fin 128) :
    k8_pay4 (F := Ideal) v3 v5 (ix2 z q) = v5 (ix2 z q) + ∑ p : Fin 5000, v3 (ix2 p q) := by
  unfold k8_pay4 k8_pay3
  show shapeCast S1x128 v5 shapeCasts_S1x128_S1x128 (ix2 z q) + shapeCast S1x128 _ shapeCasts_S128_S1x128 (ix2 z q) = _
  refine congrArg₂ (· + ·) (congrFun (shapeCast_self v5 _) _) ?_
  refine (cast_row _ z q).trans ?_
  refine (colred_apply _ _ _ q).trans ?_
  exact Finset.sum_congr rfl fun p _ => congrFun (shapeCast_self v3 _) _

theorem k8_pay5_apply (v3 : Vec Ideal S5000x128 .f32) (v11 : Vec Ideal S1x128 .f32) (z : Fin 1) (q : Fin 128) :
    k8_pay5 (F := Ideal) v3 v11 (ix2 z q) = v11 (ix2 z q) + ∑ p : Fin 5000, v3 (ix2 p q) * v3 (ix2 p q) := by
  unfold k8_pay5 k8_pay3
  show shapeCast S1x128 v11 shapeCasts_S1x128_S1x128 (ix2 z q) + shapeCast S1x128 _ shapeCasts_S128_S1x128 (ix2 z q) = _
  refine congrArg₂ (· + ·) (congrFun (shapeCast_self v11 _) _) ?_
  refine (cast_row _ z q).trans ?_
  refine (colred_apply _ _ _ q).trans ?_
  refine Finset.sum_congr rfl fun p _ => ?_
  show shapeCast S5000x128 v3 shapeCasts_S5000x128_S5000x128 (ix2 p q) * shapeCast S5000x128 v3 shapeCasts_S5000x128_S5000x128 (ix2 p q) = _
  rw [shapeCast_self]

end Cert.KernelIdeal.RegVal.Stats

end
-- ==== Proof.RegStats4.lean ====
/-
  The first batch-norm statistics region: what its two 1-by-128 output arrays hold after the whole grid, as
  functions of the 100000-by-128 input array as the region finds it.

  The grid has 20 points; point t stages rows 5000·t … 5000·t + 4999 of the input, and both outputs keep the one
  block (0, 0), written back after the last point only. At point 0 the body first stores the zero row in both
  outputs; at every point it replaces the first output by itself plus the column sums of the staged block, and the
  second by itself plus the column sums of the block's squared entries.

  * The pieces the body's stores leave, in either case, are the accumulating payloads of the staged block and of the
    output's previous contents (the zero row at point 0).
  * By induction on the point, after point n the outputs hold per feature the sum over the first 5000·(n+1) rows of
    the column, resp. of its squares (0 + x = x, and the sum over a range splits at a block boundary).
  * After point 19 that is the sum over all 100000 rows; the last point's write-back covers the whole 1-by-128 array.
-/
import proofs.«172140_j79293686219286_1_alg».proof.Proof.Gen.KernelIdeal.Frame
import proofs.«172140_j79293686219286_1_alg».proof.Proof.RegStatsPay
import proofs.«172140_j79293686219286_1_alg».proof.Proof.SpecIdx
import Idealize.ShloMosaic.Lib.Pipeline.Value
import Idealize.ShloMosaic.Lib.Tactic

-- reading a buffer's shape off the program's table of 231 references recurses past the default depth
set_option maxRecDepth 16384

noncomputable section

open scoped BigOperators

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen

namespace Stats

section Pieces
variable {F : FTy → Type} [FloatOps F]

/-- Away from the first point the body leaves, in the first output, the first accumulating payload of the
    input block and the output's previous contents. -/
theorem out4_B_1_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz2]
  simp only [View.readAt_eq_ld, h1.read_unread, h2.read_unread, View.ld_unit_zero (S := S5000x128) hz2,
    View.ld_unit_zero (S := S1x128) hz2]

/-- … and in the second output the second accumulating payload. -/
theorem out4_B_2_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz2]
  simp only [View.readAt_eq_ld, h1.read_unread, h3.read_unread, View.ld_unit_zero (S := S5000x128) hz2,
    View.ld_unit_zero (S := S1x128) hz2]

/-- At the first point the body first stores the zero row, reads it back, and leaves the first accumulating
    payload of the input block and the zero row. -/
theorem out4_A_1_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) hz2, View.readCov_unit_zero (S := S1x128) _ hz2]
  simp only [View.readAt_eq_ld, h1.read_unread, View.ld_unit_zero (S := S5000x128) hz2]

/-- … and in the second output the second accumulating payload of the input block and the zero row. -/
theorem out4_A_2_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) hz2, View.readCov_unit_zero (S := S1x128) _ hz2]
  simp only [View.readAt_eq_ld, h1.read_unread, View.ld_unit_zero (S := S5000x128) hz2]

end Pieces

section Region
variable (V : (c : Dev nD) → (b : Ref sig .tc) → Buf (Elt Ideal) ((c : Thread nD τ).loc b))

/-- The region's input array, as the region finds it: 100000 rows by 128 features of extended reals. -/
abbrev X4 (c : Dev nD) : S100000x128.Idx → EReal := V c main_v60

/-- The input window's block at point t: 5000 rows by 128 features. -/
abbrev blk4 (c : Dev nD) (t : Fin cfg4.N) : S5000x128.Idx → EReal := iblk4 V c 0 t

/-- The block index of the input window at point t is (t, 0); of either output window (0, 0). -/
theorem idx4_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- The input block at point t reads the array at rows 5000·t + p. -/
theorem blk4_apply (c : Dev nD) (t : Fin cfg4.N) (p : Fin 5000) (q : Fin 128) :
    blk4 V c t (ix2 p q)
      = X4 V c (ix2 (⟨5000 * t.val + p.val, by
          have := t.isLt; have hN : cfg4.N = 20 := N_4; have := p.isLt; omega⟩ : Fin 100000) q) := by
  obtain ⟨e0, e1, -⟩ := idx4_facts t
  unfold blk4 iblk4
  rw [View.read_apply]
  show V c main_v60 (((cfg4.win 0).blk t).view.emb (ix2 p q)) = _
  refine congrArg (V c main_v60) (funext fun a => Fin.ext ?_)
  match a with
  | ⟨0, _⟩ => show win4_0.index t (0 : Fin 2) * 5000 + 1 * p.val = 5000 * t.val + p.val; omega
  | ⟨1, _⟩ => show win4_0.index t (1 : Fin 2) * 128 + 1 * q.val = q.val; omega

/-- … and so do its squared entries. -/
theorem blk4_sq_apply (c : Dev nD) (t : Fin cfg4.N) (p : Fin 5000) (q : Fin 128) :
    (fun j => blk4 V c t j * blk4 V c t j) (ix2 p q)
      = (fun i => X4 V c i * X4 V c i) (ix2 (⟨5000 * t.val + p.val, by
          have := t.isLt; have hN : cfg4.N = 20 := N_4; have := p.isLt; omega⟩ : Fin 100000) q) := by
  show _ * _ = _ * _
  rw [blk4_apply V c t p q]

/-- THE RUNNING SUMS. After point n the first output holds, per feature q, the sum over the first 5000·(n+1) rows of the
    input array's column q, and the second output the same sum of the squared entries — by induction on the point. -/
theorem outsAt4_eq (c : Dev nD) : ∀ (n : ℕ) (hn : n < cfg4.N) (q : Fin 128),
    (outsAt4 V c n hn).1 (ix2 (0 : Fin 1) q)
        = ∑ r ∈ Finset.range (5000 * (n + 1)), tot (X4 V c) r q
    ∧ (outsAt4 V c n hn).2 (ix2 (0 : Fin 1) q)
        = ∑ r ∈ Finset.range (5000 * (n + 1)), tot (fun i => X4 V c i * X4 V c i) r q
  | 0, hn, q => by
    rw [outsAt4_A V c ⟨0, hn⟩ rfl]
    dsimp only
    rw [out4_A_1_eq (F := Ideal) c, out4_A_2_eq (F := Ideal) c]
    constructor
    · refine (k4_pay4_apply (blk4 V c ⟨0, hn⟩) (k4_pay1 (F := Ideal)) 0 q).trans ?_
      rw [k4_pay1_apply]
      exact acc_step (X4 V c) (blk4 V c ⟨0, hn⟩) 0 (by omega) (fun p q => blk4_apply V c ⟨0, hn⟩ p q) q 0
        (zero_eq_sum_range _)
    · refine (k4_pay5_apply (blk4 V c ⟨0, hn⟩) (k4_pay2 (F := Ideal)) 0 q).trans ?_
      rw [k4_pay2_apply]
      exact acc_step (fun i => X4 V c i * X4 V c i) (fun j => blk4 V c ⟨0, hn⟩ j * blk4 V c ⟨0, hn⟩ j) 0 (by omega)
        (fun p q => blk4_sq_apply V c ⟨0, hn⟩ p q) q 0 (zero_eq_sum_range _)
  | n + 1, hn, q => by
    have hN : cfg4.N = 20 := N_4
    have hB : ¬(⟨n + 1, hn⟩ : Fin cfg4.N).val % 20 = 0 := by dsimp only; omega
    obtain ⟨ih1, ih2⟩ := outsAt4_eq c n (Nat.lt_of_succ_lt hn) q
    rw [outsAt4_B V c ⟨n + 1, hn⟩ hB]
    dsimp only
    rw [out4_B_1_eq (F := Ideal) c, out4_B_2_eq (F := Ideal) c]
    constructor
    · refine (k4_pay4_apply (blk4 V c ⟨n + 1, hn⟩) (outsAt4 V c n (Nat.lt_of_succ_lt hn)).1 0 q).trans ?_
      exact acc_step (X4 V c) (blk4 V c ⟨n + 1, hn⟩) (n + 1) (by omega) (fun p q => blk4_apply V c ⟨n + 1, hn⟩ p q) q _ ih1
    · refine (k4_pay5_apply (blk4 V c ⟨n + 1, hn⟩) (outsAt4 V c n (Nat.lt_of_succ_lt hn)).2 0 q).trans ?_
      exact acc_step (fun i => X4 V c i * X4 V c i) (fun j => blk4 V c ⟨n + 1, hn⟩ j * blk4 V c ⟨n + 1, hn⟩ j) (n + 1) (by omega)
        (fun p q => blk4_sq_apply V c ⟨n + 1, hn⟩ p q) q _ ih2

/-- The last point of the grid. -/
abbrev t4_last : Fin cfg4.N := ⟨19, by rw [show cfg4.N = 20 from N_4]; decide⟩

/-- An index of the first output's array is in point t's block iff each coordinate is in the block's range. -/
theorem mem_blk4_1 (t : Fin cfg4.N) (i : S1x128.Idx) :
    i ∈ ((cfg4.win 1).blk t).view.set ↔ ∀ a : Fin 2, win4_1.index t a * S1x128.size a ≤ (i a).val ∧ (i a).val < win4_1.index t a * S1x128.size a + S1x128.size a := by
  show i ∈ ((View.whole main_v61_0).slice (win4_1.rect t)).set ↔ _
  rw [View.set_slice_whole, Rect.mem_set_unit]
  exact Iff.rfl

/-- The first output's one block, at block index (0, 0), is its whole array: read through it, a row is itself. -/
theorem read_blk4_1 (t : Fin cfg4.N) (G : S1x128.Idx → EReal) :
    ((cfg4.win 1).blk t).view.read (Elt Ideal) G = G := by
  obtain ⟨-, -, e0, e1, -⟩ := idx4_facts t
  have hz' : (fun a => win4_1.index t a * main_v61_0.ty.shape.size a) = fun _ => 0 := funext fun a => by
    match a with
    | ⟨0, _⟩ => show win4_1.index t (0 : Fin 2) * 1 = 0; omega
    | ⟨1, _⟩ => show win4_1.index t (1 : Fin 2) * 128 = 0; omega
  exact Memref.read_access_unit_zero (Elt Ideal) main_v61_0 hz' (fun a => by rw [congrFun hz' a]; simp) G

/-- The running sums after the last point are the column sums over all rows. -/
theorem last4_sum (c : Dev nD) (hn : 19 < cfg4.N) (q : Fin 128) :
    (outsAt4 V c 19 hn).1 (ix2 (0 : Fin 1) q) = ∑ r : Fin 100000, X4 V c (ix2 r q) := by
  rw [(outsAt4_eq V c 19 hn q).1, rows_all]
  exact sum_tot_all (X4 V c) q

theorem last4_sumsq (c : Dev nD) (hn : 19 < cfg4.N) (q : Fin 128) :
    (outsAt4 V c 19 hn).2 (ix2 (0 : Fin 1) q) = ∑ r : Fin 100000, X4 V c (ix2 r q) * X4 V c (ix2 r q) := by
  rw [(outsAt4_eq V c 19 hn q).2, rows_all]
  exact sum_tot_all (fun i => X4 V c i * X4 V c i) q

/-- What the last point writes back to the first output's array is the block (0, 0) — the whole array — of the
    column sums of the input array. -/
theorem flushed4_1_eq (c : Dev nD) (t : Fin cfg4.N) (hf : (cfg4.win 1).flush t = true) :
    (dat4 V c).flushed 1 t = ((cfg4.win 1).blk t).view.read (Elt Ideal) (Cert.Gcn.colSum (V c main_v60)) := by
  have hN : cfg4.N = 20 := N_4
  refine Eq.trans ?_ (read_blk4_1 t (Cert.Gcn.colSum (V c main_v60))).symm
  obtain ⟨n, hn⟩ := t
  have h19 : n = 19 := by have := (flush4_1 ⟨n, hn⟩).mp hf; dsimp only at this; omega
  subst h19
  show (cfg4.win 1).cut (grid4.coords ⟨19, hn⟩) ((dat4 V c).after 1 ⟨19, hn⟩) = _
  rw [after4_1]
  funext j
  have hj0 : (j 0).val < 1 := (j 0).isLt
  have hj1 : (j 1).val < 128 := (j 1).isLt
  have ej : (cfg4.win 1).xinj (grid4.coords ⟨19, hn⟩) j = ix2 (0 : Fin 1) (⟨(j 1).val, hj1⟩ : Fin 128) :=
    funext fun a => Fin.ext (by
      match a with
      | ⟨0, _⟩ => show (j 0).val = 0; omega
      | ⟨1, _⟩ => rfl)
  exact ((congrArg (outsAt4 V c 19 hn).1 ej).trans (last4_sum V c hn ⟨(j 1).val, hj1⟩)).trans
    (colSum_at (X4 V c) j ⟨(j 1).val, hj1⟩ rfl).symm

/-- The same for the second output's array. -/
theorem mem_blk4_2 (t : Fin cfg4.N) (i : S1x128.Idx) :
    i ∈ ((cfg4.win 2).blk t).view.set ↔ ∀ a : Fin 2, win4_2.index t a * S1x128.size a ≤ (i a).val ∧ (i a).val < win4_2.index t a * S1x128.size a + S1x128.size a := by
  show i ∈ ((View.whole main_v61_1).slice (win4_2.rect t)).set ↔ _
  rw [View.set_slice_whole, Rect.mem_set_unit]
  exact Iff.rfl

theorem read_blk4_2 (t : Fin cfg4.N) (G : S1x128.Idx → EReal) :
    ((cfg4.win 2).blk t).view.read (Elt Ideal) G = G := by
  obtain ⟨-, -, -, -, e0, e1⟩ := idx4_facts t
  have hz' : (fun a => win4_2.index t a * main_v61_1.ty.shape.size a) = fun _ => 0 := funext fun a => by
    match a with
    | ⟨0, _⟩ => show win4_2.index t (0 : Fin 2) * 1 = 0; omega
    | ⟨1, _⟩ => show win4_2.index t (1 : Fin 2) * 128 = 0; omega
  exact Memref.read_access_unit_zero (Elt Ideal) main_v61_1 hz' (fun a => by rw [congrFun hz' a]; simp) G

/-- What the last point writes back to the second output's array is the whole array of the column sums of squares. -/
theorem flushed4_2_eq (c : Dev nD) (t : Fin cfg4.N) (hf : (cfg4.win 2).flush t = true) :
    (dat4 V c).flushed 2 t = ((cfg4.win 2).blk t).view.read (Elt Ideal) (Cert.Gcn.colSumSq (V c main_v60)) := by
  have hN : cfg4.N = 20 := N_4
  refine Eq.trans ?_ (read_blk4_2 t (Cert.Gcn.colSumSq (V c main_v60))).symm
  obtain ⟨n, hn⟩ := t
  have h19 : n = 19 := by have := (flush4_2 ⟨n, hn⟩).mp hf; dsimp only at this; omega
  subst h19
  show (cfg4.win 2).cut (grid4.coords ⟨19, hn⟩) ((dat4 V c).after 2 ⟨19, hn⟩) = _
  rw [after4_2]
  funext j
  have hj0 : (j 0).val < 1 := (j 0).isLt
  have hj1 : (j 1).val < 128 := (j 1).isLt
  have ej : (cfg4.win 2).xinj (grid4.coords ⟨19, hn⟩) j = ix2 (0 : Fin 1) (⟨(j 1).val, hj1⟩ : Fin 128) :=
    funext fun a => Fin.ext (by
      match a with
      | ⟨0, _⟩ => show (j 0).val = 0; omega
      | ⟨1, _⟩ => rfl)
  exact ((congrArg (outsAt4 V c 19 hn).2 ej).trans (last4_sumsq V c hn ⟨(j 1).val, hj1⟩)).trans
    (colSumSq_at (X4 V c) j ⟨(j 1).val, hj1⟩ rfl).symm

end Region

end Stats

open Stats

section Finals
variable (V : (c : Dev nD) → (b : Ref sig .tc) → Buf (Elt Ideal) ((c : Thread nD τ).loc b))

/-- THE FIRST OUTPUT after the whole grid: per feature, the sum of the input array's column over all rows. -/
theorem final4_sum (c : Dev nD) : (Gen.dat4 (F := Ideal) V c).arrAt 1 cfg4.N = Cert.Gcn.colSum (V c main_v60) :=
  (dat4 V c).arrAt_eq_of_cover 1 (Cert.Gcn.colSum (V c main_v60)) (flushed4_1_eq V c) fun (i : S1x128.Idx) =>
    ⟨t4_last, (flush4_1 t4_last).mpr rfl, by
      rw [mem_blk4_1]
      intro a
      have h0 : (i 0 : Nat) < 1 := (i 0).isLt
      have h1 : (i 1 : Nat) < 128 := (i 1).isLt
      obtain ⟨-, -, e0, e1, -⟩ := idx4_facts t4_last
      match a with
      | ⟨0, _⟩ => show win4_1.index t4_last (0 : Fin 2) * 1 ≤ (i 0 : Nat) ∧ (i 0 : Nat) < win4_1.index t4_last (0 : Fin 2) * 1 + 1; omega
      | ⟨1, _⟩ => show win4_1.index t4_last (1 : Fin 2) * 128 ≤ (i 1 : Nat) ∧ (i 1 : Nat) < win4_1.index t4_last (1 : Fin 2) * 128 + 128; omega⟩

/-- THE SECOND OUTPUT after the whole grid: per feature, the sum of the squared entries of the input array's column
    over all rows. -/
theorem final4_sumsq (c : Dev nD) : (Gen.dat4 (F := Ideal) V c).arrAt 2 cfg4.N = Cert.Gcn.colSumSq (V c main_v60) :=
  (dat4 V c).arrAt_eq_of_cover 2 (Cert.Gcn.colSumSq (V c main_v60)) (flushed4_2_eq V c) fun (i : S1x128.Idx) =>
    ⟨t4_last, (flush4_2 t4_last).mpr rfl, by
      rw [mem_blk4_2]
      intro a
      have h0 : (i 0 : Nat) < 1 := (i 0).isLt
      have h1 : (i 1 : Nat) < 128 := (i 1).isLt
      obtain ⟨-, -, -, -, e0, e1⟩ := idx4_facts t4_last
      match a with
      | ⟨0, _⟩ => show win4_2.index t4_last (0 : Fin 2) * 1 ≤ (i 0 : Nat) ∧ (i 0 : Nat) < win4_2.index t4_last (0 : Fin 2) * 1 + 1; omega
      | ⟨1, _⟩ => show win4_2.index t4_last (1 : Fin 2) * 128 ≤ (i 1 : Nat) ∧ (i 1 : Nat) < win4_2.index t4_last (1 : Fin 2) * 128 + 128; omega⟩

end Finals

end Cert.KernelIdeal.RegVal

end
-- ==== Proof.RegBNPay.lean ====
/-
  The batch-normalisation body's arithmetic, read at an index.

  The body takes a [5000,128] block x of node features and four [1,128] rows — mean mu, variance var, scale g,
  shift be — and leaves, at row p and feature q,
      max ((x (p, q) − mu (0, q)) · (var (0, q) + ε)^(−1/2) · g (0, q) + be (0, q)) 0,
  ε the single-precision word nearest 1e-5 read exactly. Every operation of the body is entrywise except the
  four broadcasts of a row to all 5000 rows, each of which reads the row's entry of the same feature.
  Both normalisation layers of the network have this same body.
-/
import proofs.«172140_j79293686219286_1_alg».proof.Proof.SpecIdx
import proofs.«172140_j79293686219286_1_alg».proof.Proof.Gen.KernelIdeal.Skeleton
import Idealize.ShloMosaic.Lib.Pipeline.Value
import Idealize.ShloMosaic.PureOps.Ideal.Laws

noncomputable section

namespace Cert.KernelIdeal.RegVal

open Cert.KernelIdeal Cert.KernelIdeal.Gen Idealize.ShloMosaic Idealize.ShloMosaic.ValueIdx

/-- A [1,128] row broadcast to [5000,128] reads, at (p, q), the row's entry (0, q). -/
theorem broadcastTo_row_apply {α : Type} (v : S1x128.Idx → α) (h : S1x128.Broadcasts S5000x128)
    (p : Fin 5000) (q : Fin 128) :
    broadcastTo S5000x128 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- The first normalisation layer's body at (p, q). -/
theorem k5_pay1_apply (v0 : Vec Ideal S5000x128 .f32) (v2 v4 v6 v8 : Vec Ideal S1x128 .f32)
    (p : Fin 5000) (q : Fin 128) :
    k5_pay1 v0 v2 v4 v6 v8 (ix2 p q)
      = max ((v0 (ix2 p q) - v2 (ix2 (0 : Fin 1) q)) * Ideal.rsqrt (v4 (ix2 (0 : Fin 1) q) + Cert.Gcn.eps)
          * v6 (ix2 (0 : Fin 1) q) + v8 (ix2 (0 : Fin 1) q)) 0 := by
  unfold k5_pay1
  simp only [shapeCast_self]
  show max ((v0 (ix2 p q) - broadcastTo S5000x128 v2 broadcasts_S1x128_S5000x128 (ix2 p q))
        * broadcastTo S5000x128 (fun i => Ideal.rsqrt (v4 i + Ideal.ofBits .f32 0x3727C5AC#32)) broadcasts_S1x128_S5000x128 (ix2 p q)
        * broadcastTo S5000x128 v6 broadcasts_S1x128_S5000x128 (ix2 p q)
        + broadcastTo S5000x128 v8 broadcasts_S1x128_S5000x128 (ix2 p q)) (Ideal.ofBits .f32 0x00000000#32) = _
  rw [broadcastTo_row_apply, broadcastTo_row_apply, broadcastTo_row_apply, broadcastTo_row_apply,
    Ideal.ofBits_zero_f32]
  rfl

/-- The second normalisation layer's body at (p, q): the same arithmetic. -/
theorem k9_pay1_apply (v0 : Vec Ideal S5000x128 .f32) (v2 v4 v6 v8 : Vec Ideal S1x128 .f32)
    (p : Fin 5000) (q : Fin 128) :
    k9_pay1 v0 v2 v4 v6 v8 (ix2 p q)
      = max ((v0 (ix2 p q) - v2 (ix2 (0 : Fin 1) q)) * Ideal.rsqrt (v4 (ix2 (0 : Fin 1) q) + Cert.Gcn.eps)
          * v6 (ix2 (0 : Fin 1) q) + v8 (ix2 (0 : Fin 1) q)) 0 := by
  unfold k9_pay1
  simp only [shapeCast_self]
  show max ((v0 (ix2 p q) - broadcastTo S5000x128 v2 broadcasts_S1x128_S5000x128 (ix2 p q))
        * broadcastTo S5000x128 (fun i => Ideal.rsqrt (v4 i + Ideal.ofBits .f32 0x3727C5AC#32)) broadcasts_S1x128_S5000x128 (ix2 p q)
        * broadcastTo S5000x128 v6 broadcasts_S1x128_S5000x128 (ix2 p q)
        + broadcastTo S5000x128 v8 broadcasts_S1x128_S5000x128 (ix2 p q)) (Ideal.ofBits .f32 0x00000000#32) = _
  rw [broadcastTo_row_apply, broadcastTo_row_apply, broadcastTo_row_apply, broadcastTo_row_apply,
    Ideal.ofBits_zero_f32]
  rfl

end Cert.KernelIdeal.RegVal

end
-- ==== Proof.RegBN5.lean ====
/-
  The first batch-normalisation layer applied to the whole node-feature matrix.

  The grid has 20 points; point t works on rows 5000·t … 5000·t + 4999 of the [100000,128] matrix and on the
  whole of each of the four [1,128] rows (mean, variance, scale, shift), and writes rows 5000·t … 5000·t + 4999
  of the result. Entry (p, q) of the block written at point t is the normalisation's formula at row
  5000·t + p and feature q: the input block's entry (p, q) is the matrix's entry (5000·t + p, q), and each row's
  entry (0, q) is read at block index (0, 0). So what each point writes back is its block of ONE whole-matrix
  function, `Cert.Gcn.bnApply` of the five arrays as the region finds them; row r lies in the block of point
  r / 5000, so the blocks cover the matrix, and the matrix ends holding that function.
-/
import proofs.«172140_j79293686219286_1_alg».proof.Proof.RegBNPay
import proofs.«172140_j79293686219286_1_alg».proof.Proof.Gen.KernelIdeal.Frame
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as the constant function. -/
theorem zeroOff5 : (![0, 0] : Fin 2 → Nat) = fun _ => 0 := funext fun a => by fin_cases a <;> rfl

/-- What the body leaves in the output block, at (p, q): the normalisation's formula of the input block's entry
    (p, q) and the four rows' entries (0, q). -/
theorem out5_5_apply (x0 : Vec Ideal S5000x128 .f32) (x1 x2 x3 x4 : Vec Ideal S1x128 .f32)
    (p : Fin 5000) (q : Fin 128) :
    out5_5 x0 x1 x2 x3 x4 (ix2 p q)
      = max ((x0 (ix2 p q) - x1 (ix2 (0 : Fin 1) q)) * Ideal.rsqrt (x2 (ix2 (0 : Fin 1) q) + Cert.Gcn.eps)
          * x3 (ix2 (0 : Fin 1) q) + x4 (ix2 (0 : Fin 1) q)) 0 := by
  unfold out5_5
  rw [View.canon_unit_zero zeroOff5]
  simp only [View.ld_unit_zero (S := S5000x128) zeroOff5, View.ld_unit_zero (S := S1x128) zeroOff5]
  exact k5_pay1_apply x0 x1 x2 x3 x4 p q

/-- The same entry as the whole-matrix function at an index `i` of feature q, given that the block's entry is the
    matrix's at `i` and the rows' entries are the row arrays'. -/
theorem out5_5_eq_bnApply (X : Cert.Gcn.SN.Idx → EReal) (mu var g be : Cert.Gcn.SR.Idx → EReal)
    (x0 : Vec Ideal S5000x128 .f32) (x1 x2 x3 x4 : Vec Ideal S1x128 .f32)
    (p : Fin 5000) (q : Fin 128) (i : Cert.Gcn.SN.Idx) (hq : (i 1).val = q.val)
    (h0 : x0 (ix2 p q) = X i) (h1 : x1 (ix2 (0 : Fin 1) q) = mu (ix2 (0 : Fin 1) q))
    (h2 : x2 (ix2 (0 : Fin 1) q) = var (ix2 (0 : Fin 1) q)) (h3 : x3 (ix2 (0 : Fin 1) q) = g (ix2 (0 : Fin 1) q))
    (h4 : x4 (ix2 (0 : Fin 1) q) = be (ix2 (0 : Fin 1) q)) :
    out5_5 x0 x1 x2 x3 x4 (ix2 p q) = Cert.Gcn.bnApply X mu var g be i := by
  obtain ⟨r, q', rfl⟩ : ∃ (r : Fin 100000) (q' : Fin 128), i = ix2 r q' := ⟨i 0, i 1, eq_ix2 i⟩
  obtain rfl : q' = q := Fin.ext hq
  rw [out5_5_apply, Cert.Gcn.bnApply_ix2, h0, h1, h2, h3, h4]

/-- The block indices over the grid: the input matrix's block moves with the output's, which at point t is block
    (t, 0); every row array is read at block (0, 0). -/
theorem blockIdx5 : ∀ t : Fin cfg5.N,
    win5_0.index t (0 : Fin 2) = win5_5.index t (0 : Fin 2) ∧ win5_0.index t (1 : Fin 2) = win5_5.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point t writes back is block t of the whole-matrix function. -/
theorem flushed5_eq (c : Dev nD) (t : Fin cfg5.N) :
    (dat5 (F := Ideal) V c).flushed 5 t = ((cfg5.win 5).blk t).view.read (Elt Ideal)
      (Cert.Gcn.bnApply (V c main_v60) (V c main_v70) (V c main_v71) (V c main_v72) (V c main_v73)) := by
  show (cfg5.win 5).cut (grid5.coords t) ((dat5 V c).after 5 t) = _
  rw [after5_5]
  obtain ⟨e00, e01, e10, e11, e20, e21, e30, e31, e40, e41, e50, e51⟩ := blockIdx5 t
  refine funext fun (j : S5000x128.Idx) => ?_
  obtain ⟨p, q, rfl⟩ : ∃ (p : Fin 5000) (q : Fin 128), j = ix2 p q := ⟨j 0, j 1, eq_ix2 j⟩
  refine out5_5_eq_bnApply (V c main_v60) (V c main_v70) (V c main_v71) (V c main_v72) (V c main_v73)
    (iblk5 V c 0 t) (iblk5 V c 1 t) (iblk5 V c 2 t) (iblk5 V c 3 t) (iblk5 V c 4 t) p q
    (((cfg5.win 5).blk t).view.emb (ix2 p q)) ?_ ?_ ?_ ?_ ?_ ?_
  · show win5_5.index t (1 : Fin 2) * 128 + 1 * q.val = q.val
    omega
  · show V c main_v60 (((cfg5.win 0).blk t).view.emb (ix2 p q)) = V c main_v60 (((cfg5.win 5).blk t).view.emb (ix2 p q))
    refine congrArg (V c main_v60) (funext fun a => Fin.ext ?_)
    match a with
    | ⟨0, _⟩ => show win5_0.index t (0 : Fin 2) * 5000 + 1 * p.val = win5_5.index t (0 : Fin 2) * 5000 + 1 * p.val; omega
    | ⟨1, _⟩ => show win5_0.index t (1 : Fin 2) * 128 + 1 * q.val = win5_5.index t (1 : Fin 2) * 128 + 1 * q.val; omega
  · show V c main_v70 (((cfg5.win 1).blk t).view.emb (ix2 (0 : Fin 1) q)) = V c main_v70 (ix2 (0 : Fin 1) q)
    refine congrArg (V c main_v70) (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  · show V c main_v71 (((cfg5.win 2).blk t).view.emb (ix2 (0 : Fin 1) q)) = V c main_v71 (ix2 (0 : Fin 1) q)
    refine congrArg (V c main_v71) (funext fun a => Fin.ext ?_)
    match a with
    | ⟨0, _⟩ => show win5_2.index t (0 : Fin 2) * 1 + 1 * 0 = 0; omega
    | ⟨1, _⟩ => show win5_2.index t (1 : Fin 2) * 128 + 1 * q.val = q.val; omega
  · show V c main_v72 (((cfg5.win 3).blk t).view.emb (ix2 (0 : Fin 1) q)) = V c main_v72 (ix2 (0 : Fin 1) q)
    refine congrArg (V c main_v72) (funext fun a => Fin.ext ?_)
    match a with
    | ⟨0, _⟩ => show win5_3.index t (0 : Fin 2) * 1 + 1 * 0 = 0; omega
    | ⟨1, _⟩ => show win5_3.index t (1 : Fin 2) * 128 + 1 * q.val = q.val; omega
  · show V c main_v73 (((cfg5.win 4).blk t).view.emb (ix2 (0 : Fin 1) q)) = V c main_v73 (ix2 (0 : Fin 1) q)
    refine congrArg (V c main_v73) (funext fun a => Fin.ext ?_)
    match a with
    | ⟨0, _⟩ => show win5_4.index t (0 : Fin 2) * 1 + 1 * 0 = 0; omega
    | ⟨1, _⟩ => show win5_4.index t (1 : Fin 2) * 128 + 1 * q.val = q.val; omega

/-- An index of the matrix is in point t's block iff each coordinate is in the block's range on its axis. -/
theorem mem_blk5 (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v74).slice (win5_5.rect t)).set ↔ _
  rw [View.set_slice_whole, Rect.mem_set_unit]
  exact Iff.rfl

/-- Every index of the matrix is in some point's block: row r is in the block of point r / 5000. -/
theorem cover5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  have ht : (i 0).val / 5000 < cfg5.N := by rw [hN]; omega
  obtain ⟨e00, e01, e10, e11, e20, e21, e30, e31, e40, e41, e50, e51⟩ := blockIdx5 ⟨(i 0).val / 5000, ht⟩
  have e50' : win5_5.index ⟨(i 0).val / 5000, ht⟩ (0 : Fin 2) = (i 0).val / 5000 := e50
  refine ⟨⟨(i 0).val / 5000, ht⟩, flush5_5 _, ?_⟩
  rw [mem_blk5]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    omega
  | ⟨1, _⟩ =>
    show win5_5.index ⟨(i 0).val / 5000, ht⟩ (1 : Fin 2) * 128 ≤ (i 1).val
      ∧ (i 1).val < win5_5.index ⟨(i 0).val / 5000, ht⟩ (1 : Fin 2) * 128 + 128
    omega

/-- The matrix after the whole grid has run: the normalisation of the five arrays as the region found them. -/
theorem final5 (c : Dev nD) :
    (Gen.dat5 (F := Ideal) V c).arrAt 5 cfg5.N
      = Cert.Gcn.bnApply (V c main_v60) (V c main_v70) (V c main_v71) (V c main_v72) (V c main_v73) :=
  (dat5 (F := Ideal) V c).arrAt_eq_of_cover 5 _ (fun t _ => flushed5_eq V c t) (cover5)

end Cert.KernelIdeal.RegVal

end
-- ==== Proof.KW3.lean ====
/-
  The first normalisation read off the fold, given what the fourth region left (`H`): the fifth region leaves the
  column sums and the column sums of squares of `H`; the next stretch of host operations turns them into the mean and
  variance rows and reshapes the scale and the shift to rows; the sixth region normalises, scales, shifts and clamps.
-/
import proofs.«172140_j79293686219286_1_alg».proof.Proof.KKeep
import proofs.«172140_j79293686219286_1_alg».proof.Proof.KRows
import proofs.«172140_j79293686219286_1_alg».proof.Proof.RegStats4
import proofs.«172140_j79293686219286_1_alg».proof.Proof.RegBN5

set_option maxRecDepth 16384

noncomputable section

namespace Cert.KernelIdeal.Walk

open Cert.KernelIdeal Cert.KernelIdeal.Gen Idealize.ShloMosaic Idealize.ShloMosaic.TcCoe Idealize.SL.Sem
  Idealize.ShloMosaic.StableHlo Cert.Gcn Cert.ReferenceIdeal.ReadP

variable (m : (ℓ : Loc nD τ sig) → Buf (Elt Ideal) ℓ) (ρ : Dev nD → PrngReg) (c : Dev nD)

theorem W8_v61_0 (H : Feat) (h60 : W7 m ρ c (Proc.devRef .tc main_v60) = H) : W8 m ρ c (Proc.devRef .tc main_v61_0) = colSum H := by
  refine (W8_arr m ρ c 1).trans ((RegVal.final4_sum (V7 m ρ) c).trans ?_)
  show colSum (W7 m ρ c (Proc.devRef .tc main_v60)) = _
  rw [h60]

theorem W8_v61_1 (H : Feat) (h60 : W7 m ρ c (Proc.devRef .tc main_v60) = H) : W8 m ρ c (Proc.devRef .tc main_v61_1) = colSumSq H := by
  refine (W8_arr m ρ c 2).trans ((RegVal.final4_sumsq (V7 m ρ) c).trans ?_)
  show colSumSq (W7 m ρ c (Proc.devRef .tc main_v60)) = _
  rw [h60]

/-- The statistics region only reads its input array. -/
theorem W8_v60 (H : Feat) (h60 : W7 m ρ c (Proc.devRef .tc main_v60) = H) : W8 m ρ c (Proc.devRef .tc main_v60) = H :=
  ((W8_arr m ρ c 0).trans (((dat4 (V7 m ρ) c).arrAt_in 0 rfl _).trans (A_eq4 (V7 m ρ) c 0))).trans h60

theorem W9_v60 (H : Feat) (h60 : W7 m ρ c (Proc.devRef .tc main_v60) = H) : W9 m ρ c (Proc.devRef .tc main_v60) = H := by
  hb hostOps5; exact W8_v60 m ρ c H h60

theorem W8_arg9 : W8 m ρ c (Proc.devRef .tc main_arg9) = A9 m c := by
  rb W8_of_ne; rb W7_of_ne; hb hostOps3; rb W5_of_ne; rb W4_of_ne; hb hostOps1; rb W2_of_ne; hb hostOps0; rfl
theorem W8_arg10 : W8 m ρ c (Proc.devRef .tc main_arg10) = A10 m c := by
  rb W8_of_ne; rb W7_of_ne; hb hostOps3; rb W5_of_ne; rb W4_of_ne; hb hostOps1; rb W2_of_ne; hb hostOps0; rfl

theorem W9_v70_raw : W9 m ρ c (Proc.devRef .tc main_v70) = meanRow (W8 m ρ c (Proc.devRef .tc main_v61_0)) := by
  show StableHlo.after hostOps5 (W8 m ρ c) (Proc.devRef .tc main_v70) = _
  after_results
  exact mean_row_read _ _ _ _

theorem W9_v71_raw : W9 m ρ c (Proc.devRef .tc main_v71) = varRow (W8 m ρ c (Proc.devRef .tc main_v61_0)) (W8 m ρ c (Proc.devRef .tc main_v61_1)) := by
  show StableHlo.after hostOps5 (W8 m ρ c) (Proc.devRef .tc main_v71) = _
  after_results
  exact var_row_read _ _ _ _ _

theorem W9_v72_raw : W9 m ρ c (Proc.devRef .tc main_v72) = rowOf (W8 m ρ c (Proc.devRef .tc main_arg9)) := by
  show StableHlo.after hostOps5 (W8 m ρ c) (Proc.devRef .tc main_v72) = _
  after_results
  exact shapeCast_row _ _

theorem W9_v73_raw : W9 m ρ c (Proc.devRef .tc main_v73) = rowOf (W8 m ρ c (Proc.devRef .tc main_arg10)) := by
  show StableHlo.after hostOps5 (W8 m ρ c) (Proc.devRef .tc main_v73) = _
  after_results
  exact shapeCast_row _ _

theorem W10_v74 (H : Feat) (h60 : W7 m ρ c (Proc.devRef .tc main_v60) = H) : W10 m ρ c (Proc.devRef .tc main_v74) = bnK H (A9 m c) (A10 m c) := by
  refine (W10_arr m ρ c 5).trans ((RegVal.final5 (V9 m ρ) c).trans ?_)
  show bnApply (W9 m ρ c (Proc.devRef .tc main_v60)) (W9 m ρ c (Proc.devRef .tc main_v70)) (W9 m ρ c (Proc.devRef .tc main_v71)) (W9 m ρ c (Proc.devRef .tc main_v72)) (W9 m ρ c (Proc.devRef .tc main_v73)) = _
  rw [W9_v60 m ρ c H h60, W9_v70_raw, W9_v71_raw, W9_v72_raw, W9_v73_raw,
    W8_v61_0 m ρ c H h60, W8_v61_1 m ρ c H h60, W8_arg9, W8_arg10]
  rfl

end Cert.KernelIdeal.Walk

end
-- ==== Proof.RegMM6.lean ====
/-
  Region 6 (matrix product) as one whole-array function.  The grid has 20 points; point t loads rows
  5000·t … 5000·t + 4999 of the node-feature matrix and the whole 128 by 128 weight matrix, and writes back
  the same rows of the product.  Entry (r, c) of the product depends on row r of the features and column c of
  the weights only, so what point t writes back is block t of the whole-array product, the 20 blocks tile
  the 100000 rows, and the array after the last point is the product everywhere.
-/
import proofs.«172140_j79293686219286_1_alg».proof.Proof.Gen.KernelIdeal.Frame
import proofs.«172140_j79293686219286_1_alg».proof.Proof.SpecIdx
import proofs.«172140_j79293686219286_1_alg».proof.Proof.RegMMPay
import Idealize.ShloMosaic.Lib.Pipeline.Value

noncomputable section

open scoped BigOperators

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's load and store rectangles start at the origin. -/
theorem origin6 : (![0, 0] : Fin 2 → Nat) = fun _ => 0 := funext fun a => by fin_cases a <;> rfl

/-- The block index maps over the 20 points: the feature block and the result block sit at block row t,
    block column 0; the weight matrix is always block (0, 0). -/
theorem blockIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the whole-array product. -/
theorem flushed6_eq (c : Dev nD) (t : Fin cfg6.N) :
    (dat6 (F := Ideal) V c).flushed 2 t
      = ((cfg6.win 2).blk t).view.read (Elt Ideal) (Cert.Gcn.mmS (V c main_v74) (V c main_arg7)) := by
  show (cfg6.win 2).cut (grid6.coords t) ((dat6 V c).after 2 t) = _
  rw [after6_2]
  unfold out6_2
  rw [View.canon_unit_zero origin6]
  simp only [View.ld_unit_zero (S := S5000x128) origin6, View.ld_unit_zero (S := S128x128) origin6]
  obtain ⟨e0, e1, e2, e3, e4, e5⟩ := blockIdx6 t
  refine funext fun (j : S5000x128.Idx) => ?_
  obtain ⟨p, q, rfl⟩ : ∃ (p : Fin 5000) (q : Fin 128), j = ix2 p q := ⟨j 0, j 1, eq_ix2 j⟩
  have ht : t.val < 20 := lt_of_lt_of_eq t.isLt N_6
  have hrow : t.val * 5000 + p.val < 100000 := by have := p.isLt; omega
  -- the blocks' positions in their arrays: row p of the feature block is row 5000·t + p of the features,
  -- the weight block is the weight matrix, entry (p, q) of the result block is entry (5000·t + p, q)
  have h0 : ∀ k : Fin 128, ((cfg6.win 0).blk t).view.emb (ix2 p k)
      = (ix2 (⟨t.val * 5000 + p.val, hrow⟩ : Fin 100000) k : S100000x128.Idx) := fun k => by
    funext a; apply Fin.ext
    match a with
    | ⟨0, _⟩ => show win6_0.index t (0 : Fin 2) * 5000 + 1 * p.val = t.val * 5000 + p.val; omega
    | ⟨1, _⟩ => show win6_0.index t (1 : Fin 2) * 128 + 1 * k.val = k.val; omega
  have h1 : ∀ k : Fin 128, ((cfg6.win 1).blk t).view.emb (ix2 k q) = (ix2 k q : S128x128.Idx) := fun k => by
    funext a; apply Fin.ext
    match a with
    | ⟨0, _⟩ => show win6_1.index t (0 : Fin 2) * 128 + 1 * k.val = k.val; omega
    | ⟨1, _⟩ => show win6_1.index t (1 : Fin 2) * 128 + 1 * q.val = q.val; omega
  have h2 : ((cfg6.win 2).blk t).view.emb (ix2 p q) = (ix2 (⟨t.val * 5000 + p.val, hrow⟩ : Fin 100000) q : S100000x128.Idx) := by
    funext a; apply Fin.ext
    match a with
    | ⟨0, _⟩ => show win6_2.index t (0 : Fin 2) * 5000 + 1 * p.val = t.val * 5000 + p.val; omega
    | ⟨1, _⟩ => show win6_2.index t (1 : Fin 2) * 128 + 1 * q.val = q.val; omega
  show k6_pay1 (iblk6 V c 0 t) (iblk6 V c 1 t) (ix2 p q)
      = Cert.Gcn.mmS (V c main_v74) (V c main_arg7) (((cfg6.win 2).blk t).view.emb (ix2 p q))
  refine (mmPay6_apply (iblk6 V c 0 t) (iblk6 V c 1 t) p q).trans ?_
  refine Eq.trans ?_ (congrArg (Cert.Gcn.mmS (V c main_v74) (V c main_arg7)) h2).symm
  refine (Finset.sum_congr rfl fun k _ => ?_).trans (Cert.Gcn.mmS_ix2 (V c main_v74) (V c main_arg7) _ q).symm
  exact congrArg₂ (fun u v : EReal => u * v) (congrArg (V c main_v74) (h0 k)) (congrArg (V c main_arg7) (h1 k))

/-- An index of the result array is in point t's block iff each coordinate is in the block's range. -/
theorem mem_block6 (t : Fin cfg6.N) (i : S100000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v75).slice (win6_2.rect t)).set ↔ _
  rw [View.set_slice_whole, Rect.mem_set_unit]
  exact Iff.rfl

/-- Every index of the result array lies in the block of the point numbered by its row divided by 5000. -/
theorem cover6 (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  obtain ⟨t, ht⟩ : ∃ t : Fin cfg6.N, t.val = (i 0).val / 5000 :=
    ⟨⟨(i 0).val / 5000, lt_of_lt_of_eq (by omega) N_6.symm⟩, rfl⟩
  obtain ⟨e0, e1, e2, e3, e4, e5⟩ := blockIdx6 t
  refine ⟨t, flush6_2 t, ?_⟩
  rw [mem_block6]
  intro a
  match a with
  | ⟨0, _⟩ =>
    show win6_2.index t (0 : Fin 2) * 5000 ≤ (i 0).val ∧ (i 0).val < win6_2.index t (0 : Fin 2) * 5000 + 5000
    omega
  | ⟨1, _⟩ =>
    show win6_2.index t (1 : Fin 2) * 128 ≤ (i 1).val ∧ (i 1).val < win6_2.index t (1 : Fin 2) * 128 + 128
    omega

/-- The result array after the whole grid is the product of the two input arrays as the region found them. -/
theorem final6 (c : Dev nD) :
    (Gen.dat6 (F := Ideal) V c).arrAt 2 cfg6.N = Cert.Gcn.mmS (V c main_v74) (V c main_arg7) :=
  (Gen.dat6 (F := Ideal) V c).arrAt_eq_of_cover 2 (Cert.Gcn.mmS (V c main_v74) (V c main_arg7))
    (fun t _ => flushed6_eq V c t) cover6

end Cert.KernelIdeal.RegVal

end
-- ==== Proof.RegBias7.lean ====
/-
  Region 7 (bias and clamp) as one whole-array function.  The grid has 20 points; point t loads rows
  5000·t … 5000·t + 4999 of the node-feature matrix and the whole 1 by 128 bias row, and writes back the same
  rows of the result.  So what point t writes back is block t of  max (x + b) 0  taken over the whole arrays,
  the 20 blocks tile the 100000 rows, and the array after the last point is that function everywhere.
-/
import proofs.«172140_j79293686219286_1_alg».proof.Proof.Gen.KernelIdeal.Frame
import proofs.«172140_j79293686219286_1_alg».proof.Proof.SpecIdx
import proofs.«172140_j79293686219286_1_alg».proof.Proof.RegBiasPay
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's load and store rectangles start at the origin. -/
theorem origin7 : (![0, 0] : Fin 2 → Nat) = fun _ => 0 := funext fun a => by fin_cases a <;> rfl

/-- The block index maps over the 20 points: the feature block and the result block sit at block row t,
    block column 0; the bias row is always block (0, 0). -/
theorem blockIdx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of the whole-array bias-and-clamp. -/
theorem flushed7_eq (c : Dev nD) (t : Fin cfg7.N) :
    (dat7 (F := Ideal) V c).flushed 2 t
      = ((cfg7.win 2).blk t).view.read (Elt Ideal) (Cert.Gcn.biasRelu (V c main_v88) (V c main_v89)) := by
  show (cfg7.win 2).cut (grid7.coords t) ((dat7 V c).after 2 t) = _
  rw [after7_2]
  unfold out7_2
  rw [View.canon_unit_zero origin7]
  simp only [View.ld_unit_zero (S := S5000x128) origin7, View.ld_unit_zero (S := S1x128) origin7]
  obtain ⟨e0, e1, e2, e3, e4, e5⟩ := blockIdx7 t
  refine funext fun (j : S5000x128.Idx) => ?_
  obtain ⟨p, q, rfl⟩ : ∃ (p : Fin 5000) (q : Fin 128), j = ix2 p q := ⟨j 0, j 1, eq_ix2 j⟩
  have ht : t.val < 20 := lt_of_lt_of_eq t.isLt N_7
  have hrow : t.val * 5000 + p.val < 100000 := by have := p.isLt; omega
  -- the three blocks' positions in their arrays
  have h0 : ((cfg7.win 0).blk t).view.emb (ix2 p q) = (ix2 (⟨t.val * 5000 + p.val, hrow⟩ : Fin 100000) q : S100000x128.Idx) := by
    funext a; apply Fin.ext
    match a with
    | ⟨0, _⟩ => show win7_0.index t (0 : Fin 2) * 5000 + 1 * p.val = t.val * 5000 + p.val; omega
    | ⟨1, _⟩ => show win7_0.index t (1 : Fin 2) * 128 + 1 * q.val = q.val; omega
  have h1 : ((cfg7.win 1).blk t).view.emb (ix2 (0 : Fin 1) q) = (ix2 (0 : Fin 1) q : S1x128.Idx) := by
    funext a; apply Fin.ext
    match a with
    | ⟨0, _⟩ => show win7_1.index t (0 : Fin 2) * 1 + 1 * 0 = 0; omega
    | ⟨1, _⟩ => show win7_1.index t (1 : Fin 2) * 128 + 1 * q.val = q.val; omega
  have h2 : ((cfg7.win 2).blk t).view.emb (ix2 p q) = (ix2 (⟨t.val * 5000 + p.val, hrow⟩ : Fin 100000) q : S100000x128.Idx) := by
    funext a; apply Fin.ext
    match a with
    | ⟨0, _⟩ => show win7_2.index t (0 : Fin 2) * 5000 + 1 * p.val = t.val * 5000 + p.val; omega
    | ⟨1, _⟩ => show win7_2.index t (1 : Fin 2) * 128 + 1 * q.val = q.val; omega
  show k7_pay1 (iblk7 V c 0 t) (iblk7 V c 1 t) (ix2 p q)
      = Cert.Gcn.biasRelu (V c main_v88) (V c main_v89) (((cfg7.win 2).blk t).view.emb (ix2 p q))
  refine (biasPay7_apply (iblk7 V c 0 t) (iblk7 V c 1 t) p q).trans ?_
  refine Eq.trans ?_ (congrArg (Cert.Gcn.biasRelu (V c main_v88) (V c main_v89)) h2).symm
  exact congrArg₂ (fun u v : EReal => max (u + v) 0) (congrArg (V c main_v88) h0) (congrArg (V c main_v89) h1)

/-- An index of the result array is in point t's block iff each coordinate is in the block's range. -/
theorem mem_block7 (t : Fin cfg7.N) (i : S100000x128.Idx) :
    i ∈ ((cfg7.win 2).blk t).view.set ↔ ∀ a : Fin 2, win7_2.index t a * S5000x128.size a ≤ (i a).val
      ∧ (i a).val < win7_2.index t a * S5000x128.size a + S5000x128.size a := by
  show i ∈ ((View.whole main_v90).slice (win7_2.rect t)).set ↔ _
  rw [View.set_slice_whole, Rect.mem_set_unit]
  exact Iff.rfl

/-- Every index of the result array lies in the block of the point numbered by its row divided by 5000. -/
theorem cover7 (i : S100000x128.Idx) :
    ∃ t : Fin cfg7.N, (cfg7.win 2).flush t = true ∧ i ∈ ((cfg7.win 2).blk t).view.set := by
  have hi0 : (i 0).val < 100000 := (i 0).isLt
  have hi1 : (i 1).val < 128 := (i 1).isLt
  obtain ⟨t, ht⟩ : ∃ t : Fin cfg7.N, t.val = (i 0).val / 5000 :=
    ⟨⟨(i 0).val / 5000, lt_of_lt_of_eq (by omega) N_7.symm⟩, rfl⟩
  obtain ⟨e0, e1, e2, e3, e4, e5⟩ := blockIdx7 t
  refine ⟨t, flush7_2 t, ?_⟩
  rw [mem_block7]
  intro a
  match a with
  | ⟨0, _⟩ =>
    show win7_2.index t (0 : Fin 2) * 5000 ≤ (i 0).val ∧ (i 0).val < win7_2.index t (0 : Fin 2) * 5000 + 5000
    omega
  | ⟨1, _⟩ =>
    show win7_2.index t (1 : Fin 2) * 128 ≤ (i 1).val ∧ (i 1).val < win7_2.index t (1 : Fin 2) * 128 + 128
    omega

/-- The result array after the whole grid is the bias-and-clamp of the two input arrays as the region found them. -/
theorem final7 (c : Dev nD) :
    (Gen.dat7 (F := Ideal) V c).arrAt 2 cfg7.N = Cert.Gcn.biasRelu (V c main_v88) (V c main_v89) :=
  (Gen.dat7 (F := Ideal) V c).arrAt_eq_of_cover 2 (Cert.Gcn.biasRelu (V c main_v88) (V c main_v89))
    (fun t _ => flushed7_eq V c t) cover7

end Cert.KernelIdeal.RegVal

end
-- ==== Proof.KW4.lean ====
/-
  The third layer read off the fold, given what the sixth region left (`H`): the seventh region multiplies `H` by
  the third weight, the next stretch gathers, scales and adds up per destination and reshapes the third bias to a row,
  and the eighth region adds the bias and clamps.
-/
import proofs.«172140_j79293686219286_1_alg».proof.Proof.KKeep
import proofs.«172140_j79293686219286_1_alg».proof.Proof.KW0
import proofs.«172140_j79293686219286_1_alg».proof.Proof.RegMM6
import proofs.«172140_j79293686219286_1_alg».proof.Proof.RegBias7

set_option maxRecDepth 16384

noncomputable section

namespace Cert.KernelIdeal.Walk

open Cert.KernelIdeal Cert.KernelIdeal.Gen Idealize.ShloMosaic Idealize.ShloMosaic.TcCoe Idealize.SL.Sem
  Idealize.ShloMosaic.StableHlo Cert.Gcn Cert.ReferenceIdeal.ReadP

variable (m : (ℓ : Loc nD τ sig) → Buf (Elt Ideal) ℓ) (ρ : Dev nD → PrngReg) (c : Dev nD)

theorem W10_arg7 : W10 m ρ c (Proc.devRef .tc main_arg7) = A7 m c := by
  rb W10_of_ne; hb hostOps5; rb W8_of_ne; rb W7_of_ne; hb hostOps3; rb W5_of_ne; rb W4_of_ne; hb hostOps1; rb W2_of_ne; hb hostOps0; rfl

theorem W11_v75 (H : Feat) (h74 : W10 m ρ c (Proc.devRef .tc main_v74) = H) :
    W11 m ρ c (Proc.devRef .tc main_v75) = mmS H (A7 m c) := by
  refine (W11_arr m ρ c 2).trans ((RegVal.final6 (V10 m ρ) c).trans ?_)
  show mmS (W10 m ρ c (Proc.devRef .tc main_v74)) (W10 m ρ c (Proc.devRef .tc main_arg7)) = _
  rw [h74, W10_arg7]

theorem W11_v3 : W11 m ρ c (Proc.devRef .tc main_v3) = val_main_v3 (F := Ideal) (A1 m c) := by
  rb W11_of_ne; rb W10_of_ne; hb hostOps5; rb W8_of_ne; rb W7_of_ne; hb hostOps3; rb W5_of_ne; rb W4_of_ne; hb hostOps1; rb W2_of_ne; exact W1_v3 m ρ c
theorem W11_v6 : W11 m ρ c (Proc.devRef .tc main_v6) = val_main_v6 (F := Ideal) (A1 m c) := by
  rb W11_of_ne; rb W10_of_ne; hb hostOps5; rb W8_of_ne; rb W7_of_ne; hb hostOps3; rb W5_of_ne; rb W4_of_ne; hb hostOps1; rb W2_of_ne; exact W1_v6 m ρ c
theorem W11_v28 : W11 m ρ c (Proc.devRef .tc main_v28) = val_main_v28 (F := Ideal) (A1 m c) := by
  rb W11_of_ne; rb W10_of_ne; hb hostOps5; rb W8_of_ne; rb W7_of_ne; hb hostOps3; rb W5_of_ne; rb W4_of_ne; hb hostOps1; rb W2_of_ne; exact W1_v28 m ρ c
theorem W11_arg8 : W11 m ρ c (Proc.devRef .tc main_arg8) = A8 m c := by
  rb W11_of_ne; rb W10_of_ne; hb hostOps5; rb W8_of_ne; rb W7_of_ne; hb hostOps3; rb W5_of_ne; rb W4_of_ne; hb hostOps1; rb W2_of_ne; hb hostOps0; rfl

set_option maxHeartbeats 4000000 in
/-- The stretch's gather, scale and scatter-add, over the buffers as the stretch finds them. -/
theorem W12_v88_raw : W12 m ρ c (Proc.devRef .tc main_v88)
    = aggK (W11 m ρ c (Proc.devRef .tc main_v3)) (W11 m ρ c (Proc.devRef .tc main_v6)) (W11 m ρ c (Proc.devRef .tc main_v28)) (W11 m ρ c (Proc.devRef .tc main_v75)) := by
  show StableHlo.after hostOps7 (W11 m ρ c) (Proc.devRef .tc main_v88) = _
  after_results_simp
  rfl

theorem W12_v88 (H : Feat) (h74 : W10 m ρ c (Proc.devRef .tc main_v74) = H) :
    W12 m ρ c (Proc.devRef .tc main_v88) = agg (A1 m c) (mmS H (A7 m c)) := by
  rw [W12_v88_raw, W11_v3, W11_v6, W11_v28, W11_v75 m ρ c H h74, agg_eq_aggK]

/-- The stretch's reshape of the bias, over the buffer as the stretch finds it. -/
theorem W12_v89_raw : W12 m ρ c (Proc.devRef .tc main_v89) = rowOf (W11 m ρ c (Proc.devRef .tc main_arg8)) := by
  show StableHlo.after hostOps7 (W11 m ρ c) (Proc.devRef .tc main_v89) = _
  after_results
  exact shapeCast_row _ _

theorem W12_v89 : W12 m ρ c (Proc.devRef .tc main_v89) = rowOf (A8 m c) := by
  rw [W12_v89_raw, W11_arg8]

theorem W13_v90 (H : Feat) (h74 : W10 m ρ c (Proc.devRef .tc main_v74) = H) :
    W13 m ρ c (Proc.devRef .tc main_v90) = layer (A1 m c) H (A7 m c) (A8 m c) := by
  refine (W13_arr m ρ c 2).trans ((RegVal.final7 (V12 m ρ) c).trans ?_)
  show biasRelu (W12 m ρ c (Proc.devRef .tc main_v88)) (W12 m ρ c (Proc.devRef .tc main_v89)) = _
  rw [W12_v88 m ρ c H h74, W12_v89]
  rfl

end Cert.KernelIdeal.Walk

end
-- ==== Proof.RegStats8.lean ====
/-
  The second batch-norm statistics region: what its two 1-by-128 output arrays hold after the whole grid, as
  functions of the 100000-by-128 input array as the region finds it.

  The grid has 20 points; point t stages rows 5000·t … 5000·t + 4999 of the input, and both outputs keep the one
  block (0, 0), written back after the last point only. At point 0 the body first stores the zero row in both
  outputs; at every point it replaces the first output by itself plus the column sums of the staged block, and the
  second by itself plus the column sums of the block's squared entries.

  * The pieces the body's stores leave, in either case, are the accumulating payloads of the staged block and of the
    output's previous contents (the zero row at point 0).
  * By induction on the point, after point n the outputs hold per feature the sum over the first 5000·(n+1) rows of
    the column, resp. of its squares (0 + x = x, and the sum over a range splits at a block boundary).
  * After point 19 that is the sum over all 100000 rows; the last point's write-back covers the whole 1-by-128 array.
-/
import proofs.«172140_j79293686219286_1_alg».proof.Proof.Gen.KernelIdeal.Frame
import proofs.«172140_j79293686219286_1_alg».proof.Proof.RegStatsPay
import proofs.«172140_j79293686219286_1_alg».proof.Proof.SpecIdx
import Idealize.ShloMosaic.Lib.Pipeline.Value
import Idealize.ShloMosaic.Lib.Tactic

-- reading a buffer's shape off the program's table of 231 references recurses past the default depth
set_option maxRecDepth 16384

noncomputable section

open scoped BigOperators

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen

namespace Stats

section Pieces
variable {F : FTy → Type} [FloatOps F]

/-- Away from the first point the body leaves, in the first output, the first accumulating payload of the
    input block and the output's previous contents. -/
theorem out8_B_1_eq (c : Dev nD) (i : grid8.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond8_0 i) (x : Vec F S5000x128 .f32) (xo1 xo2 : Vec F S1x128 .f32) :
    out8_B_1 c i a1 h1 a2 h2 a3 h3 hc x xo1 xo2 = k8_pay4 x xo1 := by
  unfold out8_B_1
  rw [View.read_writes_eq_canon _ _ _ (cover8_B_1 c i a1 h1 a2 h2 a3 h3 hc x xo1 xo2)]
  unfold kernelRun8_B
  dsimp only
  rw [View.canon_unit_zero hz2]
  simp only [View.readAt_eq_ld, h1.read_unread, h2.read_unread, View.ld_unit_zero (S := S5000x128) hz2,
    View.ld_unit_zero (S := S1x128) hz2]

/-- … and in the second output the second accumulating payload. -/
theorem out8_B_2_eq (c : Dev nD) (i : grid8.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond8_0 i) (x : Vec F S5000x128 .f32) (xo1 xo2 : Vec F S1x128 .f32) :
    out8_B_2 c i a1 h1 a2 h2 a3 h3 hc x xo1 xo2 = k8_pay5 x xo2 := by
  unfold out8_B_2
  rw [View.read_writes_eq_canon _ _ _ (cover8_B_2 c i a1 h1 a2 h2 a3 h3 hc x xo1 xo2)]
  unfold kernelRun8_B
  dsimp only
  rw [View.canon_unit_zero hz2]
  simp only [View.readAt_eq_ld, h1.read_unread, h3.read_unread, View.ld_unit_zero (S := S5000x128) hz2,
    View.ld_unit_zero (S := S1x128) hz2]

/-- At the first point the body first stores the zero row, reads it back, and leaves the first accumulating
    payload of the input block and the zero row. -/
theorem out8_A_1_eq (c : Dev nD) (i : grid8.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond8_0 i) (x : Vec F S5000x128 .f32) :
    out8_A_1 c i a1 h1 a2 h2 a3 h3 hc x = k8_pay4 x k8_pay1 := by
  unfold out8_A_1
  rw [View.read_writes_eq_canon _ _ _ (cover8_A_1 c i a1 h1 a2 h2 a3 h3 hc x)]
  unfold kernelRun8_A
  dsimp only
  sl_unfold_words
  rw [View.canon_cons_unit_zero (S := S1x128) hz2, View.readCov_unit_zero (S := S1x128) _ hz2]
  simp only [View.readAt_eq_ld, h1.read_unread, View.ld_unit_zero (S := S5000x128) hz2]

/-- … and in the second output the second accumulating payload of the input block and the zero row. -/
theorem out8_A_2_eq (c : Dev nD) (i : grid8.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond8_0 i) (x : Vec F S5000x128 .f32) :
    out8_A_2 c i a1 h1 a2 h2 a3 h3 hc x = k8_pay5 x k8_pay2 := by
  unfold out8_A_2
  rw [View.read_writes_eq_canon _ _ _ (cover8_A_2 c i a1 h1 a2 h2 a3 h3 hc x)]
  unfold kernelRun8_A
  dsimp only
  sl_unfold_words
  rw [View.canon_cons_unit_zero (S := S1x128) hz2, View.readCov_unit_zero (S := S1x128) _ hz2]
  simp only [View.readAt_eq_ld, h1.read_unread, View.ld_unit_zero (S := S5000x128) hz2]

end Pieces

section Region
variable (V : (c : Dev nD) → (b : Ref sig .tc) → Buf (Elt Ideal) ((c : Thread nD τ).loc b))

/-- The region's input array, as the region finds it: 100000 rows by 128 features of extended reals. -/
abbrev X8 (c : Dev nD) : S100000x128.Idx → EReal := V c main_v90

/-- The input window's block at point t: 5000 rows by 128 features. -/
abbrev blk8 (c : Dev nD) (t : Fin cfg8.N) : S5000x128.Idx → EReal := iblk8 V c 0 t

/-- The block index of the input window at point t is (t, 0); of either output window (0, 0). -/
theorem idx8_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0 :=
  (by decide +kernel : ∀ t : Fin grid8.N, _)

/-- The input block at point t reads the array at rows 5000·t + p. -/
theorem blk8_apply (c : Dev nD) (t : Fin cfg8.N) (p : Fin 5000) (q : Fin 128) :
    blk8 V c t (ix2 p q)
      = X8 V c (ix2 (⟨5000 * t.val + p.val, by
          have := t.isLt; have hN : cfg8.N = 20 := N_8; have := p.isLt; omega⟩ : Fin 100000) q) := by
  obtain ⟨e0, e1, -⟩ := idx8_facts t
  unfold blk8 iblk8
  rw [View.read_apply]
  show V c main_v90 (((cfg8.win 0).blk t).view.emb (ix2 p q)) = _
  refine congrArg (V c main_v90) (funext fun a => Fin.ext ?_)
  match a with
  | ⟨0, _⟩ => show win8_0.index t (0 : Fin 2) * 5000 + 1 * p.val = 5000 * t.val + p.val; omega
  | ⟨1, _⟩ => show win8_0.index t (1 : Fin 2) * 128 + 1 * q.val = q.val; omega

/-- … and so do its squared entries. -/
theorem blk8_sq_apply (c : Dev nD) (t : Fin cfg8.N) (p : Fin 5000) (q : Fin 128) :
    (fun j => blk8 V c t j * blk8 V c t j) (ix2 p q)
      = (fun i => X8 V c i * X8 V c i) (ix2 (⟨5000 * t.val + p.val, by
          have := t.isLt; have hN : cfg8.N = 20 := N_8; have := p.isLt; omega⟩ : Fin 100000) q) := by
  show _ * _ = _ * _
  rw [blk8_apply V c t p q]

/-- THE RUNNING SUMS. After point n the first output holds, per feature q, the sum over the first 5000·(n+1) rows of the
    input array's column q, and the second output the same sum of the squared entries — by induction on the point. -/
theorem outsAt8_eq (c : Dev nD) : ∀ (n : ℕ) (hn : n < cfg8.N) (q : Fin 128),
    (outsAt8 V c n hn).1 (ix2 (0 : Fin 1) q)
        = ∑ r ∈ Finset.range (5000 * (n + 1)), tot (X8 V c) r q
    ∧ (outsAt8 V c n hn).2 (ix2 (0 : Fin 1) q)
        = ∑ r ∈ Finset.range (5000 * (n + 1)), tot (fun i => X8 V c i * X8 V c i) r q
  | 0, hn, q => by
    rw [outsAt8_A V c ⟨0, hn⟩ rfl]
    dsimp only
    rw [out8_A_1_eq (F := Ideal) c, out8_A_2_eq (F := Ideal) c]
    constructor
    · refine (k8_pay4_apply (blk8 V c ⟨0, hn⟩) (k8_pay1 (F := Ideal)) 0 q).trans ?_
      rw [k8_pay1_apply]
      exact acc_step (X8 V c) (blk8 V c ⟨0, hn⟩) 0 (by omega) (fun p q => blk8_apply V c ⟨0, hn⟩ p q) q 0
        (zero_eq_sum_range _)
    · refine (k8_pay5_apply (blk8 V c ⟨0, hn⟩) (k8_pay2 (F := Ideal)) 0 q).trans ?_
      rw [k8_pay2_apply]
      exact acc_step (fun i => X8 V c i * X8 V c i) (fun j => blk8 V c ⟨0, hn⟩ j * blk8 V c ⟨0, hn⟩ j) 0 (by omega)
        (fun p q => blk8_sq_apply V c ⟨0, hn⟩ p q) q 0 (zero_eq_sum_range _)
  | n + 1, hn, q => by
    have hN : cfg8.N = 20 := N_8
    have hB : ¬(⟨n + 1, hn⟩ : Fin cfg8.N).val % 20 = 0 := by dsimp only; omega
    obtain ⟨ih1, ih2⟩ := outsAt8_eq c n (Nat.lt_of_succ_lt hn) q
    rw [outsAt8_B V c ⟨n + 1, hn⟩ hB]
    dsimp only
    rw [out8_B_1_eq (F := Ideal) c, out8_B_2_eq (F := Ideal) c]
    constructor
    · refine (k8_pay4_apply (blk8 V c ⟨n + 1, hn⟩) (outsAt8 V c n (Nat.lt_of_succ_lt hn)).1 0 q).trans ?_
      exact acc_step (X8 V c) (blk8 V c ⟨n + 1, hn⟩) (n + 1) (by omega) (fun p q => blk8_apply V c ⟨n + 1, hn⟩ p q) q _ ih1
    · refine (k8_pay5_apply (blk8 V c ⟨n + 1, hn⟩) (outsAt8 V c n (Nat.lt_of_succ_lt hn)).2 0 q).trans ?_
      exact acc_step (fun i => X8 V c i * X8 V c i) (fun j => blk8 V c ⟨n + 1, hn⟩ j * blk8 V c ⟨n + 1, hn⟩ j) (n + 1) (by omega)
        (fun p q => blk8_sq_apply V c ⟨n + 1, hn⟩ p q) q _ ih2

/-- The last point of the grid. -/
abbrev t8_last : Fin cfg8.N := ⟨19, by rw [show cfg8.N = 20 from N_8]; decide⟩

/-- An index of the first output's array is in point t's block iff each coordinate is in the block's range. -/
theorem mem_blk8_1 (t : Fin cfg8.N) (i : S1x128.Idx) :
    i ∈ ((cfg8.win 1).blk t).view.set ↔ ∀ a : Fin 2, win8_1.index t a * S1x128.size a ≤ (i a).val ∧ (i a).val < win8_1.index t a * S1x128.size a + S1x128.size a := by
  show i ∈ ((View.whole main_v91_0).slice (win8_1.rect t)).set ↔ _
  rw [View.set_slice_whole, Rect.mem_set_unit]
  exact Iff.rfl

/-- The first output's one block, at block index (0, 0), is its whole array: read through it, a row is itself. -/
theorem read_blk8_1 (t : Fin cfg8.N) (G : S1x128.Idx → EReal) :
    ((cfg8.win 1).blk t).view.read (Elt Ideal) G = G := by
  obtain ⟨-, -, e0, e1, -⟩ := idx8_facts t
  have hz' : (fun a => win8_1.index t a * main_v91_0.ty.shape.size a) = fun _ => 0 := funext fun a => by
    match a with
    | ⟨0, _⟩ => show win8_1.index t (0 : Fin 2) * 1 = 0; omega
    | ⟨1, _⟩ => show win8_1.index t (1 : Fin 2) * 128 = 0; omega
  exact Memref.read_access_unit_zero (Elt Ideal) main_v91_0 hz' (fun a => by rw [congrFun hz' a]; simp) G

/-- The running sums after the last point are the column sums over all rows. -/
theorem last8_sum (c : Dev nD) (hn : 19 < cfg8.N) (q : Fin 128) :
    (outsAt8 V c 19 hn).1 (ix2 (0 : Fin 1) q) = ∑ r : Fin 100000, X8 V c (ix2 r q) := by
  rw [(outsAt8_eq V c 19 hn q).1, rows_all]
  exact sum_tot_all (X8 V c) q

theorem last8_sumsq (c : Dev nD) (hn : 19 < cfg8.N) (q : Fin 128) :
    (outsAt8 V c 19 hn).2 (ix2 (0 : Fin 1) q) = ∑ r : Fin 100000, X8 V c (ix2 r q) * X8 V c (ix2 r q) := by
  rw [(outsAt8_eq V c 19 hn q).2, rows_all]
  exact sum_tot_all (fun i => X8 V c i * X8 V c i) q

/-- What the last point writes back to the first output's array is the block (0, 0) — the whole array — of the
    column sums of the input array. -/
theorem flushed8_1_eq (c : Dev nD) (t : Fin cfg8.N) (hf : (cfg8.win 1).flush t = true) :
    (dat8 V c).flushed 1 t = ((cfg8.win 1).blk t).view.read (Elt Ideal) (Cert.Gcn.colSum (V c main_v90)) := by
  have hN : cfg8.N = 20 := N_8
  refine Eq.trans ?_ (read_blk8_1 t (Cert.Gcn.colSum (V c main_v90))).symm
  obtain ⟨n, hn⟩ := t
  have h19 : n = 19 := by have := (flush8_1 ⟨n, hn⟩).mp hf; dsimp only at this; omega
  subst h19
  show (cfg8.win 1).cut (grid8.coords ⟨19, hn⟩) ((dat8 V c).after 1 ⟨19, hn⟩) = _
  rw [after8_1]
  funext j
  have hj0 : (j 0).val < 1 := (j 0).isLt
  have hj1 : (j 1).val < 128 := (j 1).isLt
  have ej : (cfg8.win 1).xinj (grid8.coords ⟨19, hn⟩) j = ix2 (0 : Fin 1) (⟨(j 1).val, hj1⟩ : Fin 128) :=
    funext fun a => Fin.ext (by
      match a with
      | ⟨0, _⟩ => show (j 0).val = 0; omega
      | ⟨1, _⟩ => rfl)
  exact ((congrArg (outsAt8 V c 19 hn).1 ej).trans (last8_sum V c hn ⟨(j 1).val, hj1⟩)).trans
    (colSum_at (X8 V c) j ⟨(j 1).val, hj1⟩ rfl).symm

/-- The same for the second output's array. -/
theorem mem_blk8_2 (t : Fin cfg8.N) (i : S1x128.Idx) :
    i ∈ ((cfg8.win 2).blk t).view.set ↔ ∀ a : Fin 2, win8_2.index t a * S1x128.size a ≤ (i a).val ∧ (i a).val < win8_2.index t a * S1x128.size a + S1x128.size a := by
  show i ∈ ((View.whole main_v91_1).slice (win8_2.rect t)).set ↔ _
  rw [View.set_slice_whole, Rect.mem_set_unit]
  exact Iff.rfl

theorem read_blk8_2 (t : Fin cfg8.N) (G : S1x128.Idx → EReal) :
    ((cfg8.win 2).blk t).view.read (Elt Ideal) G = G := by
  obtain ⟨-, -, -, -, e0, e1⟩ := idx8_facts t
  have hz' : (fun a => win8_2.index t a * main_v91_1.ty.shape.size a) = fun _ => 0 := funext fun a => by
    match a with
    | ⟨0, _⟩ => show win8_2.index t (0 : Fin 2) * 1 = 0; omega
    | ⟨1, _⟩ => show win8_2.index t (1 : Fin 2) * 128 = 0; omega
  exact Memref.read_access_unit_zero (Elt Ideal) main_v91_1 hz' (fun a => by rw [congrFun hz' a]; simp) G

/-- What the last point writes back to the second output's array is the whole array of the column sums of squares. -/
theorem flushed8_2_eq (c : Dev nD) (t : Fin cfg8.N) (hf : (cfg8.win 2).flush t = true) :
    (dat8 V c).flushed 2 t = ((cfg8.win 2).blk t).view.read (Elt Ideal) (Cert.Gcn.colSumSq (V c main_v90)) := by
  have hN : cfg8.N = 20 := N_8
  refine Eq.trans ?_ (read_blk8_2 t (Cert.Gcn.colSumSq (V c main_v90))).symm
  obtain ⟨n, hn⟩ := t
  have h19 : n = 19 := by have := (flush8_2 ⟨n, hn⟩).mp hf; dsimp only at this; omega
  subst h19
  show (cfg8.win 2).cut (grid8.coords ⟨19, hn⟩) ((dat8 V c).after 2 ⟨19, hn⟩) = _
  rw [after8_2]
  funext j
  have hj0 : (j 0).val < 1 := (j 0).isLt
  have hj1 : (j 1).val < 128 := (j 1).isLt
  have ej : (cfg8.win 2).xinj (grid8.coords ⟨19, hn⟩) j = ix2 (0 : Fin 1) (⟨(j 1).val, hj1⟩ : Fin 128) :=
    funext fun a => Fin.ext (by
      match a with
      | ⟨0, _⟩ => show (j 0).val = 0; omega
      | ⟨1, _⟩ => rfl)
  exact ((congrArg (outsAt8 V c 19 hn).2 ej).trans (last8_sumsq V c hn ⟨(j 1).val, hj1⟩)).trans
    (colSumSq_at (X8 V c) j ⟨(j 1).val, hj1⟩ rfl).symm

end Region

end Stats

open Stats

section Finals
variable (V : (c : Dev nD) → (b : Ref sig .tc) → Buf (Elt Ideal) ((c : Thread nD τ).loc b))

/-- THE FIRST OUTPUT after the whole grid: per feature, the sum of the input array's column over all rows. -/
theorem final8_sum (c : Dev nD) : (Gen.dat8 (F := Ideal) V c).arrAt 1 cfg8.N = Cert.Gcn.colSum (V c main_v90) :=
  (dat8 V c).arrAt_eq_of_cover 1 (Cert.Gcn.colSum (V c main_v90)) (flushed8_1_eq V c) fun (i : S1x128.Idx) =>
    ⟨t8_last, (flush8_1 t8_last).mpr rfl, by
      rw [mem_blk8_1]
      intro a
      have h0 : (i 0 : Nat) < 1 := (i 0).isLt
      have h1 : (i 1 : Nat) < 128 := (i 1).isLt
      obtain ⟨-, -, e0, e1, -⟩ := idx8_facts t8_last
      match a with
      | ⟨0, _⟩ => show win8_1.index t8_last (0 : Fin 2) * 1 ≤ (i 0 : Nat) ∧ (i 0 : Nat) < win8_1.index t8_last (0 : Fin 2) * 1 + 1; omega
      | ⟨1, _⟩ => show win8_1.index t8_last (1 : Fin 2) * 128 ≤ (i 1 : Nat) ∧ (i 1 : Nat) < win8_1.index t8_last (1 : Fin 2) * 128 + 128; omega⟩

/-- THE SECOND OUTPUT after the whole grid: per feature, the sum of the squared entries of the input array's column
    over all rows. -/
theorem final8_sumsq (c : Dev nD) : (Gen.dat8 (F := Ideal) V c).arrAt 2 cfg8.N = Cert.Gcn.colSumSq (V c main_v90) :=
  (dat8 V c).arrAt_eq_of_cover 2 (Cert.Gcn.colSumSq (V c main_v90)) (flushed8_2_eq V c) fun (i : S1x128.Idx) =>
    ⟨t8_last, (flush8_2 t8_last).mpr rfl, by
      rw [mem_blk8_2]
      intro a
      have h0 : (i 0 : Nat) < 1 := (i 0).isLt
      have h1 : (i 1 : Nat) < 128 := (i 1).isLt
      obtain ⟨-, -, -, -, e0, e1⟩ := idx8_facts t8_last
      match a with
      | ⟨0, _⟩ => show win8_2.index t8_last (0 : Fin 2) * 1 ≤ (i 0 : Nat) ∧ (i 0 : Nat) < win8_2.index t8_last (0 : Fin 2) * 1 + 1; omega
      | ⟨1, _⟩ => show win8_2.index t8_last (1 : Fin 2) * 128 ≤ (i 1 : Nat) ∧ (i 1 : Nat) < win8_2.index t8_last (1 : Fin 2) * 128 + 128; omega⟩

end Finals

end Cert.KernelIdeal.RegVal

end
-- ==== Proof.RegBN9.lean ====
/-
  The second batch-normalisation layer applied to the whole node-feature matrix.

  The grid has 20 points; point t works on rows 5000·t … 5000·t + 4999 of the [100000,128] matrix and on the
  whole of each of the four [1,128] rows (mean, variance, scale, shift), and writes rows 5000·t … 5000·t + 4999
  of the result. Entry (p, q) of the block written at point t is the normalisation's formula at row
  5000·t + p and feature q: the input block's entry (p, q) is the matrix's entry (5000·t + p, q), and each row's
  entry (0, q) is read at block index (0, 0). So what each point writes back is its block of ONE whole-matrix
  function, `Cert.Gcn.bnApply` of the five arrays as the region finds them; row r lies in the block of point
  r / 5000, so the blocks cover the matrix, and the matrix ends holding that function.
-/
import proofs.«172140_j79293686219286_1_alg».proof.Proof.RegBNPay
import proofs.«172140_j79293686219286_1_alg».proof.Proof.Gen.KernelIdeal.Frame
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as the constant function. -/
theorem zeroOff9 : (![0, 0] : Fin 2 → Nat) = fun _ => 0 := funext fun a => by fin_cases a <;> rfl

/-- What the body leaves in the output block, at (p, q): the normalisation's formula of the input block's entry
    (p, q) and the four rows' entries (0, q). -/
theorem out9_5_apply (x0 : Vec Ideal S5000x128 .f32) (x1 x2 x3 x4 : Vec Ideal S1x128 .f32)
    (p : Fin 5000) (q : Fin 128) :
    out9_5 x0 x1 x2 x3 x4 (ix2 p q)
      = max ((x0 (ix2 p q) - x1 (ix2 (0 : Fin 1) q)) * Ideal.rsqrt (x2 (ix2 (0 : Fin 1) q) + Cert.Gcn.eps)
          * x3 (ix2 (0 : Fin 1) q) + x4 (ix2 (0 : Fin 1) q)) 0 := by
  unfold out9_5
  rw [View.canon_unit_zero zeroOff9]
  simp only [View.ld_unit_zero (S := S5000x128) zeroOff9, View.ld_unit_zero (S := S1x128) zeroOff9]
  exact k9_pay1_apply x0 x1 x2 x3 x4 p q

/-- The same entry as the whole-matrix function at an index `i` of feature q, given that the block's entry is the
    matrix's at `i` and the rows' entries are the row arrays'. -/
theorem out9_5_eq_bnApply (X : Cert.Gcn.SN.Idx → EReal) (mu var g be : Cert.Gcn.SR.Idx → EReal)
    (x0 : Vec Ideal S5000x128 .f32) (x1 x2 x3 x4 : Vec Ideal S1x128 .f32)
    (p : Fin 5000) (q : Fin 128) (i : Cert.Gcn.SN.Idx) (hq : (i 1).val = q.val)
    (h0 : x0 (ix2 p q) = X i) (h1 : x1 (ix2 (0 : Fin 1) q) = mu (ix2 (0 : Fin 1) q))
    (h2 : x2 (ix2 (0 : Fin 1) q) = var (ix2 (0 : Fin 1) q)) (h3 : x3 (ix2 (0 : Fin 1) q) = g (ix2 (0 : Fin 1) q))
    (h4 : x4 (ix2 (0 : Fin 1) q) = be (ix2 (0 : Fin 1) q)) :
    out9_5 x0 x1 x2 x3 x4 (ix2 p q) = Cert.Gcn.bnApply X mu var g be i := by
  obtain ⟨r, q', rfl⟩ : ∃ (r : Fin 100000) (q' : Fin 128), i = ix2 r q' := ⟨i 0, i 1, eq_ix2 i⟩
  obtain rfl : q' = q := Fin.ext hq
  rw [out9_5_apply, Cert.Gcn.bnApply_ix2, h0, h1, h2, h3, h4]

/-- The block indices over the grid: the input matrix's block moves with the output's, which at point t is block
    (t, 0); every row array is read at block (0, 0). -/
theorem blockIdx9 : ∀ t : Fin cfg9.N,
    win9_0.index t (0 : Fin 2) = win9_5.index t (0 : Fin 2) ∧ win9_0.index t (1 : Fin 2) = win9_5.index t (1 : Fin 2)
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- What point t writes back is block t of the whole-matrix function. -/
theorem flushed9_eq (c : Dev nD) (t : Fin cfg9.N) :
    (dat9 (F := Ideal) V c).flushed 5 t = ((cfg9.win 5).blk t).view.read (Elt Ideal)
      (Cert.Gcn.bnApply (V c main_v90) (V c main_v100) (V c main_v101) (V c main_v102) (V c main_v103)) := by
  show (cfg9.win 5).cut (grid9.coords t) ((dat9 V c).after 5 t) = _
  rw [after9_5]
  obtain ⟨e00, e01, e10, e11, e20, e21, e30, e31, e40, e41, e50, e51⟩ := blockIdx9 t
  refine funext fun (j : S5000x128.Idx) => ?_
  obtain ⟨p, q, rfl⟩ : ∃ (p : Fin 5000) (q : Fin 128), j = ix2 p q := ⟨j 0, j 1, eq_ix2 j⟩
  refine out9_5_eq_bnApply (V c main_v90) (V c main_v100) (V c main_v101) (V c main_v102) (V c main_v103)
    (iblk9 V c 0 t) (iblk9 V c 1 t) (iblk9 V c 2 t) (iblk9 V c 3 t) (iblk9 V c 4 t) p q
    (((cfg9.win 5).blk t).view.emb (ix2 p q)) ?_ ?_ ?_ ?_ ?_ ?_
  · show win9_5.index t (1 : Fin 2) * 128 + 1 * q.val = q.val
    omega
  · show V c main_v90 (((cfg9.win 0).blk t).view.emb (ix2 p q)) = V c main_v90 (((cfg9.win 5).blk t).view.emb (ix2 p q))
    refine congrArg (V c main_v90) (funext fun a => Fin.ext ?_)
    match a with
    | ⟨0, _⟩ => show win9_0.index t (0 : Fin 2) * 5000 + 1 * p.val = win9_5.index t (0 : Fin 2) * 5000 + 1 * p.val; omega
    | ⟨1, _⟩ => show win9_0.index t (1 : Fin 2) * 128 + 1 * q.val = win9_5.index t (1 : Fin 2) * 128 + 1 * q.val; omega
  · show V c main_v100 (((cfg9.win 1).blk t).view.emb (ix2 (0 : Fin 1) q)) = V c main_v100 (ix2 (0 : Fin 1) q)
    refine congrArg (V c main_v100) (funext fun a => Fin.ext ?_)
    match a with
    | ⟨0, _⟩ => show win9_1.index t (0 : Fin 2) * 1 + 1 * 0 = 0; omega
    | ⟨1, _⟩ => show win9_1.index t (1 : Fin 2) * 128 + 1 * q.val = q.val; omega
  · show V c main_v101 (((cfg9.win 2).blk t).view.emb (ix2 (0 : Fin 1) q)) = V c main_v101 (ix2 (0 : Fin 1) q)
    refine congrArg (V c main_v101) (funext fun a => Fin.ext ?_)
    match a with
    | ⟨0, _⟩ => show win9_2.index t (0 : Fin 2) * 1 + 1 * 0 = 0; omega
    | ⟨1, _⟩ => show win9_2.index t (1 : Fin 2) * 128 + 1 * q.val = q.val; omega
  · show V c main_v102 (((cfg9.win 3).blk t).view.emb (ix2 (0 : Fin 1) q)) = V c main_v102 (ix2 (0 : Fin 1) q)
    refine congrArg (V c main_v102) (funext fun a => Fin.ext ?_)
    match a with
    | ⟨0, _⟩ => show win9_3.index t (0 : Fin 2) * 1 + 1 * 0 = 0; omega
    | ⟨1, _⟩ => show win9_3.index t (1 : Fin 2) * 128 + 1 * q.val = q.val; omega
  · show V c main_v103 (((cfg9.win 4).blk t).view.emb (ix2 (0 : Fin 1) q)) = V c main_v103 (ix2 (0 : Fin 1) q)
    refine congrArg (V c main_v103) (funext fun a => Fin.ext ?_)
    match a with
    | ⟨0, _⟩ => show win9_4.index t (0 : Fin 2) * 1 + 1 * 0 = 0; omega
    | ⟨1, _⟩ => show win9_4.index t (1 : Fin 2) * 128 + 1 * q.val = q.val; omega

/-- An index of the matrix is in point t's block iff each coordinate is in the block's range on its axis. -/
theorem mem_blk9 (t : Fin cfg9.N) (i : S100000x128.Idx) :
    i ∈ ((cfg9.win 5).blk t).view.set ↔ ∀ a : Fin 2, win9_5.index t a * S5000x128.size a ≤ (i a).val
      ∧ (i a).val < win9_5.index t a * S5000x128.size a + S5000x128.size a := by
  show i ∈ ((View.whole main_v104).slice (win9_5.rect t)).set ↔ _
  rw [View.set_slice_whole, Rect.mem_set_unit]
  exact Iff.rfl

/-- Every index of the matrix is in some point's block: row r is in the block of point r / 5000. -/
theorem cover9 (i : S100000x128.Idx) :
    ∃ t : Fin cfg9.N, (cfg9.win 5).flush t = true ∧ i ∈ ((cfg9.win 5).blk t).view.set := by
  have hi0 : (i 0).val < 100000 := (i 0).isLt
  have hi1 : (i 1).val < 128 := (i 1).isLt
  have hN : cfg9.N = 20 := N_9
  have ht : (i 0).val / 5000 < cfg9.N := by rw [hN]; omega
  obtain ⟨e00, e01, e10, e11, e20, e21, e30, e31, e40, e41, e50, e51⟩ := blockIdx9 ⟨(i 0).val / 5000, ht⟩
  have e50' : win9_5.index ⟨(i 0).val / 5000, ht⟩ (0 : Fin 2) = (i 0).val / 5000 := e50
  refine ⟨⟨(i 0).val / 5000, ht⟩, flush9_5 _, ?_⟩
  rw [mem_blk9]
  intro a
  match a with
  | ⟨0, _⟩ =>
    show win9_5.index ⟨(i 0).val / 5000, ht⟩ (0 : Fin 2) * 5000 ≤ (i 0).val
      ∧ (i 0).val < win9_5.index ⟨(i 0).val / 5000, ht⟩ (0 : Fin 2) * 5000 + 5000
    omega
  | ⟨1, _⟩ =>
    show win9_5.index ⟨(i 0).val / 5000, ht⟩ (1 : Fin 2) * 128 ≤ (i 1).val
      ∧ (i 1).val < win9_5.index ⟨(i 0).val / 5000, ht⟩ (1 : Fin 2) * 128 + 128
    omega

/-- The matrix after the whole grid has run: the normalisation of the five arrays as the region found them. -/
theorem final9 (c : Dev nD) :
    (Gen.dat9 (F := Ideal) V c).arrAt 5 cfg9.N
      = Cert.Gcn.bnApply (V c main_v90) (V c main_v100) (V c main_v101) (V c main_v102) (V c main_v103) :=
  (dat9 (F := Ideal) V c).arrAt_eq_of_cover 5 _ (fun t _ => flushed9_eq V c t) (cover9)

end Cert.KernelIdeal.RegVal

end
-- ==== Proof.KW5.lean ====
/-
  The second normalisation read off the fold, given what the eighth region left (`H`): the ninth region leaves the
  column sums and the column sums of squares of `H`; the next stretch turns them into the mean and variance rows and
  reshapes the second scale and shift to rows; the tenth region normalises, scales, shifts and clamps.
-/
import proofs.«172140_j79293686219286_1_alg».proof.Proof.KKeep
import proofs.«172140_j79293686219286_1_alg».proof.Proof.KRows
import proofs.«172140_j79293686219286_1_alg».proof.Proof.RegStats8
import proofs.«172140_j79293686219286_1_alg».proof.Proof.RegBN9

set_option maxRecDepth 16384

noncomputable section

namespace Cert.KernelIdeal.Walk

open Cert.KernelIdeal Cert.KernelIdeal.Gen Idealize.ShloMosaic Idealize.ShloMosaic.TcCoe Idealize.SL.Sem
  Idealize.ShloMosaic.StableHlo Cert.Gcn Cert.ReferenceIdeal.ReadP

variable (m : (ℓ : Loc nD τ sig) → Buf (Elt Ideal) ℓ) (ρ : Dev nD → PrngReg) (c : Dev nD)

theorem W14_v91_0 (H : Feat) (h90 : W13 m ρ c (Proc.devRef .tc main_v90) = H) : W14 m ρ c (Proc.devRef .tc main_v91_0) = colSum H := by
  refine (W14_arr m ρ c 1).trans ((RegVal.final8_sum (V13 m ρ) c).trans ?_)
  show colSum (W13 m ρ c (Proc.devRef .tc main_v90)) = _
  rw [h90]

theorem W14_v91_1 (H : Feat) (h90 : W13 m ρ c (Proc.devRef .tc main_v90) = H) : W14 m ρ c (Proc.devRef .tc main_v91_1) = colSumSq H := by
  refine (W14_arr m ρ c 2).trans ((RegVal.final8_sumsq (V13 m ρ) c).trans ?_)
  show colSumSq (W13 m ρ c (Proc.devRef .tc main_v90)) = _
  rw [h90]

/-- The statistics region only reads its input array. -/
theorem W14_v90 (H : Feat) (h90 : W13 m ρ c (Proc.devRef .tc main_v90) = H) : W14 m ρ c (Proc.devRef .tc main_v90) = H :=
  ((W14_arr m ρ c 0).trans (((dat8 (V13 m ρ) c).arrAt_in 0 rfl _).trans (A_eq8 (V13 m ρ) c 0))).trans h90

theorem W15_v90 (H : Feat) (h90 : W13 m ρ c (Proc.devRef .tc main_v90) = H) : W15 m ρ c (Proc.devRef .tc main_v90) = H := by
  hb hostOps9; exact W14_v90 m ρ c H h90

theorem W14_arg11 : W14 m ρ c (Proc.devRef .tc main_arg11) = A11 m c := by
  rb W14_of_ne; rb W13_of_ne; hb hostOps7; rb W11_of_ne; rb W10_of_ne; hb hostOps5; rb W8_of_ne; rb W7_of_ne; hb hostOps3; rb W5_of_ne; rb W4_of_ne; hb hostOps1; rb W2_of_ne; hb hostOps0; rfl
theorem W14_arg12 : W14 m ρ c (Proc.devRef .tc main_arg12) = A12 m c := by
  rb W14_of_ne; rb W13_of_ne; hb hostOps7; rb W11_of_ne; rb W10_of_ne; hb hostOps5; rb W8_of_ne; rb W7_of_ne; hb hostOps3; rb W5_of_ne; rb W4_of_ne; hb hostOps1; rb W2_of_ne; hb hostOps0; rfl

theorem W15_v100_raw : W15 m ρ c (Proc.devRef .tc main_v100) = meanRow (W14 m ρ c (Proc.devRef .tc main_v91_0)) := by
  show StableHlo.after hostOps9 (W14 m ρ c) (Proc.devRef .tc main_v100) = _
  after_results
  exact mean_row_read _ _ _ _

theorem W15_v101_raw : W15 m ρ c (Proc.devRef .tc main_v101) = varRow (W14 m ρ c (Proc.devRef .tc main_v91_0)) (W14 m ρ c (Proc.devRef .tc main_v91_1)) := by
  show StableHlo.after hostOps9 (W14 m ρ c) (Proc.devRef .tc main_v101) = _
  after_results
  exact var_row_read _ _ _ _ _

theorem W15_v102_raw : W15 m ρ c (Proc.devRef .tc main_v102) = rowOf (W14 m ρ c (Proc.devRef .tc main_arg11)) := by
  show StableHlo.after hostOps9 (W14 m ρ c) (Proc.devRef .tc main_v102) = _
  after_results
  exact shapeCast_row _ _

theorem W15_v103_raw : W15 m ρ c (Proc.devRef .tc main_v103) = rowOf (W14 m ρ c (Proc.devRef .tc main_arg12)) := by
  show StableHlo.after hostOps9 (W14 m ρ c) (Proc.devRef .tc main_v103) = _
  after_results
  exact shapeCast_row _ _

theorem W16_v104 (H : Feat) (h90 : W13 m ρ c (Proc.devRef .tc main_v90) = H) : W16 m ρ c (Proc.devRef .tc main_v104) = bnK H (A11 m c) (A12 m c) := by
  refine (W16_arr m ρ c 5).trans ((RegVal.final9 (V15 m ρ) c).trans ?_)
  show bnApply (W15 m ρ c (Proc.devRef .tc main_v90)) (W15 m ρ c (Proc.devRef .tc main_v100)) (W15 m ρ c (Proc.devRef .tc main_v101)) (W15 m ρ c (Proc.devRef .tc main_v102)) (W15 m ρ c (Proc.devRef .tc main_v103)) = _
  rw [W15_v90 m ρ c H h90, W15_v100_raw, W15_v101_raw, W15_v102_raw, W15_v103_raw,
    W14_v91_0 m ρ c H h90, W14_v91_1 m ρ c H h90, W14_arg11, W14_arg12]
  rfl

end Cert.KernelIdeal.Walk

end
-- ==== Proof.KW6.lean ====
/-
  The tail read off the fold, given what the tenth region left (`H`): the last two stretches of host operations pool
  the node rows per graph, apply the classifier and take the log-softmax — the specification's tail of `H`, the graph
  numbers and the classifier's matrix and bias.
-/
import proofs.«172140_j79293686219286_1_alg».proof.Proof.KKeep

set_option maxRecDepth 16384

noncomputable section

namespace Cert.KernelIdeal.Walk

open Cert.KernelIdeal Cert.KernelIdeal.Gen Idealize.ShloMosaic Idealize.ShloMosaic.TcCoe Idealize.SL.Sem
  Idealize.ShloMosaic.StableHlo Cert.Gcn Cert.ReferenceIdeal.ReadP

variable (m : (ℓ : Loc nD τ sig) → Buf (Elt Ideal) ℓ) (ρ : Dev nD → PrngReg) (c : Dev nD)

theorem W16_arg2 : W16 m ρ c (Proc.devRef .tc main_arg2) = A2 m c := by
  rb W16_of_ne; hb hostOps9; rb W14_of_ne; rb W13_of_ne; hb hostOps7; rb W11_of_ne; rb W10_of_ne; hb hostOps5; rb W8_of_ne; rb W7_of_ne; hb hostOps3; rb W5_of_ne; rb W4_of_ne; hb hostOps1; rb W2_of_ne; hb hostOps0; rfl
theorem W16_arg13 : W16 m ρ c (Proc.devRef .tc main_arg13) = A13 m c := by
  rb W16_of_ne; hb hostOps9; rb W14_of_ne; rb W13_of_ne; hb hostOps7; rb W11_of_ne; rb W10_of_ne; hb hostOps5; rb W8_of_ne; rb W7_of_ne; hb hostOps3; rb W5_of_ne; rb W4_of_ne; hb hostOps1; rb W2_of_ne; hb hostOps0; rfl
theorem W16_arg14 : W16 m ρ c (Proc.devRef .tc main_arg14) = A14 m c := by
  rb W16_of_ne; hb hostOps9; rb W14_of_ne; rb W13_of_ne; hb hostOps7; rb W11_of_ne; rb W10_of_ne; hb hostOps5; rb W8_of_ne; rb W7_of_ne; hb hostOps3; rb W5_of_ne; rb W4_of_ne; hb hostOps1; rb W2_of_ne; hb hostOps0; rfl

set_option maxHeartbeats 4000000 in
/-- The pooling and the classifier, over the buffers as the stretch finds them. -/
theorem W17_v120_raw : W17 m ρ c (Proc.devRef .tc main_v120)
    = logits (W16 m ρ c (Proc.devRef .tc main_arg2)) (W16 m ρ c (Proc.devRef .tc main_arg13)) (W16 m ρ c (Proc.devRef .tc main_arg14)) (W16 m ρ c (Proc.devRef .tc main_v104)) := by
  show StableHlo.after hostOps10 (W16 m ρ c) (Proc.devRef .tc main_v120) = _
  after_results_simp
  rfl

set_option maxHeartbeats 4000000 in
/-- The log-softmax, over the buffer as the last stretch finds it. -/
theorem W18_v121_raw : W18 m ρ c (Proc.devRef .tc main_v121) = logSoftmax (W17 m ρ c (Proc.devRef .tc main_v120)) := by
  show StableHlo.after hostOps10_1 (W17 m ρ c) (Proc.devRef .tc main_v121) = _
  after_results_simp
  rfl

theorem W18_v121 (H : Feat) (h104 : W16 m ρ c (Proc.devRef .tc main_v104) = H) :
    W18 m ρ c (Proc.devRef .tc main_v121) = tail (A2 m c) (A13 m c) (A14 m c) H := by
  rw [W18_v121_raw, W17_v120_raw, h104, W16_arg2, W16_arg13, W16_arg14]
  rfl

end Cert.KernelIdeal.Walk

end
-- ==== Proof.KWAll.lean ====
/-
  The kernel program's result buffer, at the last boundary of the fold, is the network's specification of the
  argument arrays as launched: the six stages composed.
-/
import proofs.«172140_j79293686219286_1_alg».proof.Proof.KKeep
import proofs.«172140_j79293686219286_1_alg».proof.Proof.KW1
import proofs.«172140_j79293686219286_1_alg».proof.Proof.KW2
import proofs.«172140_j79293686219286_1_alg».proof.Proof.KW3
import proofs.«172140_j79293686219286_1_alg».proof.Proof.KW4
import proofs.«172140_j79293686219286_1_alg».proof.Proof.KW5
import proofs.«172140_j79293686219286_1_alg».proof.Proof.KW6

set_option maxRecDepth 16384

noncomputable section

namespace Cert.KernelIdeal.Walk

open Cert.KernelIdeal Cert.KernelIdeal.Gen Idealize.ShloMosaic Idealize.ShloMosaic.TcCoe Idealize.SL.Sem
  Idealize.ShloMosaic.StableHlo Cert.Gcn Cert.ReferenceIdeal.ReadP

variable (m : (ℓ : Loc nD τ sig) → Buf (Elt Ideal) ℓ) (ρ : Dev nD → PrngReg) (c : Dev nD)

theorem W18_result : W18 m ρ c (Proc.devRef .tc main_v121)
    = net (A0 m c) (A1 m c) (A2 m c) (A3 m c) (A4 m c) (A5 m c) (A6 m c) (A7 m c) (A8 m c) (A9 m c) (A10 m c) (A11 m c)
        (A12 m c) (A13 m c) (A14 m c) :=
  W18_v121 m ρ c _ (W16_v104 m ρ c _ (W13_v90 m ρ c _ (W10_v74 m ρ c _ (W7_v60 m ρ c _ (W4_v44 m ρ c)))))

end Cert.KernelIdeal.Walk

end
-- ==== Proof.RefDense.lean ====
/-
  The reference's dense host operations, read entry by entry.

  * The 100000×128 by 128×128 `dot_general` with no batch axes, contracting the left operand's columns with the
    right operand's rows, is the matrix product: entry (r, c) is the sum over k of x (r, k) · w (k, c).
  * A vector of 128 entries broadcast first to a 1×128 row and then down the 100000 rows reads, at (r, c), the
    vector's entry c; adding it and taking the maximum with the all-zero array is "add the bias, clamp below at 0".
-/
import proofs.«172140_j79293686219286_1_alg».proof.Proof.Spec

noncomputable section

open scoped BigOperators

namespace Cert.Gcn

open Cert.ReferenceIdeal Cert.ReferenceIdeal.Gen Cert.ReferenceIdeal.ReadP Idealize.ShloMosaic Idealize.ShloMosaic.TcCoe
  Idealize.ShloMosaic.ValueIdx

/-- A per-feature vector broadcast to a row and then to every node: entry (r, c) is the vector's entry c. -/
theorem rowBcast_apply (v : V128) (i : S100000x128.Idx) :
    broadcastInDim S100000x128 ![0, 1] bcast_S1x128_S100000x128_0_1 (broadcastInDim S1x128 ![1] bcast_S128_S1x128_1 v) i
      = v (ix1 (i 1)) := by
  have h1 := val_main_v44_apply (F := Ideal) v i
  have h2 := val_main_v43_apply (F := Ideal) v (idx_main_v44 i)
  unfold val_main_v44 val_main_v43 at h1
  unfold val_main_v43 at h2
  rw [h1, h2]
  exact congrArg v (funext fun a => Fin.ext (by match a with | ⟨0, _⟩ => rfl))

/-- The all-zero array of the clamp reads 0 everywhere. -/
theorem reluZeros_apply (i : S100000x128.Idx) : val_main_call0_v0 (F := Ideal) i = 0 := by
  rw [val_main_call0_v0_apply, val_main_call0_cst_apply, Ideal.ofBits_def, Ideal.ofBits_zero_f32]

/-- The reference's matrix product is the entrywise sum of products. -/
theorem dot_eq_mmS (x : Feat) (w : Wt) :
    Host.dotGeneral (F := Ideal) dot_S100000x128_S128x128_S100000x128_1_0_0_1_n_n none x w = mmS x w := by
  funext i
  have h := val_main_v29_apply x w i
  unfold val_main_v29 at h
  rw [h]
  unfold mmS
  refine Finset.sum_congr rfl fun k _ => ?_
  have el : lidx_main_v29 i k = ix2 (i 0) k :=
    funext fun a => Fin.ext (by match a with | ⟨0, _⟩ => rfl | ⟨1, _⟩ => rfl)
  have er : ridx_main_v29 i k = ix2 k (i 1) :=
    funext fun a => Fin.ext (by match a with | ⟨0, _⟩ => rfl | ⟨1, _⟩ => rfl)
  rw [el, er]
  rfl

/-- The reference's bias addition and clamp is the entrywise one. -/
theorem hostBiasRelu_eq (a : Feat) (b : V128) :
    maximumf (addf a (broadcastInDim S100000x128 ![0, 1] bcast_S1x128_S100000x128_0_1
        (broadcastInDim S1x128 ![1] bcast_S128_S1x128_1 b))) (val_main_call0_v0 (F := Ideal))
      = biasRelu a (rowOf b) := by
  funext i
  rw [maximumf_apply, addf_apply, rowBcast_apply, reluZeros_apply]
  rfl

end Cert.Gcn

end
-- ==== Proof.RefBn.lean ====
/-
  The reference's batch normalisation over the nodes, as a function of the feature matrix and the two per-feature
  parameter vectors, and its reading entry by entry.

  The reference computes, per feature c: the mean m(c) = (0 + Σ_r h(r, c)) / 100000; the variance
  v(c) = (0 + Σ_r (h(r, c) − m(c))²) / 100000; and then, at (r, c),
  max ((h(r, c) − m(c)) · (v(c) + ε)^(−1/2) · g(c) + be(c)) 0, every per-feature vector being broadcast to a 1×128 row
  and then down the 100000 rows. The entrywise form `bnK` differs only in the variance, which it takes as the mean
  of the squares less the squared mean; the two agree once the mean of the squared deviations is known to equal
  that difference (the hypothesis of `bnRef_eq_of_var`, which holds when every entry of h is a real number).
-/
import proofs.«172140_j79293686219286_1_alg».proof.Proof.RefDense

noncomputable section

open scoped BigOperators

namespace Cert.Gcn

open Cert.ReferenceIdeal Cert.ReferenceIdeal.Gen Cert.ReferenceIdeal.ReadP Idealize.ShloMosaic Idealize.ShloMosaic.TcCoe
  Idealize.ShloMosaic.ValueIdx

/-- A per-feature vector broadcast to a 1×128 row and then to every node. -/
def rowB (v : V128) : Feat :=
  broadcastInDim S100000x128 ![0, 1] bcast_S1x128_S100000x128_0_1 (broadcastInDim S1x128 ![1] bcast_S128_S1x128_1 v)

/-- The reference's per-feature mean: the column sum started from zero, divided by the broadcast 100000. -/
def refMean (h : Feat) : V128 :=
  Host.divf (F := Ideal)
    (Host.reduceAdd (F := Ideal) h (val_main_cst_11 (F := Ideal)) reducesTo_S100000x128_S128_d0 h_S_)
    (val_main_v66 (F := Ideal))

/-- The reference's per-feature variance: the column sum of the squared deviations from the mean, started from
    zero, divided by the broadcast 100000. -/
def refVar (h : Feat) : V128 :=
  Host.divf (F := Ideal)
    (Host.reduceAdd (F := Ideal) (mulf (subf h (rowB (refMean h))) (subf h (rowB (refMean h))))
      (val_main_cst_13 (F := Ideal)) reducesTo_S100000x128_S128_d0 h_S_)
    (val_main_v73 (F := Ideal))

/-- The reference's batch normalisation: centre, scale by the inverse square root of variance plus ε, scale by g,
    shift by be, clamp below at zero. -/
def bnRef (h : Feat) (g be : V128) : Feat :=
  maximumf
    (addf
      (mulf
        (mulf (subf h (rowB (refMean h)))
          (rowB (Host.rsqrt (F := Ideal) (addf (refVar h) (val_main_v78 (F := Ideal))))))
        (rowB g))
      (rowB be))
    (val_main_call2_v0 (F := Ideal))

/-- The feature (column) of an entry's index. -/
def colOf (i : S100000x128.Idx) : Fin 128 := i 1

theorem rowB_apply (v : V128) (i : S100000x128.Idx) : rowB v i = v (ix1 (colOf i)) := rowBcast_apply v i

/-- The host's quotient of two per-feature vectors, entry by entry. -/
theorem divfHost_apply (a b : V128) (j : S128.Idx) : Host.divf (F := Ideal) a b j = Ideal.div (a j) (b j) := rfl

/-- A column sum of the host: the initial value plus the sum of the column's entries over all nodes. -/
theorem colReduce_apply (y : Feat) (c0 : (⟨S_, .f32⟩ : BufTy).Contents (Elt Ideal)) (c : Fin 128) :
    Host.reduceAdd (F := Ideal) y c0 reducesTo_S100000x128_S128_d0 h_S_ (ix1 c)
      = c0 (Shape.Idx.first h_S_) + ∑ r : Fin 100000, y (ix2 r c) := by
  simp only [Host.reduceAdd, Ideal.hostReduceAdd_def]
  rw [Ideal.hostReduceAdd_single reducesTo_S100000x128_S128_d0 (by decide)]
  refine congrArg (_ + ·) (Finset.sum_congr rfl fun k _ => ?_)
  exact congrArg y (funext fun a => Fin.ext (by match a with | ⟨0, _⟩ => rfl | ⟨1, _⟩ => rfl))

theorem cst11_apply (i : S_.Idx) : val_main_cst_11 (F := Ideal) i = 0 := by
  rw [val_main_cst_11_apply, Ideal.ofBits_def, Ideal.ofBits_zero_f32]

theorem cst13_apply (i : S_.Idx) : val_main_cst_13 (F := Ideal) i = 0 := by
  rw [val_main_cst_13_apply, Ideal.ofBits_def, Ideal.ofBits_zero_f32]

theorem v66_apply (j : S128.Idx) : val_main_v66 (F := Ideal) j = c100k := by
  rewrite [val_main_v66_apply, val_main_cst_12_apply, Ideal.ofBits_def]; rfl

theorem v73_apply (j : S128.Idx) : val_main_v73 (F := Ideal) j = c100k := by
  rewrite [val_main_v73_apply, val_main_cst_14_apply, Ideal.ofBits_def]; rfl

theorem v78_apply (j : S128.Idx) : val_main_v78 (F := Ideal) j = eps := by
  rewrite [val_main_v78_apply, val_main_cst_15_apply, Ideal.ofBits_def]; rfl

theorem call2Zeros_apply (i : S100000x128.Idx) : val_main_call2_v0 (F := Ideal) i = 0 := by
  rw [val_main_call2_v0_apply, val_main_call2_cst_apply, Ideal.ofBits_def, Ideal.ofBits_zero_f32]

/-- The reference's mean of feature c is the column sum over 100000. -/
theorem refMean_apply (h : Feat) (c : Fin 128) :
    refMean h (ix1 c) = Ideal.div (∑ r : Fin 100000, h (ix2 r c)) c100k := by
  unfold refMean
  rewrite [divfHost_apply, colReduce_apply, cst11_apply, zero_add, v66_apply]
  rfl

/-- The reference's variance of feature c is the mean of the squared deviations from the mean. -/
theorem refVar_apply (h : Feat) (c : Fin 128) :
    refVar h (ix1 c)
      = Ideal.div (∑ r : Fin 100000,
          (h (ix2 r c) - Ideal.div (∑ r' : Fin 100000, h (ix2 r' c)) c100k)
            * (h (ix2 r c) - Ideal.div (∑ r' : Fin 100000, h (ix2 r' c)) c100k)) c100k := by
  unfold refVar
  rewrite [divfHost_apply, colReduce_apply, cst13_apply, zero_add, v73_apply]
  refine congrArg (fun s => Ideal.div s c100k) (Finset.sum_congr rfl fun r _ => ?_)
  rewrite [mulf_apply, subf_apply, rowB_apply]
  exact congrArg (fun m => (h (ix2 r c) - m) * (h (ix2 r c) - m)) (refMean_apply h c)

/-- The reference's normalisation is the entrywise one, given that for every feature the mean of the squared
    deviations is the mean of the squares less the squared mean. -/
theorem bnRef_eq_of_var (h : Feat) (g be : V128)
    (hvar : ∀ c : Fin 128,
      Ideal.div (∑ r : Fin 100000,
          (h (ix2 r c) - Ideal.div (∑ r' : Fin 100000, h (ix2 r' c)) c100k)
            * (h (ix2 r c) - Ideal.div (∑ r' : Fin 100000, h (ix2 r' c)) c100k)) c100k
        = Ideal.div (∑ r : Fin 100000, h (ix2 r c) * h (ix2 r c)) c100k
          - Ideal.div (∑ r : Fin 100000, h (ix2 r c)) c100k * Ideal.div (∑ r : Fin 100000, h (ix2 r c)) c100k) :
    bnRef h g be = bnK h g be := by
  funext i
  unfold bnRef
  rewrite [maximumf_apply, addf_apply, mulf_apply, mulf_apply, subf_apply, rowB_apply, rowB_apply, rowB_apply,
    rowB_apply, call2Zeros_apply, refMean_apply]
  have hr : Host.rsqrt (F := Ideal) (addf (refVar h) (val_main_v78 (F := Ideal))) (ix1 (colOf i))
      = Ideal.rsqrt (refVar h (ix1 (colOf i)) + eps) := by
    show Ideal.rsqrt (refVar h (ix1 (colOf i)) + val_main_v78 (F := Ideal) (ix1 (colOf i))) = _
    rewrite [v78_apply]
    rfl
  rewrite [hr, refVar_apply, hvar]
  rfl

end Cert.Gcn

end
-- ==== Proof.LibHostRead.lean ====
/-
  Three host (StableHLO) operations READ AT AN INDEX, for the dimension numbers an indexed row read, an indexed
  accumulation and a two-piece join of flat arrays lower to. Generic over the sizes; nothing here mentions a program.

  * `stablehlo.gather` of rows (`x[idx]` along axis 0, `idx : [E, 1]`), of a matrix and of a flat array: the operand
    at the start index read signed and clamped into `[0, N − 1]` (`gather_rows2_apply`, `gather_rows1_apply`);
  * the accumulating `stablehlo.scatter` of rows (`x.at[idx].add(u)`), at the ideal instance: each operand element
    plus the sum, over the updates whose raw signed index IS that row, of the update's element — an index outside
    `[0, N)` lands nowhere and contributes nothing (`scatterAdd_rows2_apply`, `scatterAdd_rows1_apply`);
  * `concatenate` of two flat arrays: the first below the first extent, the second past it (`concat1_apply`).
-/
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Idealize.ShloMosaic.HostRead

open Idealize.ShloMosaic Idealize.ShloMosaic.ValueIdx

/-! ## `stablehlo.gather` of whole rows, read at an index

What `x[idx]` of a matrix `x : [N, D]` (or of a flat array `x : [N]`) at a column of row numbers `idx : [E, 1]`
lowers to: the start index is one scalar, mapped to operand axis 0, which is collapsed; the slice is one whole row.
Result element `(e, c)` is the operand at row `idx[e, 0]`, read as a signed integer and clamped into `[0, N − 1]`
(StableHLO clamps every gather start index so that the slice fits), column `c`. -/

section Gather
variable {α : Type}

/-- The row-gather dimension numbers for an operand `[N, D]`, start indices `[E, 1]` and result `[E, D]`: offset axis
    `1` of the result, operand axis `0` collapsed and indexed, slice `1 × D`. The conditions `wf` are decided on a
    program's literal shapes. -/
abbrev gdims2 (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER OF A MATRIX READ AT `y = (e, c)`: the operand at row `idx[e, 0]` — read signed and clamped into
    `[0, N − 1]` — and column `c`. -/
theorem gather_rows2_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (gdims2 N E D wf) x idx y
      = x (ix2 ⟨min (idx (ix2 (y 0) (0 : Fin 1))).toInt.toNat (N - 1), by omega⟩ (y 1)) := by
  unfold Host.gather
  congr 1
  funext a
  refine Fin.ext ?_
  match a with
  | ⟨0, _⟩ =>
    show (gdims2 N E D wf).start y idx 0 + (gdims2 N E D wf).batchCoord y 0 + (gdims2 N E D wf).offCoord y 0 = _
    rw [GatherDims.batchCoord_eq_zero _ _ _ List.not_mem_nil]
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gdims2 N E D wf).startIndexMap from List.mem_singleton.mpr rfl)]
    have hsi : (gdims2 N E D wf).siIdx y ⟨List.idxOf (0 : Fin 2) (gdims2 N E D wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (gdims2 N E D wf).start y idx 1 + (gdims2 N E D wf).batchCoord y 1 + (gdims2 N E D wf).offCoord y 1 = (y 1).val
    rw [GatherDims.batchCoord_eq_zero _ _ _ List.not_mem_nil]
    have hs : (gdims2 N E D wf).start y idx 1 = 0 := by
      unfold GatherDims.start
      rw [dif_neg (show (1 : Fin 2) ∉ [(0 : Fin 2)] by decide)]
    rw [hs]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same at a result index given by its coordinates: row `e`, column `c` of the gather is the operand at the
    clamped row `idx[e, 0]`, column `c`. -/
theorem gather_rows2_ix2 {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (gdims2 N E D wf) x idx (ix2 e c)
      = x (ix2 ⟨min (idx (ix2 e (0 : Fin 1))).toInt.toNat (N - 1), by omega⟩ c) :=
  gather_rows2_apply hN wf x idx (ix2 e c)

/-- The row-gather dimension numbers for a flat operand `[N]`, start indices `[E, 1]` and result `[E]`: no offset
    axis, operand axis `0` collapsed and indexed, slice of one element. -/
abbrev gdims1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ROW GATHER OF A FLAT ARRAY READ AT `y = (e)`: the operand at `idx[e, 0]`, read signed and clamped into
    `[0, N − 1]`. -/
theorem gather_rows1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (gdims1 N E wf) x idx y
      = x (ix1 ⟨min (idx (ix2 (y 0) (0 : Fin 1))).toInt.toNat (N - 1), by omega⟩) := by
  unfold Host.gather
  congr 1
  funext a
  obtain rfl : a = 0 := Subsingleton.elim _ _
  refine Fin.ext ?_
  show (gdims1 N E wf).start y idx 0 + (gdims1 N E wf).batchCoord y 0 + (gdims1 N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gdims1 N E wf).startIndexMap from List.mem_singleton.mpr rfl)]
  have hsi : (gdims1 N E wf).siIdx y ⟨List.idxOf (0 : Fin 1) (gdims1 N E wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- The same at a result index given by its coordinate: element `e` of the gather is the operand at the clamped
    `idx[e, 0]`. -/
theorem gather_rows1_ix1 {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gdims1 N E wf) x idx (ix1 e)
      = x (ix1 ⟨min (idx (ix2 e (0 : Fin 1))).toInt.toNat (N - 1), by omega⟩) :=
  gather_rows1_apply hN wf x idx (ix1 e)

end Gather

/-! ## The accumulating `stablehlo.scatter` of rows, at the ideal instance, read at an index

What `x.at[idx].add(u)` of a matrix `x : [N, D]` (or a flat array `x : [N]`) at a column of row numbers `idx : [E, 1]`
lowers to: the scatter index is one scalar, mapped to operand axis 0, which is an inserted window axis; an update is one
whole row. Update `(e, c)` lands at row `idx[e, 0]` — read as a signed integer and NOT clamped —, column `c`, when that
row is in `[0, N)`, and nowhere otherwise. At the ideal instance the result element is the operand's plus the exact sum
of the updates landing on it. -/

section Scatter

/-- The row-scatter dimension numbers for an operand `[N, D]`, scatter indices `[E, 1]` and updates `[E, D]`: window
    axis `1` of the updates, operand axis `0` inserted and indexed. The conditions `wf` are decided on a program's
    literal shapes. -/
abbrev sdims2 (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Where update `(e, b)` lands: on operand element `(n, d)` exactly when its raw signed index `idx[e, 0]` is `n` and
    its column `b` is `d` (the start on axis 0 is the index, unclamped, and on axis 1 zero; the window coordinate is
    zero on axis 0 and `b` on axis 1; an index outside `[0, N)` lands nowhere). -/
theorem sdims2_resultIdx?_eq_some {N E D w : Nat}
    (wf : ScatterDims.WF ⟨2, ![N, D]⟩ ⟨2, ![E, 1]⟩ ⟨2, ![E, D]⟩ [1] [0] [0] 1)
    (idx : IVec ⟨2, ![E, 1]⟩ w) (e : Fin E) (b : Fin D) (n : Fin N) (d : Fin D) :
    (sdims2 N E D wf).resultIdx? (ix2 e b) idx = some (ix2 n d)
      ↔ (idx (ix2 e (0 : Fin 1))).toInt = (n.val : Int) ∧ b = d := by
  have hs0 : (sdims2 N E D wf).start (ix2 e b) idx 0 = (idx (ix2 e (0 : Fin 1))).toInt := by
    unfold ScatterDims.start
    rw [dif_pos (show (0 : Fin 2) ∈ (sdims2 N E D wf).scatterDimsToOperandDims from List.mem_singleton.mpr rfl)]
    have hsi : (sdims2 N E D wf).siIdx (ix2 e b) ⟨List.idxOf (0 : Fin 2) (sdims2 N E D wf).scatterDimsToOperandDims,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
  have hs1 : (sdims2 N E D wf).start (ix2 e b) idx 1 = 0 := by
    unfold ScatterDims.start
    rw [dif_neg (show (1 : Fin 2) ∉ [(0 : Fin 2)] by decide)]
  have hw0 : (sdims2 N E D wf).window (ix2 e b) 0 = 0 := by
    unfold ScatterDims.window
    rw [dif_neg (show (0 : Fin 2) ∉ (sdims2 N E D wf).sKept from (show (0 : Fin 2) ∉ (List.finRange 2).filter (· ∉ [(0 : Fin 2)]) by decide))]
  have hw1 : (sdims2 N E D wf).window (ix2 e b) 1 = b.val := by
    unfold ScatterDims.window
    rw [dif_pos (show (1 : Fin 2) ∈ (sdims2 N E D wf).sKept from (show (1 : Fin 2) ∈ (List.finRange 2).filter (· ∉ [(0 : Fin 2)]) by decide))]
    rfl
  unfold ScatterDims.resultIdx?
  constructor
  · intro h
    split at h
    · rename_i hall
      have hf := Option.some.inj h
      have h0 := congrArg (fun f => (f 0).val) hf
      have h1 := congrArg (fun f => (f 1).val) hf
      simp only [hs0, hs1, hw0, hw1] at h0 h1
      have hall0 := (hall 0).1
      rw [hs0, hw0] at hall0
      have hn : ((ix2 n d : (⟨2, ![N, D]⟩ : Shape).Idx) 0).val = n.val := rfl
      have hd : ((ix2 n d : (⟨2, ![N, D]⟩ : Shape).Idx) 1).val = d.val := rfl
      rw [hn] at h0; rw [hd] at h1
      refine ⟨by omega, Fin.ext (by omega)⟩
    · exact absurd h (by simp)
  · rintro ⟨h0, rfl⟩
    have hall : ∀ a, 0 ≤ (sdims2 N E D wf).start (ix2 e b) idx a + (sdims2 N E D wf).window (ix2 e b) a ∧
        (sdims2 N E D wf).start (ix2 e b) idx a + (sdims2 N E D wf).window (ix2 e b) a < (⟨2, ![N, D]⟩ : Shape).size a := by
      intro a
      match a with
      | ⟨0, _⟩ =>
        show 0 ≤ (sdims2 N E D wf).start (ix2 e b) idx 0 + (sdims2 N E D wf).window (ix2 e b) 0 ∧
          (sdims2 N E D wf).start (ix2 e b) idx 0 + (sdims2 N E D wf).window (ix2 e b) 0 < (N : Int)
        rw [hs0, hw0, h0]; have := n.isLt; omega
      | ⟨1, _⟩ =>
        show 0 ≤ (sdims2 N E D wf).start (ix2 e b) idx 1 + (sdims2 N E D wf).window (ix2 e b) 1 ∧
          (sdims2 N E D wf).start (ix2 e b) idx 1 + (sdims2 N E D wf).window (ix2 e b) 1 < (D : Int)
        rw [hs1, hw1]; have := b.isLt; omega
    rw [dif_pos hall]
    congr 1
    funext a; refine Fin.ext ?_
    match a with
    | ⟨0, _⟩ =>
      show ((sdims2 N E D wf).start (ix2 e b) idx 0 + (sdims2 N E D wf).window (ix2 e b) 0).toNat = n.val
      rw [hs0, hw0, h0]; omega
    | ⟨1, _⟩ =>
      show ((sdims2 N E D wf).start (ix2 e b) idx 1 + (sdims2 N E D wf).window (ix2 e b) 1).toNat = b.val
      rw [hs1, hw1]; omega

/-- THE ACCUMULATING ROW SCATTER INTO A MATRIX READ AT `(n, d)`: the operand's element plus the sum, over the updates
    `e` whose raw signed index `idx[e, 0]` equals `n`, of `upd[e, d]`. (The sum over the rank-2 update indices splits by
    coordinates; in row `e` only column `d` can land on `(n, d)`.) -/
theorem scatterAdd_rows2_ix2 {N E D w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (d : Fin D) :
    Host.scatterAdd (F := Ideal) (sdims2 N E D wf) x idx upd (ix2 n d)
      = x (ix2 n d) + ∑ e ∈ Finset.univ.filter (fun e : Fin E => (idx (ix2 e (0 : Fin 1))).toInt = (n.val : Int)),
          upd (ix2 e d) := by
  show x (ix2 n d) + ∑ j ∈ Finset.univ.filter (fun j => (sdims2 N E D wf).resultIdx? j idx = some (ix2 n d)), upd j = _
  congr 1
  rw [Finset.sum_filter, sum_idx2, Finset.sum_filter]
  refine Finset.sum_congr rfl fun e _ => ?_
  rw [Finset.sum_eq_single d]
  · by_cases hq : (idx (ix2 e (0 : Fin 1))).toInt = (n.val : Int)
    · rw [if_pos hq, if_pos ((sdims2_resultIdx?_eq_some wf idx e d n d).mpr ⟨hq, rfl⟩)]
    · rw [if_neg hq, if_neg (fun h => hq ((sdims2_resultIdx?_eq_some wf idx e d n d).mp h).1)]
  · intro b _ hb
    exact if_neg (fun h => hb ((sdims2_resultIdx?_eq_some wf idx e b n d).mp h).2)
  · intro h; exact absurd (Finset.mem_univ d) h

/-- The same at any operand index `i`: `x i` plus the sum over the updates whose raw signed index is `i`'s row of the
    update's element in `i`'s column. -/
theorem scatterAdd_rows2_apply {N E D w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (i : (⟨2, ![N, D]⟩ : Shape).Idx) :
    Host.scatterAdd (F := Ideal) (sdims2 N E D wf) x idx upd i
      = x i + ∑ e ∈ Finset.univ.filter (fun e : Fin E => (idx (ix2 e (0 : Fin 1))).toInt = ((i 0).val : Int)),
          upd (ix2 e (i 1)) := by
  obtain ⟨n, d, rfl⟩ : ∃ (n : Fin N) (d : Fin D), i = ix2 n d := ⟨i 0, i 1, eq_ix2 i⟩
  exact scatterAdd_rows2_ix2 wf x idx upd n d

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The element-scatter dimension numbers for a flat operand `[N]`, scatter indices `[E, 1]` and updates `[E]`: no
    window axis, operand axis `0` inserted and indexed. -/
abbrev sdims1 (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where update `e` lands: on operand element `n` exactly when its raw signed index `idx[e, 0]` is `n` (the start on
    axis 0 is the index, unclamped; the window coordinate is zero; an index outside `[0, N)` lands nowhere). -/
theorem sdims1_resultIdx?_eq_some {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (sdims1 N E wf).resultIdx? (ix1 e) idx = some (ix1 n)
      ↔ (idx (ix2 e (0 : Fin 1))).toInt = (n.val : Int) := by
  have hs0 : (sdims1 N E wf).start (ix1 e) idx 0 = (idx (ix2 e (0 : Fin 1))).toInt := by
    unfold ScatterDims.start
    rw [dif_pos (show (0 : Fin 1) ∈ (sdims1 N E wf).scatterDimsToOperandDims from List.mem_singleton.mpr rfl)]
    have hsi : (sdims1 N E wf).siIdx (ix1 e) ⟨List.idxOf (0 : Fin 1) (sdims1 N E wf).scatterDimsToOperandDims,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
  have hw0 : (sdims1 N E wf).window (ix1 e) 0 = 0 := by
    unfold ScatterDims.window
    rw [dif_neg (show (0 : Fin 1) ∉ (sdims1 N E wf).sKept from
      (show (0 : Fin 1) ∉ (List.finRange 1).filter (· ∉ [(0 : Fin 1)]) by decide))]
  unfold ScatterDims.resultIdx?
  constructor
  · intro h
    split at h
    · rename_i hall
      have hf := Option.some.inj h
      have h0 := congrArg (fun f => (f 0).val) hf
      simp only [hs0, hw0] at h0
      have hall0 := (hall 0).1
      rw [hs0, hw0] at hall0
      have hn : ((ix1 n : (⟨1, ![N]⟩ : Shape).Idx) 0).val = n.val := rfl
      rw [hn] at h0
      omega
    · exact absurd h (by simp)
  · intro h0
    have hall : ∀ a, 0 ≤ (sdims1 N E wf).start (ix1 e) idx a + (sdims1 N E wf).window (ix1 e) a ∧
        (sdims1 N E wf).start (ix1 e) idx a + (sdims1 N E wf).window (ix1 e) a < (⟨1, ![N]⟩ : Shape).size a := by
      intro a
      obtain rfl : a = 0 := Subsingleton.elim _ _
      show 0 ≤ (sdims1 N E wf).start (ix1 e) idx 0 + (sdims1 N E wf).window (ix1 e) 0 ∧
        (sdims1 N E wf).start (ix1 e) idx 0 + (sdims1 N E wf).window (ix1 e) 0 < (N : Int)
      rw [hs0, hw0, h0]; have := n.isLt; omega
    rw [dif_pos hall]
    congr 1
    funext a; refine Fin.ext ?_
    obtain rfl : a = 0 := Subsingleton.elim _ _
    show ((sdims1 N E wf).start (ix1 e) idx 0 + (sdims1 N E wf).window (ix1 e) 0).toNat = n.val
    rw [hs0, hw0, h0]; omega

/-- THE ACCUMULATING SCATTER INTO A FLAT ARRAY READ AT `n`: the operand's element plus the sum, over the updates `e`
    whose raw signed index `idx[e, 0]` equals `n`, of `upd[e]`. -/
theorem scatterAdd_rows1_ix1 {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (sdims1 N E wf) x idx upd (ix1 n)
      = x (ix1 n) + ∑ e ∈ Finset.univ.filter (fun e : Fin E => (idx (ix2 e (0 : Fin 1))).toInt = (n.val : Int)),
          upd (ix1 e) := by
  show x (ix1 n) + ∑ j ∈ Finset.univ.filter (fun j => (sdims1 N E wf).resultIdx? j idx = some (ix1 n)), upd j = _
  congr 1
  rw [Finset.sum_filter, sum_idx1, Finset.sum_filter]
  refine Finset.sum_congr rfl fun e _ => ?_
  by_cases hq : (idx (ix2 e (0 : Fin 1))).toInt = (n.val : Int)
  · rw [if_pos hq, if_pos ((sdims1_resultIdx?_eq_some wf idx e n).mpr hq)]
  · rw [if_neg hq, if_neg (fun h => hq ((sdims1_resultIdx?_eq_some wf idx e n).mp h))]

/-- The same at any operand index `i`: `x i` plus the sum over the updates whose raw signed index is `i`'s coordinate. -/
theorem scatterAdd_rows1_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ)
    (i : (⟨1, ![N]⟩ : Shape).Idx) :
    Host.scatterAdd (F := Ideal) (sdims1 N E wf) x idx upd i
      = x i + ∑ e ∈ Finset.univ.filter (fun e : Fin E => (idx (ix2 e (0 : Fin 1))).toInt = ((i 0).val : Int)),
          upd (ix1 e) := by
  obtain ⟨n, rfl⟩ : ∃ n : Fin N, i = ix1 n := ⟨i 0, eq_ix1 i⟩
  exact scatterAdd_rows1_ix1 wf x idx upd n

end Scatter

/-! ## A two-piece `concatenate` of flat arrays, read at an index

`jnp.concatenate([a, b])` of `a : [A]` and `b : [B]` into `[T]`, `T = A + B`: position `k` reads `a` at `k` below `A`
and `b` at `k − A` from `A` on. The total `T` is a parameter of its own (with `T = A + B` a hypothesis) so that the
lemmas apply to a program's literal total. -/

section Concatenate
variable {α : Type}

/-- A position below the first extent reads the first piece there. -/
theorem concat1_apply_left {A B T : Nat} (a : (⟨1, ![A]⟩ : Shape).Idx → α) (b : (⟨1, ![B]⟩ : Shape).Idx → α)
    (h : Shape.Concatenates [⟨1, ![A]⟩, ⟨1, ![B]⟩] ⟨1, ![T]⟩ 0) (k : Fin T) (hk : k.val < A) :
    concatenate ⟨1, ![T]⟩ 0 [⟨⟨1, ![A]⟩, a⟩, ⟨⟨1, ![B]⟩, b⟩] h (ix1 k) = a (ix1 ⟨k.val, hk⟩) := by
  refine concatenate_pair_apply_left 0 a b h (ix1 k) rfl (ix1 ⟨k.val, hk⟩) ?_
  intro c
  obtain rfl : c = 0 := Subsingleton.elim _ _
  rfl

/-- A position at or past the first extent reads the second piece, the first extent less. -/
theorem concat1_apply_right {A B T : Nat} (hT : T = A + B) (a : (⟨1, ![A]⟩ : Shape).Idx → α)
    (b : (⟨1, ![B]⟩ : Shape).Idx → α) (h : Shape.Concatenates [⟨1, ![A]⟩, ⟨1, ![B]⟩] ⟨1, ![T]⟩ 0) (k : Fin T)
    (hk : A ≤ k.val) :
    concatenate ⟨1, ![T]⟩ 0 [⟨⟨1, ![A]⟩, a⟩, ⟨⟨1, ![B]⟩, b⟩] h (ix1 k)
      = b (ix1 ⟨k.val - A, by have := k.isLt; omega⟩) := by
  refine concatenate_pair_apply_right 0 a b h (ix1 k) rfl rfl (ix1 ⟨k.val - A, by have := k.isLt; omega⟩) ?_ ?_
  · intro c hc
    exact absurd (Subsingleton.elim _ _) hc
  · show (k.val - A) + A = k.val
    omega

/-- Both at once: the concatenation read at `k` is the two pieces' coordinate functions appended, at `k`. -/
theorem concat1_apply {A B T : Nat} (hT : T = A + B) (a : (⟨1, ![A]⟩ : Shape).Idx → α)
    (b : (⟨1, ![B]⟩ : Shape).Idx → α) (h : Shape.Concatenates [⟨1, ![A]⟩, ⟨1, ![B]⟩] ⟨1, ![T]⟩ 0) (k : Fin T) :
    concatenate ⟨1, ![T]⟩ 0 [⟨⟨1, ![A]⟩, a⟩, ⟨⟨1, ![B]⟩, b⟩] h (ix1 k)
      = Fin.append (fun e => a (ix1 e)) (fun j => b (ix1 j)) (k.cast hT) := by
  by_cases hk : k.val < A
  · rw [concat1_apply_left a b h k hk]
    have hc : k.cast hT = Fin.castAdd B ⟨k.val, hk⟩ := Fin.ext rfl
    rw [hc, Fin.append_left]
  · have hk' : A ≤ k.val := Nat.le_of_not_lt hk
    rw [concat1_apply_right hT a b h k hk']
    have hc : k.cast hT = Fin.natAdd A ⟨k.val - A, by have := k.isLt; omega⟩ :=
      Fin.ext (by show k.val = A + (k.val - A); omega)
    rw [hc, Fin.append_right]

end Concatenate

end Idealize.ShloMosaic.HostRead

end
-- ==== Proof.RealMathBase.lean ====
/-
  Extended reals that are real numbers: closure of "is a real" under the operations the network uses, and the
  two identities on real sums behind the batch normalisation.

  * A finite sum of reals, a product, a difference, a maximum of reals is a real; the quotient of a real by a
    nonzero real constant is a real; the inverse square root of a positive real is a real.
  * The variance identity: with n the number of terms and mu = (sum x) / n,
    (sum (x - mu)^2) / n = (sum x^2) / n - mu^2; both sides are written with the reciprocal 1 / n as a factor.
  * The single-precision words 0x3F800000, 0x47C35000 and 0x3727C5AC denote the reals 1, 100000 and
    10995116 * 2^(-40) > 0.
-/
import Idealize.ShloMosaic.Lib.ValueIdx
import Idealize.ShloMosaic.PureOps.Ideal

noncomputable section

open scoped BigOperators

namespace Cert.Gcn

open Idealize.ShloMosaic Idealize.ShloMosaic.ValueIdx

/-- Every entry of the array is a real number (neither infinity). -/
def AllReal {S : Shape} (a : S.Idx → EReal) : Prop := ∀ i, ∃ r : ℝ, a i = (r : EReal)

/-! ### Sums of reals -/

/-- The coercion of the reals into the extended reals commutes with finite sums. -/
theorem coe_finset_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A finite sum of reals is a real. -/
theorem exists_real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by simp only [hg, coe_finset_sum]⟩

/-- A finite sum of nonnegative reals is a nonnegative real. -/
theorem exists_nonneg_sum {ι : Type*} (s : Finset ι) (f : ι → EReal)
    (hf : ∀ i, ∃ r : ℝ, 0 ≤ r ∧ f i = (r : EReal)) : ∃ r : ℝ, 0 ≤ r ∧ ∑ i ∈ s, f i = (r : EReal) := by
  choose g hg0 hg using hf
  exact ⟨∑ i ∈ s, g i, Finset.sum_nonneg (fun i _ => hg0 i), by simp only [hg, coe_finset_sum]⟩

/-! ### Closure under the pointwise operations -/

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

theorem real_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb; exact ⟨x - y, (EReal.coe_sub x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

theorem real_max {a b : EReal} (ha : ∃ r : ℝ, a = (r : EReal)) (hb : ∃ r : ℝ, b = (r : EReal)) :
    ∃ r : ℝ, max a b = (r : EReal) := by
  obtain ⟨x, rfl⟩ := ha; obtain ⟨y, rfl⟩ := hb; exact ⟨max x y, (EReal.coe_strictMono.monotone.map_max).symm⟩

theorem real_zero : ∃ r : ℝ, (0 : EReal) = (r : EReal) := ⟨0, EReal.coe_zero.symm⟩

theorem real_one : ∃ r : ℝ, (1 : EReal) = (r : EReal) := ⟨1, EReal.coe_one.symm⟩

/-- The quotient of a real by a nonzero real is a real. -/
theorem real_div_coe {a : EReal} {y : ℝ} (hy : y ≠ 0) (ha : ∃ r : ℝ, a = (r : EReal)) :
    ∃ r : ℝ, Ideal.div a (y : EReal) = (r : EReal) := by
  obtain ⟨x, rfl⟩ := ha
  exact ⟨x * (1 / y), by rw [Ideal.div_coe hy, EReal.coe_mul]⟩

/-- The inverse square root of a positive real is a real. -/
theorem real_rsqrt_pos {a : EReal} (ha : ∃ r : ℝ, 0 < r ∧ a = (r : EReal)) : ∃ r : ℝ, Ideal.rsqrt a = (r : EReal) := by
  obtain ⟨x, hx, rfl⟩ := ha
  exact ⟨(Real.sqrt x)⁻¹, by rw [Ideal.rsqrt_coe, if_neg (not_lt.mpr hx.le), if_neg hx.ne']⟩

/-! ### The variance identity -/

/-- Over the reals: the mean of the squared deviations from the mean is the mean of the squares less the
    square of the mean; `n` is the number of terms and the division is written as the factor `1 / n`. -/
theorem real_var_dev {ι : Type*} [Fintype ι] (f : ι → ℝ) (n : ℝ) (hn : n = (Fintype.card ι : ℝ)) (hn0 : n ≠ 0) :
    (∑ i, (f i - (∑ j, f j) * (1 / n)) * (f i - (∑ j, f j) * (1 / n))) * (1 / n)
      = (∑ i, f i * f i) * (1 / n) - ((∑ j, f j) * (1 / n)) * ((∑ j, f j) * (1 / n)) := by
  have h1 : ∀ i, (f i - (∑ j, f j) * (1 / n)) * (f i - (∑ j, f j) * (1 / n))
      = f i * f i - 2 * ((∑ j, f j) * (1 / n)) * f i + ((∑ j, f j) * (1 / n)) * ((∑ j, f j) * (1 / n)) := fun i => by ring
  simp only [h1, Finset.sum_add_distrib, Finset.sum_sub_distrib, ← Finset.mul_sum, Finset.sum_const, Finset.card_univ,
    nsmul_eq_mul, ← hn]
  field_simp
  ring

/-- The same on the extended reals, for a family of reals and a real divisor equal to the number of terms. -/
theorem ereal_var_dev {ι : Type*} [Fintype ι] (f : ι → EReal) (hf : ∀ i, ∃ r : ℝ, f i = (r : EReal)) (n : ℝ)
    (hn : n = (Fintype.card ι : ℝ)) (hn0 : n ≠ 0) :
    Ideal.div (∑ i, (f i - Ideal.div (∑ j, f j) (n : EReal)) * (f i - Ideal.div (∑ j, f j) (n : EReal))) (n : EReal)
      = Ideal.div (∑ i, f i * f i) (n : EReal) - Ideal.div (∑ j, f j) (n : EReal) * Ideal.div (∑ j, f j) (n : EReal) := by
  choose g hg using hf
  simp only [hg, Ideal.div_coe hn0, coe_finset_sum, ← EReal.coe_mul, ← EReal.coe_sub]
  exact congrArg _ (real_var_dev g n hn hn0)

/-- The variance written as the mean of the squares less the square of the mean is a nonnegative real: it is the
    mean of the squared deviations. -/
theorem ereal_var_nonneg {ι : Type*} [Fintype ι] (f : ι → EReal) (hf : ∀ i, ∃ r : ℝ, f i = (r : EReal)) (n : ℝ)
    (hn : n = (Fintype.card ι : ℝ)) (hn0 : n ≠ 0) :
    ∃ v : ℝ, 0 ≤ v ∧
      Ideal.div (∑ i, f i * f i) (n : EReal) - Ideal.div (∑ j, f j) (n : EReal) * Ideal.div (∑ j, f j) (n : EReal)
        = (v : EReal) := by
  rw [← ereal_var_dev f hf n hn hn0]
  choose g hg using hf
  simp only [hg, Ideal.div_coe hn0, coe_finset_sum, ← EReal.coe_mul, ← EReal.coe_sub]
  have hn1 : (0 : ℝ) ≤ 1 / n := one_div_nonneg.2 (hn ▸ Nat.cast_nonneg _)
  exact ⟨_, mul_nonneg (Finset.sum_nonneg fun i _ => mul_self_nonneg _) hn1, rfl⟩

/-- The larger of a nonnegative real and 1 is a positive real. -/
theorem real_max_one_pos {a : EReal} (ha : ∃ r : ℝ, 0 ≤ r ∧ a = (r : EReal)) :
    ∃ r : ℝ, 0 < r ∧ max a 1 = (r : EReal) := by
  obtain ⟨x, _, rfl⟩ := ha
  exact ⟨max x 1, lt_of_lt_of_le one_pos (le_max_right x 1), by
    rw [← EReal.coe_one]; exact (EReal.coe_strictMono.monotone.map_max).symm⟩

/-! ### Three single-precision constants -/

/-- The word 0x3F800000 denotes 1. -/
theorem ofBits_one : Ideal.ofBits .f32 0x3F800000#32 = 1 := by
  simp [Ideal.ofBits, Ideal.ieee, -EReal.coe_mul]; norm_num

/-- The word 0x47C35000 denotes 100000 = (2^23 + 4411392) · 2^(-7). -/
theorem ofBits_100000 : Ideal.ofBits .f32 0x47C35000#32 = ((100000 : ℝ) : EReal) := by
  simp [Ideal.ofBits, Ideal.ieee, -EReal.coe_mul]; norm_num

/-- The word 0x3727C5AC denotes a positive real, (2^23 + 2606508) · 2^(-40). -/
theorem ofBits_eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

end Cert.Gcn

end
-- ==== Proof.RealMath.lean ====
/-
  The dense stages of the network keep real entries real, and the variance of the normalisation is the mean of
  the squared deviations.

  * `c100k` is the real 100000 and `eps` a positive real.
  * `var_dev_eq`: per feature, over the 100000 nodes, (sum (x - mu)^2) / n = (sum x^2) / n - mu^2 with
    mu = (sum x) / n, for a column of reals.
  * A matrix product of real matrices is real (a finite sum of products); bias-and-clamp of reals is real; the
    batch normalisation of a real matrix with real scale and shift is real: the mean is a real, the variance is
    by `var_dev_eq` a nonnegative real, so variance plus `eps` is a positive real and its inverse square root
    is a real.
-/
import proofs.«172140_j79293686219286_1_alg».proof.Proof.Spec
import proofs.«172140_j79293686219286_1_alg».proof.Proof.RealMathBase

noncomputable section

open scoped BigOperators

namespace Cert.Gcn

open Idealize.ShloMosaic Idealize.ShloMosaic.ValueIdx

/-- The divisor of the mean is the real 100000. -/
theorem c100k_eq : c100k = ((100000 : ℝ) : EReal) := ofBits_100000

/-- The variance offset is a positive real. -/
theorem eps_pos : ∃ e : ℝ, 0 < e ∧ eps = (e : EReal) := ofBits_eps_pos

/-- Per feature: the mean over the nodes of the squared deviations from the mean is the mean of the squares less
    the square of the mean. -/
theorem var_dev_eq (h : Feat) (hh : AllReal h) (c : Fin 128) :
    Ideal.div (∑ r : Fin 100000, (h (ix2 r c) - Ideal.div (∑ r' : Fin 100000, h (ix2 r' c)) c100k)
        * (h (ix2 r c) - Ideal.div (∑ r' : Fin 100000, h (ix2 r' c)) c100k)) c100k
      = Ideal.div (∑ r : Fin 100000, h (ix2 r c) * h (ix2 r c)) c100k
        - Ideal.div (∑ r : Fin 100000, h (ix2 r c)) c100k * Ideal.div (∑ r : Fin 100000, h (ix2 r c)) c100k := by
  rw [c100k_eq]
  exact ereal_var_dev (fun r : Fin 100000 => h (ix2 r c)) (fun r => hh (ix2 r c)) 100000 (by simp) (by norm_num)

/-- A product of real matrices is real. -/
theorem allReal_mmS (x : Feat) (w : Wt) (hx : AllReal x) (hw : AllReal w) : AllReal (mmS x w) :=
  fun i => exists_real_sum Finset.univ (fun k : Fin 128 => x (ix2 (i 0) k) * w (ix2 k (i 1)))
    (fun k => real_mul (hx _) (hw _))

/-- Adding a real bias row to a real matrix and clamping below at zero gives a real matrix. -/
theorem allReal_biasRelu (a : Feat) (b : SR.Idx → EReal) (ha : AllReal a) (hb : AllReal b) : AllReal (biasRelu a b) :=
  fun i => real_max (real_add (ha i) (hb _)) real_zero

/-- A real vector read as a row is real. -/
theorem allReal_rowOf (v : V128) (hv : AllReal v) : AllReal (rowOf v) := fun i => hv (ix1 (i 1))

/-- The column sums of a real matrix are real. -/
theorem allReal_colSum (h : Feat) (hh : AllReal h) : AllReal (colSum h) :=
  fun i => exists_real_sum Finset.univ (fun r : Fin 100000 => h (ix2 r (i 1))) (fun r => hh _)

/-- The mean row of a real row is real. -/
theorem allReal_meanRow (s : SR.Idx → EReal) (hs : AllReal s) : AllReal (meanRow s) := fun i => by
  show ∃ r : ℝ, Ideal.div (s i) c100k = (r : EReal)
  rw [c100k_eq]
  exact real_div_coe (by norm_num) (hs i)

/-- The variance row of a real matrix is a nonnegative real in every feature. -/
theorem varRow_nonneg (h : Feat) (hh : AllReal h) (i : SR.Idx) :
    ∃ v : ℝ, 0 ≤ v ∧ varRow (colSum h) (colSumSq h) i = (v : EReal) := by
  show ∃ v : ℝ, 0 ≤ v ∧
    Ideal.div (∑ r : Fin 100000, h (ix2 r (i 1)) * h (ix2 r (i 1))) c100k
      - Ideal.div (∑ r : Fin 100000, h (ix2 r (i 1))) c100k * Ideal.div (∑ r : Fin 100000, h (ix2 r (i 1))) c100k = (v : EReal)
  rw [c100k_eq]
  exact ereal_var_nonneg (fun r : Fin 100000 => h (ix2 r (i 1))) (fun r => hh _) 100000 (by simp) (by norm_num)

/-- The batch normalisation of a real matrix with real scale and shift is a real matrix. -/
theorem allReal_bnK (h : Feat) (g be : V128) (hh : AllReal h) (hg : AllReal g) (hbe : AllReal be) :
    AllReal (bnK h g be) := fun i => by
  obtain ⟨v, hv0, hv⟩ := varRow_nonneg h hh (ix2 (0 : Fin 1) (i 1))
  obtain ⟨e, he0, he⟩ := eps_pos
  have hr : ∃ r : ℝ, Ideal.rsqrt (varRow (colSum h) (colSumSq h) (ix2 (0 : Fin 1) (i 1)) + eps) = (r : EReal) :=
    real_rsqrt_pos ⟨v + e, by positivity, by rw [hv, he, EReal.coe_add]⟩
  exact real_max (real_add (real_mul (real_mul
    (real_sub (hh i) (allReal_meanRow _ (allReal_colSum h hh) _)) hr) (allReal_rowOf g hg _)) (allReal_rowOf be hbe _)) real_zero

end Cert.Gcn

end
-- ==== Proof.RealMathAgg.lean ====
/-
  The aggregation over the edges keeps real entries real.

  * The degree count is a sum of ones over the edges landing on a node, added to zero: a nonnegative real. Its
    maximum with 1 is a positive real, so the inverse square root of the clamped degree is a real.
  * An edge's normalisation is the product of two gathered inverse-square-root degrees, broadcast along the
    row: a real.
  * An aggregated entry (n, c) is zero plus the sum, over the edges whose destination is n, of the gathered
    source row's entry in column c times the edge's normalisation: a finite sum of products of reals.
  * Hence one layer (weight, aggregate, bias, clamp) of a real matrix with real weight and bias is real.
-/
import proofs.«172140_j79293686219286_1_alg».proof.Proof.Spec
import proofs.«172140_j79293686219286_1_alg».proof.Proof.LibHostRead
import proofs.«172140_j79293686219286_1_alg».proof.Proof.RealMath

noncomputable section

open scoped BigOperators

namespace Cert.Gcn

open Cert.ReferenceIdeal Cert.ReferenceIdeal.ReadP Idealize.ShloMosaic Idealize.ShloMosaic.TcCoe
  Idealize.ShloMosaic.ValueIdx Idealize.ShloMosaic.HostRead

/-- The degree count of a node: zero plus a one for every edge whose destination is the node — a nonnegative real. -/
theorem v10_nonneg (x1 : Edges) (k : S100000.Idx) :
    ∃ r : ℝ, 0 ≤ r ∧ val_main_v10 (F := Ideal) x1 k = (r : EReal) := by
  have e : val_main_v10 (F := Ideal) x1 k = _ :=
    scatterAdd_rows1_apply (φ := .f32) Cert.ReferenceIdeal.Gen.scatter_S100000_S1700000x1_S1700000_n_0_0_1_wf
      (val_main_v8 (F := Ideal)) (val_main_v9 (F := Ideal) x1) (val_main_v7 (F := Ideal)) k
  rw [e, val_main_v8_apply, val_main_cst_0_apply, Ideal.ofBits_def, Ideal.ofBits_zero_f32, zero_add]
  refine exists_nonneg_sum _ _ (fun e => ⟨1, zero_le_one, ?_⟩)
  rw [val_main_v7_apply, val_main_cst_apply, Ideal.ofBits_def, ofBits_one, EReal.coe_one]

/-- The inverse square root of the degree clamped below at 1 is a real. -/
theorem v13_real (x1 : Edges) (k : S100000.Idx) : ∃ r : ℝ, val_main_v13 (F := Ideal) x1 k = (r : EReal) := by
  rw [val_main_v13_apply, val_main_v12_apply, val_main_v11_apply, val_main_cst_1_apply, Ideal.hostUnary_rsqrt_def,
    Ideal.maximumf_def, Ideal.ofBits_def, ofBits_one]
  exact real_rsqrt_pos (real_max_one_pos (v10_nonneg x1 k))

/-- The inverse-square-root degree gathered at one endpoint of every edge is a real. -/
theorem v20_real (x1 : Edges) (j : S1700000.Idx) : ∃ r : ℝ, val_main_v20 (F := Ideal) x1 j = (r : EReal) := by
  have e : val_main_v20 (F := Ideal) x1 j = _ :=
    gather_rows1_apply (by decide) Cert.ReferenceIdeal.Gen.gather_S100000_S1700000x1_S1700000_n_0_n_n_0_1_1_wf
      (val_main_v13 (F := Ideal) x1) (val_main_v19 (F := Ideal) x1) j
  rw [e]
  exact v13_real x1 _

/-- … and at the other endpoint. -/
theorem v27_real (x1 : Edges) (j : S1700000.Idx) : ∃ r : ℝ, val_main_v27 (F := Ideal) x1 j = (r : EReal) := by
  have e : val_main_v27 (F := Ideal) x1 j = _ :=
    gather_rows1_apply (by decide) Cert.ReferenceIdeal.Gen.gather_S100000_S1700000x1_S1700000_n_0_n_n_0_1_1_wf
      (val_main_v13 (F := Ideal) x1) (val_main_v26 (F := Ideal) x1) j
  rw [e]
  exact v13_real x1 _

/-- An edge's normalisation, the product of the two, is a real. -/
theorem v28_real (x1 : Edges) (j : S1700000.Idx) : ∃ r : ℝ, val_main_v28 (F := Ideal) x1 j = (r : EReal) := by
  rw [val_main_v28_apply, Ideal.mulf_def]
  exact real_mul (v20_real x1 j) (v27_real x1 j)

/-- The normalisation broadcast along the feature row is a real at every entry. -/
theorem v38_real (x1 : Edges) (j : S1700000x128.Idx) : ∃ r : ℝ, val_main_v38 (F := Ideal) x1 j = (r : EReal) := by
  rw [val_main_v38_apply, val_main_v37_apply]
  exact v28_real x1 _

/-- Aggregating a real matrix over the edges gives a real matrix. -/
theorem allReal_agg (x1 : Edges) (h : Feat) (hh : AllReal h) : AllReal (agg x1 h) := fun i => by
  have e : agg x1 h i = _ :=
    scatterAdd_rows2_apply (φ := .f32) Cert.ReferenceIdeal.Gen.scatter_S100000x128_S1700000x1_S1700000x128_1_0_0_1_wf
      (val_main_v40 (F := Ideal)) (val_main_v41 (F := Ideal) x1)
      (mulf (Host.gather gather_S100000x128_S1700000x1_S1700000x128_1_0_n_n_0_1_1128 h (val_main_v35 (F := Ideal) x1))
        (val_main_v38 (F := Ideal) x1)) i
  rw [e]
  refine real_add ?_ (exists_real_sum _ _ fun e => ?_)
  · rw [val_main_v40_apply, val_main_cst_7_apply, Ideal.ofBits_def, Ideal.ofBits_zero_f32]
    exact real_zero
  · rw [mulf_apply]
    refine real_mul ?_ (v38_real x1 _)
    have g : Host.gather gather_S100000x128_S1700000x1_S1700000x128_1_0_n_n_0_1_1128 h (val_main_v35 (F := Ideal) x1)
        (ix2 e (i 1)) = _ :=
      gather_rows2_apply (by decide) Cert.ReferenceIdeal.Gen.gather_S100000x128_S1700000x1_S1700000x128_1_0_n_n_0_1_1128_wf
        h (val_main_v35 (F := Ideal) x1) (ix2 e (i 1))
    rw [g]
    exact hh _

/-- One layer of a real matrix with real weight and bias is a real matrix. -/
theorem allReal_layer (x1 : Edges) (h : Feat) (w : Wt) (b : V128) (hh : AllReal h) (hw : AllReal w) (hb : AllReal b) :
    AllReal (layer x1 h w b) :=
  allReal_biasRelu _ _ (allReal_agg x1 _ (allReal_mmS h w hh hw)) (allReal_rowOf b hb)

end Cert.Gcn

end
-- ==== Proof.RefNet.lean ====
/-
  The reference program's result is the network function `net` of its arguments.

  The reference is read stage by stage. Each of the three layers is a matrix product, the gather / scale /
  scatter-add over the edge list, a bias and a clamp; the second and third layers repeat the first layer's index
  bookkeeping (the wrapped source rows, the broadcast edge normalisation, the zero accumulator, the destination
  rows, the zero array of the clamp) under new names, and each repeated array is the same term as the first
  layer's. Each of the two batch normalisations is `bnRef` of the layer before it, with its constants again repeated
  under new names; it equals the entrywise `bnK` because the layer outputs are real whenever the inputs and the
  parameters are. The tail (pooling per graph, classifier, log-softmax) is applied unchanged.
-/
import proofs.«172140_j79293686219286_1_alg».proof.Proof.RefBn
import proofs.«172140_j79293686219286_1_alg».proof.Proof.RealMathAgg

noncomputable section

open scoped BigOperators

namespace Cert.Gcn

open Cert.ReferenceIdeal Cert.ReferenceIdeal.Gen Cert.ReferenceIdeal.ReadP Idealize.ShloMosaic Idealize.ShloMosaic.TcCoe
  Idealize.ShloMosaic.ValueIdx

/-- The reference's normalisation of a real matrix is the entrywise one. -/
theorem bnRef_eq (h : Feat) (g be : V128) (hh : AllReal h) : bnRef h g be = bnK h g be :=
  bnRef_eq_of_var h g be (var_dev_eq h hh)

/-! ### One layer, from the host operations of the first layer -/

/-- Matrix product, gather of the source rows, scaling, scatter-add per destination, bias, clamp: one layer. -/
theorem layer_of_chain (x1 : Edges) (y : Feat) (w : Wt) (b : V128) :
    maximumf
      (addf
        (Host.scatterAdd (F := Ideal) scatter_S100000x128_S1700000x1_S1700000x128_1_0_0_1 (val_main_v40 (F := Ideal))
          (val_main_v41 (F := Ideal) x1)
          (mulf
            (Host.gather gather_S100000x128_S1700000x1_S1700000x128_1_0_n_n_0_1_1128
              (Host.dotGeneral (F := Ideal) dot_S100000x128_S128x128_S100000x128_1_0_0_1_n_n none y w)
              (val_main_v35 (F := Ideal) x1))
            (val_main_v38 (F := Ideal) x1)))
        (broadcastInDim S100000x128 ![0, 1] bcast_S1x128_S100000x128_0_1
          (broadcastInDim S1x128 ![1] bcast_S128_S1x128_1 b)))
      (val_main_call0_v0 (F := Ideal))
      = layer x1 y w b := by
  rw [dot_eq_mmS, hostBiasRelu_eq]
  rfl

/-! ### The repeated index bookkeeping of the second and third layers -/

theorem v53_eq (x1 : Edges) : val_main_v53 (F := Ideal) x1 = val_main_v35 (F := Ideal) x1 := by
  unfold val_main_v53 val_main_v52 val_main_v51 val_main_v50 val_main_v49 val_main_v48 val_main_c_8 val_main_c_9
    val_main_v35 val_main_v34 val_main_v33 val_main_v32 val_main_v31 val_main_v30 val_main_c_5 val_main_c_6
  rfl

theorem v56_eq (x1 : Edges) : val_main_v56 (F := Ideal) x1 = val_main_v38 (F := Ideal) x1 := by
  unfold val_main_v56 val_main_v55 val_main_v38 val_main_v37
  rfl

theorem v58_eq : val_main_v58 (F := Ideal) = val_main_v40 (F := Ideal) := by
  unfold val_main_v58 val_main_cst_10 val_main_v40 val_main_cst_7
  rfl

theorem v59_eq (x1 : Edges) : val_main_v59 (F := Ideal) x1 = val_main_v41 (F := Ideal) x1 := by
  unfold val_main_v59 val_main_v41
  rfl

theorem call1_eq : val_main_call1_v0 (F := Ideal) = val_main_call0_v0 (F := Ideal) := by
  unfold val_main_call1_v0 val_main_call1_cst val_main_call0_v0 val_main_call0_cst
  rfl

theorem v97_eq (x1 : Edges) : val_main_v97 (F := Ideal) x1 = val_main_v35 (F := Ideal) x1 := by
  unfold val_main_v97 val_main_v96 val_main_v95 val_main_v94 val_main_v93 val_main_v92 val_main_c_16 val_main_c_17
    val_main_v35 val_main_v34 val_main_v33 val_main_v32 val_main_v31 val_main_v30 val_main_c_5 val_main_c_6
  rfl

theorem v100_eq (x1 : Edges) : val_main_v100 (F := Ideal) x1 = val_main_v38 (F := Ideal) x1 := by
  unfold val_main_v100 val_main_v99 val_main_v38 val_main_v37
  rfl

theorem v102_eq : val_main_v102 (F := Ideal) = val_main_v40 (F := Ideal) := by
  unfold val_main_v102 val_main_cst_18 val_main_v40 val_main_cst_7
  rfl

theorem v103_eq (x1 : Edges) : val_main_v103 (F := Ideal) x1 = val_main_v41 (F := Ideal) x1 := by
  unfold val_main_v103 val_main_v41
  rfl

theorem call3_eq : val_main_call3_v0 (F := Ideal) = val_main_call0_v0 (F := Ideal) := by
  unfold val_main_call3_v0 val_main_call3_cst val_main_call0_v0 val_main_call0_cst
  rfl

/-! ### The repeated constants of the second normalisation -/

theorem cst19_eq : val_main_cst_19 (F := Ideal) = val_main_cst_11 (F := Ideal) := by
  unfold val_main_cst_19 val_main_cst_11
  rfl

theorem v110_eq : val_main_v110 (F := Ideal) = val_main_v66 (F := Ideal) := by
  unfold val_main_v110 val_main_cst_20 val_main_v66 val_main_cst_12
  rfl

theorem cst21_eq : val_main_cst_21 (F := Ideal) = val_main_cst_13 (F := Ideal) := by
  unfold val_main_cst_21 val_main_cst_13
  rfl

theorem v117_eq : val_main_v117 (F := Ideal) = val_main_v73 (F := Ideal) := by
  unfold val_main_v117 val_main_cst_22 val_main_v73 val_main_cst_14
  rfl

theorem v122_eq : val_main_v122 (F := Ideal) = val_main_v78 (F := Ideal) := by
  unfold val_main_v122 val_main_cst_23 val_main_v78 val_main_cst_15
  rfl

theorem call4_eq : val_main_call4_v0 (F := Ideal) = val_main_call2_v0 (F := Ideal) := by
  unfold val_main_call4_v0 val_main_call4_cst val_main_call2_v0 val_main_call2_cst
  rfl

/-! ### The stages -/

/-- The first layer. -/
theorem v46_eq (x0 : Feat) (x1 : Edges) (x3 : Wt) (x4 : V128) :
    val_main_v46 (F := Ideal) x0 x1 x3 x4 = layer x1 x0 x3 x4 := by
  unfold val_main_v46 val_main_v45 val_main_v44 val_main_v43 val_main_v42 val_main_v39 val_main_v36 val_main_v29
  exact layer_of_chain x1 x0 x3 x4

/-- The second layer, of the first layer's output. -/
theorem v64_eq (x0 : Feat) (x1 : Edges) (x3 : Wt) (x4 : V128) (x5 : Wt) (x6 : V128) :
    val_main_v64 (F := Ideal) x0 x1 x3 x4 x5 x6 = layer x1 (val_main_v46 (F := Ideal) x0 x1 x3 x4) x5 x6 := by
  unfold val_main_v64 val_main_v63 val_main_v62 val_main_v61 val_main_v60 val_main_v57 val_main_v54 val_main_v47
  rw [v53_eq, v56_eq, v58_eq, v59_eq, call1_eq]
  exact layer_of_chain x1 _ x5 x6

/-- The first normalisation, of the second layer's output. -/
theorem v90_eq (x0 : Feat) (x1 : Edges) (x3 : Wt) (x4 : V128) (x5 : Wt) (x6 x9 x10 : V128) :
    val_main_v90 (F := Ideal) x0 x1 x3 x4 x5 x6 x9 x10
      = bnRef (val_main_v64 (F := Ideal) x0 x1 x3 x4 x5 x6) x9 x10 := by
  unfold val_main_v90 val_main_v89 val_main_v88 val_main_v87 val_main_v86 val_main_v85 val_main_v84 val_main_v83
    val_main_v82 val_main_v81 val_main_v80 val_main_v79 val_main_v77 val_main_v76 val_main_v75 val_main_v74
    val_main_v72 val_main_v71 val_main_v70 val_main_v69 val_main_v68 val_main_v67 val_main_v65
  unfold bnRef refVar refMean rowB
  rfl

/-- The third layer, of the first normalisation's output. -/
theorem v108_eq (x0 : Feat) (x1 : Edges) (x3 : Wt) (x4 : V128) (x5 : Wt) (x6 : V128) (x7 : Wt) (x8 x9 x10 : V128) :
    val_main_v108 (F := Ideal) x0 x1 x3 x4 x5 x6 x7 x8 x9 x10
      = layer x1 (val_main_v90 (F := Ideal) x0 x1 x3 x4 x5 x6 x9 x10) x7 x8 := by
  unfold val_main_v108 val_main_v107 val_main_v106 val_main_v105 val_main_v104 val_main_v101 val_main_v98 val_main_v91
  rw [v97_eq, v100_eq, v102_eq, v103_eq, call3_eq]
  exact layer_of_chain x1 _ x7 x8

/-- The second normalisation, of the third layer's output. -/
theorem v134_eq (x0 : Feat) (x1 : Edges) (x3 : Wt) (x4 : V128) (x5 : Wt) (x6 : V128) (x7 : Wt)
    (x8 x9 x10 x11 x12 : V128) :
    val_main_v134 (F := Ideal) x0 x1 x3 x4 x5 x6 x7 x8 x9 x10 x11 x12
      = bnRef (val_main_v108 (F := Ideal) x0 x1 x3 x4 x5 x6 x7 x8 x9 x10) x11 x12 := by
  unfold val_main_v134 val_main_v133 val_main_v132 val_main_v131 val_main_v130 val_main_v129 val_main_v128
    val_main_v127 val_main_v126 val_main_v125 val_main_v124 val_main_v123 val_main_v121 val_main_v120 val_main_v119
    val_main_v118 val_main_v116 val_main_v115 val_main_v114 val_main_v113 val_main_v112 val_main_v111 val_main_v109
  rw [cst19_eq, v110_eq, cst21_eq, v117_eq, v122_eq, call4_eq]
  unfold bnRef refVar refMean rowB
  rfl

/-- The tail, of the second normalisation's output. -/
theorem v151_eq_tail (x0 : Feat) (x1 : Edges) (x2 : Batch) (x3 : Wt) (x4 : V128) (x5 : Wt) (x6 : V128) (x7 : Wt)
    (x8 x9 x10 x11 x12 : V128) (x13 : (⟨S128x10, .f32⟩ : BufTy).Contents (Elt Ideal))
    (x14 : (⟨S10, .f32⟩ : BufTy).Contents (Elt Ideal)) :
    val_main_v151 (F := Ideal) x0 x1 x2 x3 x4 x5 x6 x7 x8 x9 x10 x11 x12 x13 x14
      = tail x2 x13 x14 (val_main_v134 (F := Ideal) x0 x1 x3 x4 x5 x6 x7 x8 x9 x10 x11 x12) := by
  unfold val_main_v151 val_main_call5_v10 val_main_call5_v9 val_main_call5_v8 val_main_call5_v7 val_main_call5_v6
    val_main_call5_v5 val_main_call5_v4 val_main_call5_v3 val_main_call5_v2 val_main_call5_v0 val_main_v150
    val_main_v147 val_main_v146 val_main_v141
  unfold tail logSoftmax logits pooled
  rfl

/-! ### The assembly -/

/-- The reference program computes the network function of its arguments, for real features and parameters. -/
theorem ref_eq_net (x0 : Feat) (x1 : Edges) (x2 : Batch) (x3 : Wt) (x4 : V128) (x5 : Wt) (x6 : V128) (x7 : Wt)
    (x8 x9 x10 x11 x12 : V128) (x13 : (⟨S128x10, .f32⟩ : BufTy).Contents (Elt Ideal))
    (x14 : (⟨S10, .f32⟩ : BufTy).Contents (Elt Ideal))
    (h0 : AllReal x0) (h3 : AllReal x3) (h4 : AllReal x4) (h5 : AllReal x5) (h6 : AllReal x6) (h7 : AllReal x7)
    (h8 : AllReal x8) (h9 : AllReal x9) (h10 : AllReal x10) (h11 : AllReal x11) (h12 : AllReal x12) :
    Cert.ReferenceIdeal.ReadP.val_main_v151 (F := Ideal) x0 x1 x2 x3 x4 x5 x6 x7 x8 x9 x10 x11 x12 x13 x14
      = net x0 x1 x2 x3 x4 x5 x6 x7 x8 x9 x10 x11 x12 x13 x14 := by
  have r1 : AllReal (layer x1 x0 x3 x4) := allReal_layer x1 x0 x3 x4 h0 h3 h4
  have r2 : AllReal (layer x1 (layer x1 x0 x3 x4) x5 x6) := allReal_layer x1 _ x5 x6 r1 h5 h6
  have r3 : AllReal (bnK (layer x1 (layer x1 x0 x3 x4) x5 x6) x9 x10) := allReal_bnK _ x9 x10 r2 h9 h10
  have r4 : AllReal (layer x1 (bnK (layer x1 (layer x1 x0 x3 x4) x5 x6) x9 x10) x7 x8) :=
    allReal_layer x1 _ x7 x8 r3 h7 h8
  have e64 : val_main_v64 (F := Ideal) x0 x1 x3 x4 x5 x6 = layer x1 (layer x1 x0 x3 x4) x5 x6 := by
    rw [v64_eq, v46_eq]
  have e90 : val_main_v90 (F := Ideal) x0 x1 x3 x4 x5 x6 x9 x10
      = bnK (layer x1 (layer x1 x0 x3 x4) x5 x6) x9 x10 := by
    rw [v90_eq, e64]
    exact bnRef_eq _ x9 x10 r2
  have e108 : val_main_v108 (F := Ideal) x0 x1 x3 x4 x5 x6 x7 x8 x9 x10
      = layer x1 (bnK (layer x1 (layer x1 x0 x3 x4) x5 x6) x9 x10) x7 x8 := by
    rw [v108_eq, e90]
  have e134 : val_main_v134 (F := Ideal) x0 x1 x3 x4 x5 x6 x7 x8 x9 x10 x11 x12
      = bnK (layer x1 (bnK (layer x1 (layer x1 x0 x3 x4) x5 x6) x9 x10) x7 x8) x11 x12 := by
    rw [v134_eq, e108]
    exact bnRef_eq _ x11 x12 r4
  rw [v151_eq_tail, e134]
  rfl

end Cert.Gcn

end
-- ==== Proof.RealInputs.lean ====
/-
  From the finiteness precondition to real inputs.

  The precondition is, for every float argument x, the conjunction over all entries of |x| < +infinity, all of
  them and-ed together; it is stated to be the one-bit word 1. An "and" that is 1 has both operands 1; a
  reduction by "and" over every axis that is 1 met a 1 at every entry; and an extended real whose absolute value
  max x (-x) is below the top element is neither infinity, so it is a real.
-/
import proofs.«172140_j79293686219286_1_alg».proof.Proof.Gen.Pre_finite_inputs
import proofs.«172140_j79293686219286_1_alg».proof.Proof.RealMathBase
import Idealize.ShloMosaic.Lib.ReduceAll
import Idealize.ShloMosaic.Lib.Pipeline.Value

noncomputable section

namespace Cert.Gcn

open Idealize.ShloMosaic Idealize.ShloMosaic.ValueIdx Cert.Pre_finite_inputs

/-- The shape with no axes has one index. -/
instance subsingleton_scalar_idx : Subsingleton Cert.Pre_finite_inputs.S_.Idx := ⟨fun _ _ => funext fun d => d.elim0⟩

/-- The single-precision word 0x7F800000 denotes the top element. -/
theorem ofBits_inf : Ideal.ofBits .f32 0x7F800000#32 = ⊤ := by
  simp [Ideal.ofBits, Ideal.ieee]

/-- An extended real whose absolute value is strictly below +infinity is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [ofBits_inf] at h
  induction x using EReal.rec with
  | bot => simp [Ideal.cmp] at h
  | coe r => exact ⟨r, rfl⟩
  | top => simp [Ideal.cmp] at h

/-- If the conjunction over all entries of |x| < +infinity is 1, every entry of x is a real. -/
theorem allReal_of_all {S : Shape} {axes : List (Fin S.rank)} (x : FVec Ideal S .f32)
    (bc : S_.BroadcastsInDim S (![] : Fin 0 → Fin S.rank)) (red : S.ReducesTo axes S_) (hS : 0 < S_.numel) (init : IVec S_ 1)
    (h : Host.reduce IntOp.andi (cmpf .olt (Host.absf x) (broadcastInDim S ![] bc (constant (F := Ideal) S_ .f32 0x7F800000#32)))
      init red hS ix0 = 1#1) : AllReal x := fun i =>
  real_of_abs_lt_inf (x i) (Host.reduce_andi_all _ init red hS ix0 h i)

/-- An entrywise "and" of one-entry arrays, read at the entry. -/
theorem andi_ix0 (x y : IVec S_ 1) : andi x y ix0 = IntOp.andi (x ix0) (y ix0) := rfl

/-- Under the finiteness precondition the float arguments of the network's three layers and two normalisations are
    real in every entry. -/
theorem inputs_real (a0 : FVec Ideal S100000x128 .f32) (a1 : IVec S2x1600000 32) (a2 : IVec S100000 32)
    (a3 : FVec Ideal S128x128 .f32) (a4 : FVec Ideal S128 .f32) (a5 : FVec Ideal S128x128 .f32) (a6 : FVec Ideal S128 .f32)
    (a7 : FVec Ideal S128x128 .f32) (a8 a9 a10 a11 a12 : FVec Ideal S128 .f32) (a13 : FVec Ideal S128x10 .f32)
    (a14 : FVec Ideal S10 .f32)
    (hpre : Cert.Pre_finite_inputs.fn (F := Ideal) a0 a1 a2 a3 a4 a5 a6 a7 a8 a9 a10 a11 a12 a13 a14 = fun _ => 1#1) :
    AllReal a0 ∧ AllReal a3 ∧ AllReal a4 ∧ AllReal a5 ∧ AllReal a6 ∧ AllReal a7 ∧ AllReal a8 ∧ AllReal a9 ∧ AllReal a10
      ∧ AllReal a11 ∧ AllReal a12 := by
  have h := congrFun hpre ix0
  dsimp only [fn, fn_part1, fn_part2, fn_part3] at h
  simp only [andi_ix0, IntOp.andi_eq_one] at h
  obtain ⟨⟨⟨⟨⟨⟨⟨⟨⟨⟨⟨⟨h0, h3⟩, h4⟩, h5⟩, h6⟩, h7⟩, h8⟩, h9⟩, h10⟩, h11⟩, h12⟩, _⟩, _⟩ := h
  exact ⟨allReal_of_all a0 _ _ _ _ h0, allReal_of_all a3 _ _ _ _ h3, allReal_of_all a4 _ _ _ _ h4,
    allReal_of_all a5 _ _ _ _ h5, allReal_of_all a6 _ _ _ _ h6, allReal_of_all a7 _ _ _ _ h7, allReal_of_all a8 _ _ _ _ h8,
    allReal_of_all a9 _ _ _ _ h9, allReal_of_all a10 _ _ _ _ h10, allReal_of_all a11 _ _ _ _ h11,
    allReal_of_all a12 _ _ _ _ h12⟩

end Cert.Gcn

end
-- ==== Proof.lean ====
/-
  The certificate of a three-layer graph network (a pallas_call per dense stage, the edge gather and scatter-add on the
  host) against its plain reference.

  Frames: the two kernel programs' frames are the generated ones; the reference's is its run with the result dropped.
  The idealization rewrote nothing, so `preserves` asks nothing.
  The value claim: at the exact instance both programs compute ONE function of the argument arrays, `Cert.Gcn.net`.
  * The kernel side reads the result buffer back through the program's segments: each region's output array is a
    whole-array function of the region's inputs (a matrix product; bias and clamp; column sums and column sums of
    squares accumulated over the row tiles; the normalisation applied), and each stretch of host operations is the
    specification's own host operations, so the last boundary holds `net` of the arguments as launched.
  * The reference side reads the reference one operation at a time. Its stages are the same, except that it takes the
    variance as the mean of the squared deviations from the mean where the kernel takes the mean of the squares less the
    squared mean. The two agree on real numbers, and every entry reaching a normalisation is a real number because the
    inputs are finite (sums and products of reals, an inverse square root of a real at least 1 or of a positive
    variance-plus-epsilon): this is where the precondition is used.
-/
import proofs.«172140_j79293686219286_1_alg».proof.Defs
import proofs.«172140_j79293686219286_1_alg».proof.Proof.Gen.Kernel
import proofs.«172140_j79293686219286_1_alg».proof.Proof.Gen.Kernel.Skeleton
import proofs.«172140_j79293686219286_1_alg».proof.Proof.Gen.Kernel.Launch
import proofs.«172140_j79293686219286_1_alg».proof.Proof.Gen.Kernel.Points
import proofs.«172140_j79293686219286_1_alg».proof.Proof.Gen.Kernel.Frame
import proofs.«172140_j79293686219286_1_alg».proof.Proof.Gen.KernelIdeal
import proofs.«172140_j79293686219286_1_alg».proof.Proof.Gen.KernelIdeal.Skeleton
import proofs.«172140_j79293686219286_1_alg».proof.Proof.Gen.KernelIdeal.Launch
import proofs.«172140_j79293686219286_1_alg».proof.Proof.Gen.KernelIdeal.Points
import proofs.«172140_j79293686219286_1_alg».proof.Proof.Gen.KernelIdeal.Frame
import proofs.«172140_j79293686219286_1_alg».proof.Proof.Gen.ReferenceIdeal
import proofs.«172140_j79293686219286_1_alg».proof.Proof.Gen.Pre_finite_inputs
import proofs.«172140_j79293686219286_1_alg».proof.Proof.KRun
import proofs.«172140_j79293686219286_1_alg».proof.Proof.KWAll
import proofs.«172140_j79293686219286_1_alg».proof.Proof.RunV
import proofs.«172140_j79293686219286_1_alg».proof.Proof.RefNet
import proofs.«172140_j79293686219286_1_alg».proof.Proof.RealInputs
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts
  Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RunV.run (F := Ideal) m ρ)

/-- The value claim: both runs end with the result at `net` of the kernel program's arguments as launched. On the
    reference's side the arguments agree with the kernel's, they are real by the precondition, and on real arguments the
    reference's last stage is `net`. -/
theorem algebraic : Cert.algebraic_KernelIdeal_ReferenceIdeal := by
  intro m ρ m' ρ' hpre hagree
  refine ⟨fun c => Cert.Gcn.net (Cert.KernelIdeal.Walk.A0 m c) (Cert.KernelIdeal.Walk.A1 m c) (Cert.KernelIdeal.Walk.A2 m c) (Cert.KernelIdeal.Walk.A3 m c) (Cert.KernelIdeal.Walk.A4 m c) (Cert.KernelIdeal.Walk.A5 m c) (Cert.KernelIdeal.Walk.A6 m c) (Cert.KernelIdeal.Walk.A7 m c) (Cert.KernelIdeal.Walk.A8 m c) (Cert.KernelIdeal.Walk.A9 m c) (Cert.KernelIdeal.Walk.A10 m c) (Cert.KernelIdeal.Walk.A11 m c) (Cert.KernelIdeal.Walk.A12 m c) (Cert.KernelIdeal.Walk.A13 m c) (Cert.KernelIdeal.Walk.A14 m c), ?_, ?_⟩
  · exact (θ_run Cert.KernelIdeal.defs _ _).mono
      (fun r h c => ⟨(h c).1.trans (Cert.KernelIdeal.Walk.W18_result m ρ c), (h c).2⟩)
      (Cert.KernelIdeal.RunVal.run_result (F := Ideal) m ρ)
  · refine (θ_run Cert.ReferenceIdeal.defs _ _).mono (fun r h c => ⟨(h c).1.trans ?_, (h c).2⟩)
      (Cert.ReferenceIdeal.RunV.run (F := Ideal) m' ρ')
    obtain ⟨a0, a1, a2, a3, a4, a5, a6, a7, a8, a9, a10, a11, a12, a13, a14⟩ := hagree c
    rw [a0, a1, a2, a3, a4, a5, a6, a7, a8, a9, a10, a11, a12, a13, a14]
    obtain ⟨r0, r3, r4, r5, r6, r7, r8, r9, r10, r11, r12⟩ :=
      Cert.Gcn.inputs_real (Cert.KernelIdeal.Walk.A0 m c) (Cert.KernelIdeal.Walk.A1 m c) (Cert.KernelIdeal.Walk.A2 m c) (Cert.KernelIdeal.Walk.A3 m c) (Cert.KernelIdeal.Walk.A4 m c) (Cert.KernelIdeal.Walk.A5 m c) (Cert.KernelIdeal.Walk.A6 m c) (Cert.KernelIdeal.Walk.A7 m c) (Cert.KernelIdeal.Walk.A8 m c) (Cert.KernelIdeal.Walk.A9 m c) (Cert.KernelIdeal.Walk.A10 m c) (Cert.KernelIdeal.Walk.A11 m c) (Cert.KernelIdeal.Walk.A12 m c) (Cert.KernelIdeal.Walk.A13 m c) (Cert.KernelIdeal.Walk.A14 m c) (hpre c)
    exact Cert.Gcn.ref_eq_net (Cert.KernelIdeal.Walk.A0 m c) (Cert.KernelIdeal.Walk.A1 m c) (Cert.KernelIdeal.Walk.A2 m c) (Cert.KernelIdeal.Walk.A3 m c) (Cert.KernelIdeal.Walk.A4 m c) (Cert.KernelIdeal.Walk.A5 m c) (Cert.KernelIdeal.Walk.A6 m c) (Cert.KernelIdeal.Walk.A7 m c) (Cert.KernelIdeal.Walk.A8 m c) (Cert.KernelIdeal.Walk.A9 m c) (Cert.KernelIdeal.Walk.A10 m c) (Cert.KernelIdeal.Walk.A11 m c) (Cert.KernelIdeal.Walk.A12 m c) (Cert.KernelIdeal.Walk.A13 m c) (Cert.KernelIdeal.Walk.A14 m c) r0 r3 r4 r5 r6 r7 r8 r9 r10 r11 r12

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
